-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S4096x4096 : Shape := ⟨2, ![4096, 4096]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8192x128 .f32) (main_arg1 : FVec F S4096x4096 .f32) (main_arg2 : FVec F S128x128 .f32) (main_arg3 : FVec F S128 .f32) (main_arg4 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S8192x128 : Shape := ⟨2, ![8192, 128]⟩
abbrev S4096x4096 : Shape := ⟨2, ![4096, 4096]⟩
abbrev S128x128 : Shape := ⟨2, ![128, 128]⟩
abbrev S128 : Shape := ⟨1, ![128]⟩
abbrev S4096x128 : Shape := ⟨2, ![4096, 128]⟩
abbrev S4096x1 : Shape := ⟨2, ![4096, 1]⟩
abbrev S1024x1024 : Shape := ⟨2, ![1024, 1024]⟩
abbrev S1024x1 : Shape := ⟨2, ![1024, 1]⟩
abbrev S1024 : Shape := ⟨1, ![1024]⟩
abbrev S_ : Shape := ⟨0, ![]⟩
abbrev S1024x128 : Shape := ⟨2, ![1024, 128]⟩
abbrev S1024x256 : Shape := ⟨2, ![1024, 256]⟩
abbrev S1x128 : Shape := ⟨2, ![1, 128]⟩

abbrev nBuf : Space → Nat
  | .hbm => 66
  | .vmem => 15
  | .smem => 0
  | _ => 0

abbrev bufTy : (tb : Table) → Fin (tcTables nBuf tb) → BufTy
  | .hbm, ⟨0, _⟩ => ⟨S8192x128, .f32⟩
  | .hbm, ⟨1, _⟩ => ⟨S4096x4096, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S4096x128, .f32⟩
  | .hbm, ⟨6, _⟩ => ⟨S4096x128, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S8192x128, .f32⟩
  | .hbm, ⟨19, _⟩ => ⟨S_, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S_, .i32⟩
  | .hbm, ⟨25, _⟩ => ⟨S_, .f32⟩
  | .hbm, ⟨26, _⟩ => ⟨S128, .f32⟩
  | .hbm, ⟨27, _⟩ => ⟨S1x128, .f32⟩
  | .hbm, ⟨28, _⟩ => ⟨S_, .f32⟩
  | .hbm, ⟨29, _⟩ => ⟨S1x128, .f32⟩
  | .hbm, ⟨30, _⟩ => ⟨S1x128, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S8192x128, .f32⟩
  | .hbm, ⟨49, _⟩ => ⟨S8192x128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S8192x128, .f32⟩
  | .hbm, ⟨56, _⟩ => ⟨S8192x128, .f32⟩
  | .hbm, ⟨57, _⟩ => ⟨S1x128, .f32⟩
  | .hbm, ⟨58, _⟩ => ⟨S8192x128, .f32⟩
  | .hbm, ⟨59, _⟩ => ⟨S8192x128, .f32⟩
  | .hbm, ⟨60, _⟩ => ⟨S1x128, .f32⟩
  | .hbm, ⟨61, _⟩ => ⟨S8192x128, .f32⟩
  | .hbm, ⟨62, _⟩ => ⟨S8192x128, .f32⟩
  | .hbm, ⟨63, _⟩ => ⟨S_, .f32⟩
  | .hbm, ⟨64, _⟩ => ⟨S8192x128, .f32⟩
  | .hbm, ⟨65, _⟩ => ⟨S8192x128, .f32⟩
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S1024x1024, .f32⟩
  | .local _ .vmem, ⟨5, _⟩ => ⟨S1024x1024, .f32⟩
  | .local _ .vmem, ⟨6, _⟩ => ⟨S4096x128, .f32⟩
  | .local _ .vmem, ⟨7, _⟩ => ⟨S4096x128, .f32⟩
  | .local _ .vmem, ⟨8, _⟩ => ⟨S4096x1, .f32⟩
  | .local _ .vmem, ⟨9, _⟩ => ⟨S128x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x256, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_cst_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_cst_3 : Ref sig .tc := ⟨.hbm, 41, rfl⟩
abbrev main_call0_v12 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_call1_cst : Ref sig .tc := ⟨.hbm, 63, rfl⟩
abbrev main_call1_v0 : Ref sig .tc := ⟨.hbm, 64, rfl⟩
abbrev main_v31 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 4], ![false, false]⟩

def k1_mult1 (i : grid1.Coords) : BitVec 32 :=
  let arg1 : BitVec 32 := BitVec.ofNat 32 (i 1).val
  let c1024_i32 : BitVec 32 := 1024#32
  let v10 : BitVec 32 := Scalar.muli arg1 c1024_i32
  v10
def k1_off1 (i : grid1.Coords) : Fin 2 → Nat :=
  let arg1 : BitVec 32 := BitVec.ofNat 32 (i 1).val
  let c1024_i32 : BitVec 32 := 1024#32
  let v10 : BitVec 32 := Scalar.muli arg1 c1024_i32
  let v11 : BitVec 32 := v10
  let v12 : Index := Scalar.indexCast v11
  let c0_4 : Index := 0#32
  ![v12.toNat, 0]
def k1_cond2 (i : grid1.Coords) : BitVec 1 :=
  let arg1 : BitVec 32 := BitVec.ofNat 32 (i 1).val
  let c3_i32 : BitVec 32 := 3#32
  let v26 : BitVec 1 := Scalar.cmpi .eq arg1 c3_i32
  let v27 : BitVec 32 := Scalar.extui v26
  let c0_i32_11 : BitVec 32 := 0#32
  let v28 : BitVec 1 := Scalar.cmpi .ne v27 c0_i32_11
  v28

def k1_mult2 (i : grid1.Coords) : BitVec 32 :=
  let arg0 : BitVec 32 := BitVec.ofNat 32 (i 0).val
  let c1024_i32_12 : BitVec 32 := 1024#32
  let v29 : BitVec 32 := Scalar.muli arg0 c1024_i32_12
  v29
def k1_off2 (i : grid1.Coords) : Fin 2 → Nat :=
  let arg0 : BitVec 32 := BitVec.ofNat 32 (i 0).val
  let c1024_i32_12 : BitVec 32 := 1024#32
  let v29 : BitVec 32 := Scalar.muli arg0 c1024_i32_12
  let v30 : BitVec 32 := v29
  let v31 : Index := Scalar.indexCast v30
  let c0_13 : Index := 0#32
  ![v31.toNat, 0]
def k1_off3 (i : grid1.Coords) : Fin 2 → Nat :=
  let arg0 : BitVec 32 := BitVec.ofNat 32 (i 0).val
  let c1024_i32_12 : BitVec 32 := 1024#32
  let v29 : BitVec 32 := Scalar.muli arg0 c1024_i32_12
  let v30 : BitVec 32 := v29
  let v37 : Index := Scalar.indexCast v30
  let c0_15 : Index := 0#32
  ![v37.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S4096x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S4096x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  slices_S8192x128_S4096x128_0_0 : S8192x128.Slices ![0, 0] S4096x128
  slices_S8192x128_S4096x128_4096_0 : S8192x128.Slices ![4096, 0] S4096x128
  inb_S1024x1_S1024x1_0_0 : ∀ a, (![0, 0] : Fin 2 → Nat) a + S1024x1.size a ≤ S1024x1.size a
  h_S1024x1 : 0 < S1024x1.numel
  inb_S1024x1024_S1024x1024_0_0 : ∀ a, (![0, 0] : Fin 2 → Nat) a + S1024x1024.size a ≤ S1024x1024.size a
  h_S1024x1024 : 0 < S1024x1024.numel
  shapeCasts_S1024x1_S1024x1 : S1024x1.ShapeCasts S1024x1
  reduces_S1024x1024_S1024 : S1024x1024.Reduces [1] S1024
  shapeCasts_S1024_S1024x1 : S1024.ShapeCasts S1024x1
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  h_S1024x128 : 0 < S1024x128.numel
  shapeCasts_S1024x128_S1024x128 : S1024x128.ShapeCasts S1024x128
  concatenates_S1024x128_S1024x128_S1024x256_d1 : Shape.Concatenates [S1024x128, S1024x128] S1024x256 1
  slices_S1024x256_o0_0_S1024x128 : S1024x256.Slices ![0, 0] S1024x128
  slices_S1024x256_o0_128_S1024x128 : S1024x256.Slices ![0, 128] S1024x128
  broadcasts_S1024x1_S1024x128 : S1024x1.Broadcasts S1024x128
  inb_S128x128_S128x128_0_0 : ∀ a, (![0, 0] : Fin 2 → Nat) a + S128x128.size a ≤ S128x128.size a
  h_S128x128 : 0 < S128x128.numel
  inb_S1024x128_S1024x128_0_0 : ∀ a, (![0, 0] : Fin 2 → Nat) a + S1024x128.size a ≤ S1024x128.size a
  concatenates_S4096x128_S4096x128_S8192x128_d0 : Shape.Concatenates [S4096x128, S4096x128] S8192x128 0
  reducesTo_S8192x128_S128_d0 : S8192x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  dot_S1024x1024_S1024x256_S1024x256_1_0_0_1_n_n_wf : DotDims.WF S1024x1024 S1024x256 S1024x256 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S4096x1.size a
  hwx0_1 : ∀ i : grid0.Coords, EltTy.bits .f32 = 32 ∨ (Rect.block (s := S4096x1) S1024x1.size (cc0_transform_1 i) (hinb0_1 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x128.size a ≤ S4096x128.size a
  k1_mult2_dvd : ∀ i : grid1.Coords, ∀ (k1_h2 : k1_cond2 i = 1#1), 1024 ∣ (k1_mult2 i).toNat
  k1_off2_inb : ∀ i : grid1.Coords, ∀ (k1_h2 : k1_cond2 i = 1#1), ∀ a, (k1_off2 i) a + S1024x128.size a ≤ S4096x128.size a
  k1_off3_inb : ∀ i : grid1.Coords, ∀ (k1_h2 : k1_cond2 i = 1#1), ∀ a, (k1_off3 i) a + S1024x1.size a ≤ S4096x1.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S4096x128.size a
  hwx1_2 : ∀ i : grid1.Coords, EltTy.bits .f32 = 32 ∨ (Rect.block (s := S4096x128) S4096x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x1.size a ≤ S4096x1.size a
  hwx1_3 : ∀ i : grid1.Coords, EltTy.bits .f32 = 32 ∨ (Rect.block (s := S4096x1) S4096x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S4096x128.size a
  hwx1_5 : ∀ i : grid1.Coords, EltTy.bits .f32 = 32 ∨ (Rect.block (s := S4096x128) S1024x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S4096x128.size a
  hwx1_6 : ∀ i : grid1.Coords, EltTy.bits .f32 = 32 ∨ (Rect.block (s := S4096x128) S1024x128.size (cc1_transform_6 i) (hinb1_6 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S4096x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S4096x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10_0) S1024x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10_1) S1024x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S4096x4096 : Shape := ⟨2, ![4096, 4096]⟩
abbrev S128x128 : Shape := ⟨2, ![128, 128]⟩
abbrev S128 : Shape := ⟨1, ![128]⟩
abbrev S_ : Shape := ⟨0, ![]⟩
abbrev S4096x8192 : Shape := ⟨2, ![4096, 8192]⟩
abbrev S8192x8192 : Shape := ⟨2, ![8192, 8192]⟩
abbrev S8192 : Shape := ⟨1, ![8192]⟩
abbrev S8192x1 : Shape := ⟨2, ![8192, 1]⟩
abbrev S1x8192 : Shape := ⟨2, ![1, 8192]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S4096x4096, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S4096x4096, .f32⟩
  | .hbm, ⟨7, _⟩ => ⟨S4096x4096, .i1⟩
  | .hbm, ⟨8, _⟩ => ⟨S_, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .i32⟩
  | .hbm, ⟨15, _⟩ => ⟨S4096x4096, .i32⟩
  | .hbm, ⟨16, _⟩ => ⟨S_, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S4096x4096, .f32⟩
  | .hbm, ⟨21, _⟩ => ⟨S4096x8192, .f32⟩
  | .hbm, ⟨22, _⟩ => ⟨S4096x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S1x8192, .f32⟩
  | .hbm, ⟨33, _⟩ => ⟨S8192x8192, .f32⟩
  | .hbm, ⟨34, _⟩ => ⟨S8192x8192, .f32⟩
  | .hbm, ⟨35, _⟩ => ⟨S8192x128, .f32⟩
  | .hbm, ⟨36, _⟩ => ⟨S8192x128, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S_, .i32⟩
  | .hbm, ⟨43, _⟩ => ⟨S_, .f32⟩
  | .hbm, ⟨44, _⟩ => ⟨S128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S1x128, .f32⟩
  | .hbm, ⟨66, _⟩ => ⟨S8192x128, .f32⟩
  | .hbm, ⟨67, _⟩ => ⟨S8192x128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S128, .f32⟩
  | .hbm, ⟨72, _⟩ => ⟨S1x128, .f32⟩
  | .hbm, ⟨73, _⟩ => ⟨S8192x128, .f32⟩
  | .hbm, ⟨74, _⟩ => ⟨S8192x128, .f32⟩
  | .hbm, ⟨75, _⟩ => ⟨S1x128, .f32⟩
  | .hbm, ⟨76, _⟩ => ⟨S8192x128, .f32⟩
  | .hbm, ⟨77, _⟩ => ⟨S8192x128, .f32⟩
  | .hbm, ⟨78, _⟩ => ⟨S1x128, .f32⟩
  | .hbm, ⟨79, _⟩ => ⟨S8192x128, .f32⟩
  | .hbm, ⟨80, _⟩ => ⟨S8192x128, .f32⟩
  | .hbm, ⟨81, _⟩ => ⟨S_, .f32⟩
  | .hbm, ⟨82, _⟩ => ⟨S8192x128, .f32⟩
  | .hbm, ⟨83, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_v0 : Ref sig .tc := ⟨.hbm, 21, rfl⟩
abbrev main_call1_v1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_call2_cst : Ref sig .tc := ⟨.hbm, 43, rfl⟩
abbrev main_call2_v0 : Ref sig .tc := ⟨.hbm, 44, rfl⟩
abbrev main_call2_v1 : Ref sig .tc := ⟨.hbm, 45, rfl⟩
abbrev main_call2_cst_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_cst_1 : Ref sig .tc := ⟨.hbm, 53, rfl⟩
abbrev main_call2_v8 : Ref sig .tc := ⟨.hbm, 54, rfl⟩
abbrev main_call2_cst_2 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_cst_3 : Ref sig .tc := ⟨.hbm, 59, rfl⟩
abbrev main_call2_v12 : Ref sig .tc := ⟨.hbm, 60, rfl⟩
abbrev main_call2_cst_4 : Ref sig .tc := ⟨.hbm, 61, rfl⟩
abbrev main_call2_call0_v0 : Ref sig .tc := ⟨.hbm, 62, rfl⟩
abbrev main_call2_call0_v1 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_7 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_call3_cst : Ref sig .tc := ⟨.hbm, 81, rfl⟩
abbrev main_call3_v0 : Ref sig .tc := ⟨.hbm, 82, rfl⟩
abbrev main_v41 : Ref sig .tc := ⟨.hbm, 83, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  concatenates_S4096x4096_S4096x4096_S4096x8192_d1 : Shape.Concatenates [S4096x4096, S4096x4096] S4096x8192 1
  concatenates_S4096x8192_S4096x8192_S8192x8192_d0 : Shape.Concatenates [S4096x8192, S4096x8192] S8192x8192 0
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  reducesTo_S8192x128_S128_d0 : S8192x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.R0RunW.lean ====
/-
  The row-sum kernel (region 0 of the program) run on its staging memrefs, case by case.

  The body resets its output block to zero when the column-block coordinate k is 0 and then adds the row sums of the
  binarised input block onto it.  Two control cases: A (k = 0: the reset, then the sum added onto the zeros) and
  B (k ≠ 0: the sum added onto what the output block held).  For each case the body's triple is stated over the
  pieces its stores leave in the output's staging memref; the pieces are found by running the body.
-/
import proofs.«168352_j85693187490256_1_alg».proof.Proof.Gen.Kernel.Launch
import proofs.«168352_j85693187490256_1_alg».proof.Proof.Gen.Kernel.Skeleton
import proofs.«168352_j85693187490256_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's branch condition -/

/-- The condition of the body's conditional (the reset), from the grid coordinates: the column-block coordinate is 0. -/
abbrev cond0_0 (i : grid0.Coords) : Prop := (Scalar.cmpi .ne (Scalar.extui (Scalar.cmpi .eq (BitVec.ofNat 32 (i 1).val) 0#32)) 0#32) = 1#1

/-- It holds exactly at the first point of each row block (the points ≡ 0 mod 4), decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs at a point -/

/-- One staging buffer of the output window, through which its contents are stated. -/
abbrev VO0_1 : View sig .tc .vmem S1024x1 .f32 := (Memref.whole cc0_stg1_0 : Memref sig .tc .vmem S1024x1 .f32).view
/-- Each window's current staging memref at point `t`, as the pipeline passes it to the body, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)

/-! ## The body's triple, per case -/

set_option maxHeartbeats 1000000 in
/-- CASE A (k = 0).  On whole staging memrefs, the input's at contents `x0` and the output's at anything, the body runs
    to the continuation holding the input's as it was and the output's with the pieces `L1` written (last first):
    the reset to zero, then the sum added onto what is read back. -/
noncomputable def kernelRun0_A (c : Dev nD) (i : grid0.Coords) (arg2 : Memref sig .tc .vmem S1024x1024 .f32) (harg2 : arg2.IsWhole) (arg3 : Memref sig .tc .vmem S1024x1 .f32) (harg3 : arg3.IsWhole) (hc0 : cond0_0 i)
    (x0 : Vec F S1024x1024 .f32) :
    { L1 : List (View.Piece (Elt F) S1024x1 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__rowsum_kernel i arg2 harg2 arg3 harg3) K } := by
  refine ⟨?_, fun E K => ?run⟩
  case run =>
    simp only [cc0__rowsum_kernel_eq_skeleton]; unfold cc0__rowsum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 1000000 in
/-- CASE B (k ≠ 0).  As case A, the output's staging memref at its running contents `xo1` (the body reads it before
    storing): no reset, the sum added onto `xo1`. -/
noncomputable def kernelRun0_B (c : Dev nD) (i : grid0.Coords) (arg2 : Memref sig .tc .vmem S1024x1024 .f32) (harg2 : arg2.IsWhole) (arg3 : Memref sig .tc .vmem S1024x1 .f32) (harg3 : arg3.IsWhole) (hc0 : ¬cond0_0 i)
    (x0 : Vec F S1024x1024 .f32) (xo1 : Vec F S1024x1 .f32) :
    { L1 : List (View.Piece (Elt F) S1024x1 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__rowsum_kernel i arg2 harg2 arg3 harg3) K } := by
  refine ⟨?_, fun E K => ?run⟩
  case run =>
    simp only [cc0__rowsum_kernel_eq_skeleton]; unfold cc0__rowsum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.Kernel.Hand

end
-- ==== Proof.R0DatW.lean ====
/-
  The proof data of the row-sum pipeline (region 0 of the program) at the region-entry contents `V`, and its body
  obligation.

  What the output block's staging buffer holds after each grid point is defined by recursion on the point: at the first
  point of a row block (k = 0) the reset case run on the input block; at every other point the accumulating case run on
  the input block and on what the point before left (the output block is not written back between them: it is written
  back only after the last column block).  The pipeline's invariant is the class's (the scoped rest and the generator
  register, untouched); nothing is owed.
-/
import proofs.«168352_j85693187490256_1_alg».proof.Proof.R0RunW

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## What each case leaves in the output's staging buffer -/

/-- Case A's pieces for the output tile its block, so they cover it. -/
theorem cover0_A_1 (c : Dev nD) (i : grid0.Coords) (arg2 : Memref sig .tc .vmem S1024x1024 .f32) (harg2 : arg2.IsWhole) (arg3 : Memref sig .tc .vmem S1024x1 .f32) (harg3 : arg3.IsWhole) (hc0 : cond0_0 i)
    (x0 : Vec F S1024x1024 .f32) (y : S1024x1.Idx) :
    ∃ pc ∈ (kernelRun0_A c i arg2 harg2 arg3 harg3 hc0 x0).1, y ∈ pc.1.set :=
  View.cover_of_tiledL (kernelRun0_A c i arg2 harg2 arg3 harg3 hc0 x0).1 S1024x1.size (by sl_kernel_rfl) y

/-- What case A leaves in the output's staging buffer: its pieces read back over junk. -/
def out0_A_1 (c : Dev nD) (i : grid0.Coords) (arg2 : Memref sig .tc .vmem S1024x1024 .f32) (harg2 : arg2.IsWhole) (arg3 : Memref sig .tc .vmem S1024x1 .f32) (harg3 : arg3.IsWhole) (hc0 : cond0_0 i)
    (x0 : Vec F S1024x1024 .f32) : Vec F S1024x1 .f32 :=
  VO0_1.read (Elt F) (VO0_1.writes (Elt F) VO0_1.junk (kernelRun0_A c i arg2 harg2 arg3 harg3 hc0 x0).1)

/-- Case B's pieces for the output tile its block, so they cover it. -/
theorem cover0_B_1 (c : Dev nD) (i : grid0.Coords) (arg2 : Memref sig .tc .vmem S1024x1024 .f32) (harg2 : arg2.IsWhole) (arg3 : Memref sig .tc .vmem S1024x1 .f32) (harg3 : arg3.IsWhole) (hc0 : ¬cond0_0 i)
    (x0 : Vec F S1024x1024 .f32) (xo1 : Vec F S1024x1 .f32) (y : S1024x1.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S1024x1.size (by sl_kernel_rfl) y

/-- What case B leaves in the output's staging buffer: its pieces read back over junk. -/
def out0_B_1 (c : Dev nD) (i : grid0.Coords) (arg2 : Memref sig .tc .vmem S1024x1024 .f32) (harg2 : arg2.IsWhole) (arg3 : Memref sig .tc .vmem S1024x1 .f32) (harg3 : arg3.IsWhole) (hc0 : ¬cond0_0 i)
    (x0 : Vec F S1024x1024 .f32) (xo1 : Vec F S1024x1 .f32) : Vec F S1024x1 .f32 :=
  VO0_1.read (Elt F) (VO0_1.writes (Elt F) VO0_1.junk (kernelRun0_B c i arg2 harg2 arg3 harg3 hc0 x0 xo1).1)

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place: the window is fetched at every point it moves, uncut, never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the output holds after each point -/

/-- THE ACCUMULATION.  What the output's staging buffer holds after the body at position `n`: at a point with k = 0
    the reset case on the point's input block; elsewhere the accumulating case on the input block and on what this
    leaves at `n - 1`. -/
def outsAt0 (c : Dev nD) : (n : ℕ) → n < cfg0.N → Vec F S1024x1 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (iblk0 V c 0 ⟨0, hn⟩)
  | n + 1, hn =>
    if h0 : (n + 1) % 4 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (iblk0 V c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (iblk0 V c 0 ⟨n + 1, hn⟩) (outsAt0 c n (Nat.lt_of_succ_lt hn))

/-- `outsAt0` at a point of case A: that case's contents. -/
theorem outsAt0_A (c : Dev nD) (t : Fin cfg0.N) (h0 : t.val % 4 = 0) :
    outsAt0 V c t.val t.isLt = out0_A_1 c (grid0.coords t) (ms0_0 t) (hs0_0 t) (ms0_1 t) (hs0_1 t) ((hcond0_0 t).mpr h0) (iblk0 V c 0 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 V c t.val t.isLt = out0_B_1 c (grid0.coords t) (ms0_0 t) (hs0_0 t) (ms0_1 t) (hs0_1 t) (fun h => h0 ((hcond0_0 t).mp h)) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them (`V`); after the body at point
    `t` the input's buffer at its block and the output's at `outsAt0`; the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- The proof data's invariant is the class's at every position. -/
theorem Phi0_eq (c : Dev nD) (t) : (dat0 V c).Φ t = Pipeline.ΦA spec0 c := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-- At a point of case B the output's current staging buffer holds what the body left at the point before: the point
    is not the first, and the buffer was not written back between (it is written back only after a point ≡ 3 mod 4, and
    the point before one ≢ 0 mod 4 is not such a point); the window is live and uncut. -/
theorem before0_1_B (c : Dev nD) (t : Fin cfg0.N) (h0 : ¬t.val % 4 = 0) (d) :
    (dat0 V c).before 1 t d = (outsAt0 V c (t.val - 1) (Nat.lt_of_le_of_lt (Nat.sub_le _ _) t.isLt)) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point: the input's memref holds its block; the closed form of the condition says which case the
    point is in; in case B the output's memref holds what the point before left; so the case's run applies; the
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 16 := lt_of_lt_of_eq t.isLt (show cfg0.N = 16 from N_0)
  by_cases h0 : t.val % 4 = 0
  · rw [outsAt0_A V c t h0]
    unfold out0_A_1
    iintro ⟨HΦ, Ho, ⟨%d0, H0⟩, ⟨%d1, H1⟩⟩
    iapply ((kernelRun0_A c (grid0.coords t) _ _ _ _ ((hcond0_0 t).mpr h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _)
  · rw [outsAt0_B V c t h0]
    simp only [before0_1_B V c t h0]
    unfold out0_B_1
    iintro ⟨HΦ, Ho, ⟨%d0, H0⟩, ⟨%d1, H1⟩⟩
    iapply ((kernelRun0_B c (grid0.coords t) _ _ _ _ (fun h => h0 ((hcond0_0 t).mp h)) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.R1RunsW.lean ====
/-
  The second kernel region (the propagation kernel), what its per-case runs share.

  The grid is 4 x 4: point t is row block i = t / 4 and column block k = t % 4.  The body keeps a [1024, 256] accumulator in a
  scratch buffer across the four column blocks of a row block: at k = 0 it is reset to zero, at every k the product of the
  binarised affinity block with the k-th 1024 rows of [y1 | y2] is added, and at k = 3 the two outputs' blocks are computed
  from it and stored.  So there are three control cases: A (k = 0), B (k = 1, 2), C (k = 3).  The two output windows are idle
  at the points of cases A and B (nothing is stored into them there and they are not written back).
-/
import proofs.«168352_j85693187490256_1_alg».proof.Proof.Gen.Kernel.Launch
import proofs.«168352_j85693187490256_1_alg».proof.Proof.Gen.Kernel.Skeleton
import proofs.«168352_j85693187490256_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- The first conditional (the accumulator's reset) is taken where the column-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional (the finalisation) is taken where the column-block coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The memrefs the body is called with -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)

/-- The accumulator: the kernel's scratch operand, a whole scoped buffer. -/
abbrev scM1 : Memref sig .tc .vmem S1024x256 .f32 := Memref.whole cc1_scratch0
abbrev VS1 : View sig .tc .vmem S1024x256 .f32 := scM1.view
/-- One staging buffer of each output window, through which its contents are stated. -/
abbrev VO1_5 : View sig .tc .vmem S1024x128 .f32 := (Memref.whole cc1_stg5_0 : Memref sig .tc .vmem S1024x128 .f32).view
abbrev VO1_6 : View sig .tc .vmem S1024x128 .f32 := (Memref.whole cc1_stg6_0 : Memref sig .tc .vmem S1024x128 .f32).view

/-- A scoped buffer of the core that this region neither stages nor uses (one of the first region's staging buffers),
    whole at some contents. -/
abbrev other1 (c : Dev nD) (b : Ref sig .tc) : sProp 𝕄 :=
  iprop(∃ f : Buf (Elt F) ((c : Thread nD τ).loc b), ((c : Thread nD τ).loc b) ↦{fullShare} f)

/-- The class invariant of this region: the first region's four staging buffers at anything, the accumulator at some
    contents, the generator register. -/
theorem PhiA1_eq (c : Dev nD) :
    (Pipeline.ΦA spec1 c : sProp 𝕄)
      = iprop(iprop(other1 c cc0_stg0_0 ∗ other1 c cc0_stg0_1 ∗ other1 c cc0_stg1_0 ∗ other1 c cc0_stg1_1 ∗ (∃ d, owns (c : Thread nD τ) scM1 fullShare d)) ∗ (∃ r, prngReg c r)) := by
  unfold Pipeline.ΦA; rw [scopedRest1_eq]; simp only [scM1, owns_whole]; try rfl

end Cert.Kernel.Hand

end
-- ==== Proof.R1RunAW.lean ====
/-
  The propagation kernel's body at a point of case A (column block 0): the accumulator is reset, then the first product is
  added.  The pieces the accumulator ends with are found by running the body symbolically; the outputs are left untouched.
-/
import proofs.«168352_j85693187490256_1_alg».proof.Proof.R1RunsW

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A of the body on any whole memrefs: the inputs at their contents and the idle outputs handed back untouched, the
    accumulator taken at anything and returned with the pieces `LS0` written. -/
noncomputable def kernelRun1_A (c : Dev nD) (i : grid1.Coords) (arg2 : Memref sig .tc .vmem S1024x1024 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x1 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x256 .f32) (harg9 : arg9.IsWhole) (hc0 : cond1_0 i) (hc1 : ¬cond1_1 i)
    (x0 : Vec F S1024x1024 .f32) (x1 : Vec F S4096x128 .f32) (x2 : Vec F S4096x128 .f32) (x3 : Vec F S4096x1 .f32) (x4 : Vec F S128x128 .f32) :
    { LS0 : List (View.Piece (Elt F) S1024x256 .f32) //
      ∀ (xi5 : Vec F S1024x128 .f32) (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9) K } := by
  refine ⟨?_, fun xi5 xi6 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.R1RunBW.lean ====
/-
  The propagation kernel's body at a point of case B (column blocks 1 and 2): the product is added to what the accumulator
  held after the point before; the outputs are left untouched.
-/
import proofs.«168352_j85693187490256_1_alg».proof.Proof.R1RunAW

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B of the body on any whole memrefs: the inputs at their contents and the idle outputs handed back untouched, the
    accumulator taken at `xs0` (what the point before left) and returned with the pieces `LS0` written. -/
noncomputable def kernelRun1_B (c : Dev nD) (i : grid1.Coords) (arg2 : Memref sig .tc .vmem S1024x1024 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x1 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x256 .f32) (harg9 : arg9.IsWhole) (hc0 : ¬cond1_0 i) (hc1 : ¬cond1_1 i)
    (x0 : Vec F S1024x1024 .f32) (x1 : Vec F S4096x128 .f32) (x2 : Vec F S4096x128 .f32) (x3 : Vec F S4096x1 .f32) (x4 : Vec F S128x128 .f32) (xs0 : Vec F S1024x256 .f32) :
    { LS0 : List (View.Piece (Elt F) S1024x256 .f32) //
      ∀ (xi5 : Vec F S1024x128 .f32) (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9) K } := by
  refine ⟨?_, fun xi5 xi6 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.R1RunCW.lean ====
/-
  The propagation kernel's body at a point of case C (column block 3): the last product is added to the accumulator, and the
  two outputs' blocks are computed from it, from the row block's own rows of y1, y2 and the degree column, and from the
  weight, and stored whole.
-/
import proofs.«168352_j85693187490256_1_alg».proof.Proof.R1RunBW

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- Case C of the body on any whole memrefs: the inputs at their contents, the outputs taken at anything and returned with
    their pieces `L5`, `L6` written, the accumulator taken at `xs0` and returned with the pieces `LS0` written. -/
noncomputable def kernelRun1_C (c : Dev nD) (i : grid1.Coords) (arg2 : Memref sig .tc .vmem S1024x1024 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x1 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x256 .f32) (harg9 : arg9.IsWhole) (hc0 : ¬cond1_0 i) (hc1 : cond1_1 i)
    (x0 : Vec F S1024x1024 .f32) (x1 : Vec F S4096x128 .f32) (x2 : Vec F S4096x128 .f32) (x3 : Vec F S4096x1 .f32) (x4 : Vec F S128x128 .f32) (xs0 : Vec F S1024x256 .f32) :
    Σ' (L5 : List (View.Piece (Elt F) S1024x128 .f32)) (L6 : List (View.Piece (Elt F) S1024x128 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9) K } := by
  refine ⟨?_, ?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.Kernel.Hand

end
-- ==== Proof.R1DatW.lean ====
/-
  The propagation kernel's region: what the accumulator and the two outputs' buffers hold after each grid point, the proof
  data of the pipeline, and the body obligation at every point.

  After point t of row block i = t / 4 the accumulator holds: at k = t % 4 = 0 the reset followed by the first product; at
  k > 0 what the point before left plus the k-th product.  The outputs' buffers are stored at k = 3 only, from the
  accumulator just completed.  The region's invariant says what the accumulator holds before each point (anything before
  the first one), so that each point can read what the point before left.
-/
import proofs.«168352_j85693187490256_1_alg».proof.Proof.R1RunCW

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's current staging buffer holds its block at every point, fetched there or not (the four resident inputs are
    fetched at the first point only and their block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Case A at point `t`: the accumulator's pieces cover it, and what they leave. -/
theorem scover1_A (c : Dev nD) (t : Fin cfg1.N) (hc0 : cond1_0 (grid1.coords t)) (hc1 : ¬cond1_1 (grid1.coords t))
    (y : S1024x256.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t)).1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t)).1 S1024x256.size (by sl_kernel_rfl) y

def sout1_A (c : Dev nD) (t : Fin cfg1.N) (hc0 : cond1_0 (grid1.coords t)) (hc1 : ¬cond1_1 (grid1.coords t)) : Vec F S1024x256 .f32 :=
  VS1.read (Elt F) (VS1.writes (Elt F) VS1.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t)).1)

/-- Case B at point `t`, over what the point before left (`xs0`). -/
theorem scover1_B (c : Dev nD) (t : Fin cfg1.N) (hc0 : ¬cond1_0 (grid1.coords t)) (hc1 : ¬cond1_1 (grid1.coords t))
    (xs0 : Vec F S1024x256 .f32) (y : S1024x256.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).1 S1024x256.size (by sl_kernel_rfl) y

def sout1_B (c : Dev nD) (t : Fin cfg1.N) (hc0 : ¬cond1_0 (grid1.coords t)) (hc1 : ¬cond1_1 (grid1.coords t))
    (xs0 : Vec F S1024x256 .f32) : Vec F S1024x256 .f32 :=
  VS1.read (Elt F) (VS1.writes (Elt F) VS1.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).1)

/-- Case C at point `t`, over what the point before left: the accumulator and the two outputs. -/
theorem scover1_C (c : Dev nD) (t : Fin cfg1.N) (hc0 : ¬cond1_0 (grid1.coords t)) (hc1 : cond1_1 (grid1.coords t))
    (xs0 : Vec F S1024x256 .f32) (y : S1024x256.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).2.2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).2.2.1 S1024x256.size (by sl_kernel_rfl) y

def sout1_C (c : Dev nD) (t : Fin cfg1.N) (hc0 : ¬cond1_0 (grid1.coords t)) (hc1 : cond1_1 (grid1.coords t))
    (xs0 : Vec F S1024x256 .f32) : Vec F S1024x256 .f32 :=
  VS1.read (Elt F) (VS1.writes (Elt F) VS1.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).2.2.1)

theorem cover1_C_5 (c : Dev nD) (t : Fin cfg1.N) (hc0 : ¬cond1_0 (grid1.coords t)) (hc1 : cond1_1 (grid1.coords t))
    (xs0 : Vec F S1024x256 .f32) (y : S1024x128.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).1 S1024x128.size (by sl_kernel_rfl) y

def out1_C_5 (c : Dev nD) (t : Fin cfg1.N) (hc0 : ¬cond1_0 (grid1.coords t)) (hc1 : cond1_1 (grid1.coords t))
    (xs0 : Vec F S1024x256 .f32) : Vec F S1024x128 .f32 :=
  VO1_5.read (Elt F) (VO1_5.writes (Elt F) VO1_5.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).1)

theorem cover1_C_6 (c : Dev nD) (t : Fin cfg1.N) (hc0 : ¬cond1_0 (grid1.coords t)) (hc1 : cond1_1 (grid1.coords t))
    (xs0 : Vec F S1024x256 .f32) (y : S1024x128.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).2.1 S1024x128.size (by sl_kernel_rfl) y

def out1_C_6 (c : Dev nD) (t : Fin cfg1.N) (hc0 : ¬cond1_0 (grid1.coords t)) (hc1 : cond1_1 (grid1.coords t))
    (xs0 : Vec F S1024x256 .f32) : Vec F S1024x128 .f32 :=
  VO1_6.read (Elt F) (VO1_6.writes (Elt F) VO1_6.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).2.1)

/-! ## The accumulator point by point -/

/-- What the accumulator holds after the body at position `n`: the case the closed forms select there, over what position
    `n - 1` left. -/
def accAt1 (c : Dev nD) : (n : ℕ) → n < cfg1.N → Vec F S1024x256 .f32
  | 0, hn => sout1_A V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 4 = 0 then
      if h1 : (n + 1) % 4 = 3 then False.elim (by omega)
      else sout1_A V c ⟨n + 1, hn⟩ ((hcond1_0 ⟨n + 1, hn⟩).mpr h0) (fun h => h1 ((hcond1_1 ⟨n + 1, hn⟩).mp h))
    else
      if h1 : (n + 1) % 4 = 3 then
        sout1_C V c ⟨n + 1, hn⟩ (fun h => h0 ((hcond1_0 ⟨n + 1, hn⟩).mp h)) ((hcond1_1 ⟨n + 1, hn⟩).mpr h1) (accAt1 c n (Nat.lt_of_succ_lt hn))
      else
        sout1_B V c ⟨n + 1, hn⟩ (fun h => h0 ((hcond1_0 ⟨n + 1, hn⟩).mp h)) (fun h => h1 ((hcond1_1 ⟨n + 1, hn⟩).mp h)) (accAt1 c n (Nat.lt_of_succ_lt hn))

theorem accAt1_A (c : Dev nD) (t : Fin cfg1.N) (h0 : t.val % 4 = 0) (h1 : ¬t.val % 4 = 3) :
    accAt1 V c t.val t.isLt = sout1_A V c t ((hcond1_0 t).mpr h0) (fun h => h1 ((hcond1_1 t).mp h)) := by
  obtain ⟨n, hn⟩ := t
  cases n with
  | zero => exact rfl
  | succ n => exact (dif_pos h0).trans ((dif_neg h1).trans rfl)

theorem accAt1_B (c : Dev nD) (t : Fin cfg1.N) (h0 : ¬t.val % 4 = 0) (h1 : ¬t.val % 4 = 3) :
    accAt1 V c t.val t.isLt = sout1_B V c t (fun h => h0 ((hcond1_0 t).mp h)) (fun h => h1 ((hcond1_1 t).mp h))
      (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt1_C (c : Dev nD) (t : Fin cfg1.N) (h0 : ¬t.val % 4 = 0) (h1 : t.val % 4 = 3) :
    accAt1 V c t.val t.isLt = sout1_C V c t (fun h => h0 ((hcond1_0 t).mp h)) ((hcond1_1 t).mpr h1)
      (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the outputs' buffers hold after the body at point `t`: stored at the points of case C, from the accumulator the
    point before left; at the other points the windows are idle and this value is consulted by nothing. -/
def out5At (c : Dev nD) (t : Fin cfg1.N) : Vec F S1024x128 .f32 :=
  if h1 : t.val % 4 = 3 then
    out1_C_5 V c t (fun h => (by have := (hcond1_0 t).mp h; omega)) ((hcond1_1 t).mpr h1) (accAt1 V c (t.val - 1) (Nat.lt_of_le_of_lt (Nat.sub_le _ _) t.isLt))
  else VO1_5.read (Elt F) VO1_5.junk
def out6At (c : Dev nD) (t : Fin cfg1.N) : Vec F S1024x128 .f32 :=
  if h1 : t.val % 4 = 3 then
    out1_C_6 V c t (fun h => (by have := (hcond1_0 t).mp h; omega)) ((hcond1_1 t).mpr h1) (accAt1 V c (t.val - 1) (Nat.lt_of_le_of_lt (Nat.sub_le _ _) t.isLt))
  else VO1_6.read (Elt F) VO1_6.junk

theorem out5At_C (c : Dev nD) (t : Fin cfg1.N) (h0 : ¬t.val % 4 = 0) (h1 : t.val % 4 = 3) :
    out5At V c t = out1_C_5 V c t (fun h => h0 ((hcond1_0 t).mp h)) ((hcond1_1 t).mpr h1) (accAt1 V c (t.val - 1) (Nat.lt_of_le_of_lt (Nat.sub_le _ _) t.isLt)) := by
  unfold out5At; rw [dif_pos h1]
theorem out6At_C (c : Dev nD) (t : Fin cfg1.N) (h0 : ¬t.val % 4 = 0) (h1 : t.val % 4 = 3) :
    out6At V c t = out1_C_6 V c t (fun h => h0 ((hcond1_0 t).mp h)) ((hcond1_1 t).mpr h1) (accAt1 V c (t.val - 1) (Nat.lt_of_le_of_lt (Nat.sub_le _ _) t.isLt)) := by
  unfold out6At; rw [dif_pos h1]

/-! ## The region's invariant -/

/-- Before position `n`: before the first point the class invariant (the accumulator at anything); afterwards the first
    region's staging buffers at anything, the accumulator at what the point before left, the generator register. -/
def PhiS1 (c : Dev nD) : (n : ℕ) → n ≤ cfg1.N → sProp 𝕄
  | 0, _ => Pipeline.ΦA spec1 c
  | n + 1, hn => iprop(iprop(other1 c cc0_stg0_0 ∗ other1 c cc0_stg0_1 ∗ other1 c cc0_stg1_0 ∗ other1 c cc0_stg1_1 ∗ owns (c : Thread nD τ) scM1 fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(other1 c cc0_stg0_0 ∗ other1 c cc0_stg0_1 ∗ other1 c cc0_stg1_0 ∗ other1 c cc0_stg1_1 ∗ owns (c : Thread nD τ) scM1 fullShare (accAt1 V c n hn)) ∗ (∃ r, prngReg c r)) := rfl

theorem PhiS1_pos (c : Dev nD) (n : ℕ) (h : n ≤ cfg1.N) (hz : n ≠ 0) :
    PhiS1 V c n h = iprop(iprop(other1 c cc0_stg0_0 ∗ other1 c cc0_stg0_1 ∗ other1 c cc0_stg1_0 ∗ other1 c cc0_stg1_1 ∗ owns (c : Thread nD τ) scM1 fullShare (accAt1 V c (n - 1) (by omega))) ∗ (∃ r, prngReg c r)) := by
  cases n with
  | zero => exact absurd rfl hz
  | succ n => rfl

/-! ## The pipeline's proof data -/

/-- The proof data of the region on core `c`: the arrays as the region finds them; after the body each input's buffer at
    its block, the outputs' at `out5At` / `out6At`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out5At V c t
    | ⟨6, _⟩ => out6At V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out5At V c t := by dsimp only [dat1]
theorem after1_6 (c : Dev nD) (t : Fin cfg1.N) : (dat1 V c).after 6 t = out6At V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Cert.Kernel.Hand

end
-- ==== Proof.R1BodyW.lean ====
/-
  The propagation kernel's body obligation: at every grid point, from the region's invariant (the accumulator at what the
  point before left) and the windows' buffers at what the pipeline hands the body, the body runs and gives back the
  invariant of the next point and each window's buffer at what the proof data says.  The closed forms of the two branch
  conditions select the case; each case is its symbolic run.
-/
import proofs.«168352_j85693187490256_1_alg».proof.Proof.R1DatW

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    · -- case A
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [Dat.leavesExact_idle (dat1 V c) 6 t (idleAt1_6 t (fun h => h1 ((hcond1_1 t).mp h))) (noFlush1_6 t (fun h => h1 ((hcond1_1 t).mp h)))]
      rw [accAt1_A V c t h0 h1]
      unfold sout1_A; (try dsimp only)
      by_cases hz : t.val = 0
      ·
        rw [PhiS1_castSucc V c t, PhiS1_zero V c _ _ hz, PhiA1_eq]
        iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)).2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_A V c t _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      ·
        rw [PhiS1_castSucc V c t, PhiS1_pos V c _ _ hz]
        iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)).2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_A V c t _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · by_cases h1 : t.val % 4 = 3
    · -- case C
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [accAt1_C V c t h0 h1, out5At_C V c t h0 h1, out6At_C V c t h0 h1]
      unfold sout1_C out1_C_5 out1_C_6; (try dsimp only)
      have hz : t.val ≠ 0 := by omega
      rw [PhiS1_castSucc V c t, PhiS1_pos V c _ _ hz]
      iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_C V c t _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_C_5 V c t _ _ _)
      unfold owns; iexists _; isplitr
      swap; · iexact H6
      ipureintro; exact View.read_writes_of_cover _ _ _ _ _ (cover1_C_6 V c t _ _ _)
    · -- case B
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [Dat.leavesExact_idle (dat1 V c) 6 t (idleAt1_6 t (fun h => h1 ((hcond1_1 t).mp h))) (noFlush1_6 t (fun h => h1 ((hcond1_1 t).mp h)))]
      rw [accAt1_B V c t h0 h1]
      unfold sout1_B; (try dsimp only)
      have hz : t.val ≠ 0 := by omega
      ·
        rw [PhiS1_castSucc V c t, PhiS1_pos V c _ _ hz]
        iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _).2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_B V c t _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨Ha, Hb, Hc, Hd, HS0⟩, Hg⟩
  isplitl [Ha Hb Hc Hd HS0]
  · isplitl [Ha]; · iexact Ha
    isplitl [Hb]; · iexact Hb
    isplitl [Hc]; · iexact Hc
    isplitl [Hd]; · iexact Hd
    iexists _; iexact HS0
  iexact Hg

end Cert.Kernel.Hand

end
-- ==== Proof.KRunW.lean ====
/-
  The kernel program's run, as the chain of its eight items: a stretch of host operations (the two slices of x), the row-sum
  region, a stretch (the degree scaling), the propagation region, and four stretches (the concatenation and the batch
  normalisation with its rectifier).  Between two items every unscoped buffer of a core is held whole at a known
  valuation W0 .. W8: the launch memory, then each stretch's operations folded over it, then at a region's exit the
  region's arrays at what its pipeline leaves.  The run ends with every unscoped buffer at W8.
-/
import proofs.«168352_j85693187490256_1_alg».proof.Proof.R0DatW
import proofs.«168352_j85693187490256_1_alg».proof.Proof.R1BodyW
import proofs.«168352_j85693187490256_1_alg».proof.Proof.Gen.Kernel.Regions
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the row-sum region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the propagation region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev W8 : Dev nD → Valuation τ sig (Elt F) := fun c => StableHlo.after hostOps2_3 (W7 m c)

/-! ## The arguments end as launched -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h
theorem W6_of (c : Dev nD) (r : Ref sig .tc) (h : r ∉ hostOps2_1_W) : W6 m c r = W5 m c r :=
  StableHlo.after_of_writes_sub hostOps2_1 _ hostOps2_1_writes h
theorem W7_of (c : Dev nD) (r : Ref sig .tc) (h : r ∉ hostOps2_2_W) : W7 m c r = W6 m c r :=
  StableHlo.after_of_writes_sub hostOps2_2 _ hostOps2_2_writes h
theorem W8_of (c : Dev nD) (r : Ref sig .tc) (h : r ∉ hostOps2_3_W) : W8 m c r = W7 m c r :=
  StableHlo.after_of_writes_sub hostOps2_3 _ hostOps2_3_writes h

/-- A buffer that no stretch after the second region writes holds at the end what that region left. -/
theorem W8_eq_W4 (c : Dev nD) (r : Ref sig .tc) (h3 : r ∉ hostOps2_3_W) (h2 : r ∉ hostOps2_2_W) (h1 : r ∉ hostOps2_1_W) (h0 : r ∉ hostOps2_W) :
    W8 m c r = W4 m c r :=
  (W8_of m c r h3).trans <| (W7_of m c r h2).trans <| (W6_of m c r h1).trans (W5_of m c r h0)

/-- x is no window's array in either region and no stretch writes it. -/
theorem W8_main_arg0 (c : Dev nD) : W8 m c main_arg0 = m ((c : Thread nD τ).loc main_arg0) :=
  (W8_eq_W4 m c main_arg0 (by decide) (by decide) (by decide) (by decide)).trans <|
    (W4_of_ne m c main_arg0 (by decide)).trans <| (W3_of m c main_arg0 (by decide)).trans <|
    (W2_of_ne m c main_arg0 (by decide)).trans <| (W1_of m c main_arg0 (by decide)).trans rfl
/-- The affinity array is the first input window of both regions: each region hands an input's array back as found. -/
theorem W8_main_arg1 (c : Dev nD) : W8 m c main_arg1 = m ((c : Thread nD τ).loc main_arg1) :=
  (W8_eq_W4 m c main_arg1 (by decide) (by decide) (by decide) (by decide)).trans <|
    ((W4_arr m c 0).trans (((dat1 (V3 m) c).arrAt_in 0 rfl _).trans (A_eq1 (V3 m) c 0))).trans <|
    (W3_of m c main_arg1 (by decide)).trans <|
    ((W2_arr m c 0).trans (((dat0 (V1 m) c).arrAt_in 0 rfl _).trans (A_eq0 (V1 m) c 0))).trans <|
    (W1_of m c main_arg1 (by decide)).trans rfl
/-- The weight is the fifth input window of the second region. -/
theorem W8_main_arg2 (c : Dev nD) : W8 m c main_arg2 = m ((c : Thread nD τ).loc main_arg2) :=
  (W8_eq_W4 m c main_arg2 (by decide) (by decide) (by decide) (by decide)).trans <|
    ((W4_arr m c 4).trans (((dat1 (V3 m) c).arrAt_in 4 rfl _).trans (A_eq1 (V3 m) c 4))).trans <|
    (W3_of m c main_arg2 (by decide)).trans <|
    (W2_of_ne m c main_arg2 (by decide)).trans <| (W1_of m c main_arg2 (by decide)).trans rfl
theorem W8_main_arg3 (c : Dev nD) : W8 m c main_arg3 = m ((c : Thread nD τ).loc main_arg3) :=
  (W8_eq_W4 m c main_arg3 (by decide) (by decide) (by decide) (by decide)).trans <|
    (W4_of_ne m c main_arg3 (by decide)).trans <| (W3_of m c main_arg3 (by decide)).trans <|
    (W2_of_ne m c main_arg3 (by decide)).trans <| (W1_of m c main_arg3 (by decide)).trans rfl
theorem W8_main_arg4 (c : Dev nD) : W8 m c main_arg4 = m ((c : Thread nD τ).loc main_arg4) :=
  (W8_eq_W4 m c main_arg4 (by decide) (by decide) (by decide) (by decide)).trans <|
    (W4_of_ne m c main_arg4 (by decide)).trans <| (W3_of m c main_arg4 (by decide)).trans <|
    (W2_of_ne m c main_arg4 (by decide)).trans <| (W1_of m c main_arg4 (by decide)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- The row-sum region: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0_eq (V1 m) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Phi0_eq (V1 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The propagation region: entered from every unscoped buffer at W3, left at W4.  The generator register enters the
    region's invariant and comes back; the accumulator is one of the core's scoped buffers, at anything before and after. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)) ]

theorem main_run (c : Dev nD) : main (F := F) c = Pipeline.Seg.run (segs m) := (main_chain c).trans (by chain_rfl)

set_option backward.isDefEq.respectTransparency.types false in
/-- Every weakly fair execution of the program from memory `m` terminates, nothing faulting, and ends with every unscoped
    buffer of every core at the last valuation `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ R c) ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The run with the result named and the arguments read back: the result buffer ends at the last valuation's contents,
    every argument array as launched. -/
theorem run_result : θ_run defs (onTc (τ := τ) (main (F := F))) ⟨m, fun _ => 0, ρ⟩ (fun r => ∀ c : Dev nD,
      r.2.mem ((c.tc : Thread nD τ).loc main_v31) = W8 m c main_v31
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v31 (by decide)),
     (h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c)⟩) (run_all m ρ)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.Kernel.Hand

end
-- ==== Proof.R0Run.lean ====
/-
  The row-sum kernel (region 0 of the program) run on its staging memrefs, case by case.

  The body resets its output block to zero when the column-block coordinate k is 0 and then adds the row sums of the
  binarised input block onto it.  Two control cases: A (k = 0: the reset, then the sum added onto the zeros) and
  B (k ≠ 0: the sum added onto what the output block held).  For each case the body's triple is stated over the
  pieces its stores leave in the output's staging memref; the pieces are found by running the body.
-/
import proofs.«168352_j85693187490256_1_alg».proof.Proof.Gen.KernelIdeal.Launch
import proofs.«168352_j85693187490256_1_alg».proof.Proof.Gen.KernelIdeal.Skeleton
import proofs.«168352_j85693187490256_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch condition -/

/-- The condition of the body's conditional (the reset), from the grid coordinates: the column-block coordinate is 0. -/
abbrev cond0_0 (i : grid0.Coords) : Prop := (Scalar.cmpi .ne (Scalar.extui (Scalar.cmpi .eq (BitVec.ofNat 32 (i 1).val) 0#32)) 0#32) = 1#1

/-- It holds exactly at the first point of each row block (the points ≡ 0 mod 4), decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs at a point -/

/-- One staging buffer of the output window, through which its contents are stated. -/
abbrev VO0_1 : View sig .tc .vmem S1024x1 .f32 := (Memref.whole cc0_stg1_0 : Memref sig .tc .vmem S1024x1 .f32).view
/-- Each window's current staging memref at point `t`, as the pipeline passes it to the body, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)

/-! ## The body's triple, per case -/

set_option maxHeartbeats 1000000 in
/-- CASE A (k = 0).  On whole staging memrefs, the input's at contents `x0` and the output's at anything, the body runs
    to the continuation holding the input's as it was and the output's with the pieces `L1` written (last first):
    the reset to zero, then the sum added onto what is read back. -/
noncomputable def kernelRun0_A (c : Dev nD) (i : grid0.Coords) (arg2 : Memref sig .tc .vmem S1024x1024 .f32) (harg2 : arg2.IsWhole) (arg3 : Memref sig .tc .vmem S1024x1 .f32) (harg3 : arg3.IsWhole) (hc0 : cond0_0 i)
    (x0 : Vec F S1024x1024 .f32) :
    { L1 : List (View.Piece (Elt F) S1024x1 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__rowsum_kernel i arg2 harg2 arg3 harg3) K } := by
  refine ⟨?_, fun E K => ?run⟩
  case run =>
    simp only [cc0__rowsum_kernel_eq_skeleton]; unfold cc0__rowsum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 1000000 in
/-- CASE B (k ≠ 0).  As case A, the output's staging memref at its running contents `xo1` (the body reads it before
    storing): no reset, the sum added onto `xo1`. -/
noncomputable def kernelRun0_B (c : Dev nD) (i : grid0.Coords) (arg2 : Memref sig .tc .vmem S1024x1024 .f32) (harg2 : arg2.IsWhole) (arg3 : Memref sig .tc .vmem S1024x1 .f32) (harg3 : arg3.IsWhole) (hc0 : ¬cond0_0 i)
    (x0 : Vec F S1024x1024 .f32) (xo1 : Vec F S1024x1 .f32) :
    { L1 : List (View.Piece (Elt F) S1024x1 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__rowsum_kernel i arg2 harg2 arg3 harg3) K } := by
  refine ⟨?_, fun E K => ?run⟩
  case run =>
    simp only [cc0__rowsum_kernel_eq_skeleton]; unfold cc0__rowsum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.KernelIdeal.Hand

end
-- ==== Proof.R0Dat.lean ====
/-
  The proof data of the row-sum pipeline (region 0 of the program) at the region-entry contents `V`, and its body
  obligation.

  What the output block's staging buffer holds after each grid point is defined by recursion on the point: at the first
  point of a row block (k = 0) the reset case run on the input block; at every other point the accumulating case run on
  the input block and on what the point before left (the output block is not written back between them: it is written
  back only after the last column block).  The pipeline's invariant is the class's (the scoped rest and the generator
  register, untouched); nothing is owed.
-/
import proofs.«168352_j85693187490256_1_alg».proof.Proof.R0Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What each case leaves in the output's staging buffer -/

/-- Case A's pieces for the output tile its block, so they cover it. -/
theorem cover0_A_1 (c : Dev nD) (i : grid0.Coords) (arg2 : Memref sig .tc .vmem S1024x1024 .f32) (harg2 : arg2.IsWhole) (arg3 : Memref sig .tc .vmem S1024x1 .f32) (harg3 : arg3.IsWhole) (hc0 : cond0_0 i)
    (x0 : Vec F S1024x1024 .f32) (y : S1024x1.Idx) :
    ∃ pc ∈ (kernelRun0_A c i arg2 harg2 arg3 harg3 hc0 x0).1, y ∈ pc.1.set :=
  View.cover_of_tiledL (kernelRun0_A c i arg2 harg2 arg3 harg3 hc0 x0).1 S1024x1.size (by sl_kernel_rfl) y

/-- What case A leaves in the output's staging buffer: its pieces read back over junk. -/
def out0_A_1 (c : Dev nD) (i : grid0.Coords) (arg2 : Memref sig .tc .vmem S1024x1024 .f32) (harg2 : arg2.IsWhole) (arg3 : Memref sig .tc .vmem S1024x1 .f32) (harg3 : arg3.IsWhole) (hc0 : cond0_0 i)
    (x0 : Vec F S1024x1024 .f32) : Vec F S1024x1 .f32 :=
  VO0_1.read (Elt F) (VO0_1.writes (Elt F) VO0_1.junk (kernelRun0_A c i arg2 harg2 arg3 harg3 hc0 x0).1)

/-- Case B's pieces for the output tile its block, so they cover it. -/
theorem cover0_B_1 (c : Dev nD) (i : grid0.Coords) (arg2 : Memref sig .tc .vmem S1024x1024 .f32) (harg2 : arg2.IsWhole) (arg3 : Memref sig .tc .vmem S1024x1 .f32) (harg3 : arg3.IsWhole) (hc0 : ¬cond0_0 i)
    (x0 : Vec F S1024x1024 .f32) (xo1 : Vec F S1024x1 .f32) (y : S1024x1.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S1024x1.size (by sl_kernel_rfl) y

/-- What case B leaves in the output's staging buffer: its pieces read back over junk. -/
def out0_B_1 (c : Dev nD) (i : grid0.Coords) (arg2 : Memref sig .tc .vmem S1024x1024 .f32) (harg2 : arg2.IsWhole) (arg3 : Memref sig .tc .vmem S1024x1 .f32) (harg3 : arg3.IsWhole) (hc0 : ¬cond0_0 i)
    (x0 : Vec F S1024x1024 .f32) (xo1 : Vec F S1024x1 .f32) : Vec F S1024x1 .f32 :=
  VO0_1.read (Elt F) (VO0_1.writes (Elt F) VO0_1.junk (kernelRun0_B c i arg2 harg2 arg3 harg3 hc0 x0 xo1).1)

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place: the window is fetched at every point it moves, uncut, never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the output holds after each point -/

/-- THE ACCUMULATION.  What the output's staging buffer holds after the body at position `n`: at a point with k = 0
    the reset case on the point's input block; elsewhere the accumulating case on the input block and on what this
    leaves at `n - 1`. -/
def outsAt0 (c : Dev nD) : (n : ℕ) → n < cfg0.N → Vec F S1024x1 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (iblk0 V c 0 ⟨0, hn⟩)
  | n + 1, hn =>
    if h0 : (n + 1) % 4 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (iblk0 V c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (iblk0 V c 0 ⟨n + 1, hn⟩) (outsAt0 c n (Nat.lt_of_succ_lt hn))

/-- `outsAt0` at a point of case A: that case's contents. -/
theorem outsAt0_A (c : Dev nD) (t : Fin cfg0.N) (h0 : t.val % 4 = 0) :
    outsAt0 V c t.val t.isLt = out0_A_1 c (grid0.coords t) (ms0_0 t) (hs0_0 t) (ms0_1 t) (hs0_1 t) ((hcond0_0 t).mpr h0) (iblk0 V c 0 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 V c t.val t.isLt = out0_B_1 c (grid0.coords t) (ms0_0 t) (hs0_0 t) (ms0_1 t) (hs0_1 t) (fun h => h0 ((hcond0_0 t).mp h)) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them (`V`); after the body at point
    `t` the input's buffer at its block and the output's at `outsAt0`; the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- The proof data's invariant is the class's at every position. -/
theorem Phi0_eq (c : Dev nD) (t) : (dat0 V c).Φ t = Pipeline.ΦA spec0 c := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-- At a point of case B the output's current staging buffer holds what the body left at the point before: the point
    is not the first, and the buffer was not written back between (it is written back only after a point ≡ 3 mod 4, and
    the point before one ≢ 0 mod 4 is not such a point); the window is live and uncut. -/
theorem before0_1_B (c : Dev nD) (t : Fin cfg0.N) (h0 : ¬t.val % 4 = 0) (d) :
    (dat0 V c).before 1 t d = (outsAt0 V c (t.val - 1) (Nat.lt_of_le_of_lt (Nat.sub_le _ _) t.isLt)) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point: the input's memref holds its block; the closed form of the condition says which case the
    point is in; in case B the output's memref holds what the point before left; so the case's run applies; the
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 16 := lt_of_lt_of_eq t.isLt (show cfg0.N = 16 from N_0)
  by_cases h0 : t.val % 4 = 0
  · rw [outsAt0_A V c t h0]
    unfold out0_A_1
    iintro ⟨HΦ, Ho, ⟨%d0, H0⟩, ⟨%d1, H1⟩⟩
    iapply ((kernelRun0_A c (grid0.coords t) _ _ _ _ ((hcond0_0 t).mpr h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _)
  · rw [outsAt0_B V c t h0]
    simp only [before0_1_B V c t h0]
    unfold out0_B_1
    iintro ⟨HΦ, Ho, ⟨%d0, H0⟩, ⟨%d1, H1⟩⟩
    iapply ((kernelRun0_B c (grid0.coords t) _ _ _ _ (fun h => h0 ((hcond0_0 t).mp h)) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.R1Runs.lean ====
/-
  The second kernel region (the propagation kernel), what its per-case runs share.

  The grid is 4 x 4: point t is row block i = t / 4 and column block k = t % 4.  The body keeps a [1024, 256] accumulator in a
  scratch buffer across the four column blocks of a row block: at k = 0 it is reset to zero, at every k the product of the
  binarised affinity block with the k-th 1024 rows of [y1 | y2] is added, and at k = 3 the two outputs' blocks are computed
  from it and stored.  So there are three control cases: A (k = 0), B (k = 1, 2), C (k = 3).  The two output windows are idle
  at the points of cases A and B (nothing is stored into them there and they are not written back).
-/
import proofs.«168352_j85693187490256_1_alg».proof.Proof.Gen.KernelIdeal.Launch
import proofs.«168352_j85693187490256_1_alg».proof.Proof.Gen.KernelIdeal.Skeleton
import proofs.«168352_j85693187490256_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- The first conditional (the accumulator's reset) is taken where the column-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional (the finalisation) is taken where the column-block coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The memrefs the body is called with -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)

/-- The accumulator: the kernel's scratch operand, a whole scoped buffer. -/
abbrev scM1 : Memref sig .tc .vmem S1024x256 .f32 := Memref.whole cc1_scratch0
abbrev VS1 : View sig .tc .vmem S1024x256 .f32 := scM1.view
/-- One staging buffer of each output window, through which its contents are stated. -/
abbrev VO1_5 : View sig .tc .vmem S1024x128 .f32 := (Memref.whole cc1_stg5_0 : Memref sig .tc .vmem S1024x128 .f32).view
abbrev VO1_6 : View sig .tc .vmem S1024x128 .f32 := (Memref.whole cc1_stg6_0 : Memref sig .tc .vmem S1024x128 .f32).view

/-- A scoped buffer of the core that this region neither stages nor uses (one of the first region's staging buffers),
    whole at some contents. -/
abbrev other1 (c : Dev nD) (b : Ref sig .tc) : sProp 𝕄 :=
  iprop(∃ f : Buf (Elt F) ((c : Thread nD τ).loc b), ((c : Thread nD τ).loc b) ↦{fullShare} f)

/-- The class invariant of this region: the first region's four staging buffers at anything, the accumulator at some
    contents, the generator register. -/
theorem PhiA1_eq (c : Dev nD) :
    (Pipeline.ΦA spec1 c : sProp 𝕄)
      = iprop(iprop(other1 c cc0_stg0_0 ∗ other1 c cc0_stg0_1 ∗ other1 c cc0_stg1_0 ∗ other1 c cc0_stg1_1 ∗ (∃ d, owns (c : Thread nD τ) scM1 fullShare d)) ∗ (∃ r, prngReg c r)) := by
  unfold Pipeline.ΦA; rw [scopedRest1_eq]; simp only [scM1, owns_whole]; try rfl

end Cert.KernelIdeal.Hand

end
-- ==== Proof.R1RunA.lean ====
/-
  The propagation kernel's body at a point of case A (column block 0): the accumulator is reset, then the first product is
  added.  The pieces the accumulator ends with are found by running the body symbolically; the outputs are left untouched.
-/
import proofs.«168352_j85693187490256_1_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A of the body on any whole memrefs: the inputs at their contents and the idle outputs handed back untouched, the
    accumulator taken at anything and returned with the pieces `LS0` written. -/
noncomputable def kernelRun1_A (c : Dev nD) (i : grid1.Coords) (arg2 : Memref sig .tc .vmem S1024x1024 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x1 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x256 .f32) (harg9 : arg9.IsWhole) (hc0 : cond1_0 i) (hc1 : ¬cond1_1 i)
    (x0 : Vec F S1024x1024 .f32) (x1 : Vec F S4096x128 .f32) (x2 : Vec F S4096x128 .f32) (x3 : Vec F S4096x1 .f32) (x4 : Vec F S128x128 .f32) :
    { LS0 : List (View.Piece (Elt F) S1024x256 .f32) //
      ∀ (xi5 : Vec F S1024x128 .f32) (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9) K } := by
  refine ⟨?_, fun xi5 xi6 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.R1RunB.lean ====
/-
  The propagation kernel's body at a point of case B (column blocks 1 and 2): the product is added to what the accumulator
  held after the point before; the outputs are left untouched.
-/
import proofs.«168352_j85693187490256_1_alg».proof.Proof.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B of the body on any whole memrefs: the inputs at their contents and the idle outputs handed back untouched, the
    accumulator taken at `xs0` (what the point before left) and returned with the pieces `LS0` written. -/
noncomputable def kernelRun1_B (c : Dev nD) (i : grid1.Coords) (arg2 : Memref sig .tc .vmem S1024x1024 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x1 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x256 .f32) (harg9 : arg9.IsWhole) (hc0 : ¬cond1_0 i) (hc1 : ¬cond1_1 i)
    (x0 : Vec F S1024x1024 .f32) (x1 : Vec F S4096x128 .f32) (x2 : Vec F S4096x128 .f32) (x3 : Vec F S4096x1 .f32) (x4 : Vec F S128x128 .f32) (xs0 : Vec F S1024x256 .f32) :
    { LS0 : List (View.Piece (Elt F) S1024x256 .f32) //
      ∀ (xi5 : Vec F S1024x128 .f32) (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9) K } := by
  refine ⟨?_, fun xi5 xi6 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.R1RunC.lean ====
/-
  The propagation kernel's body at a point of case C (column block 3): the last product is added to the accumulator, and the
  two outputs' blocks are computed from it, from the row block's own rows of y1, y2 and the degree column, and from the
  weight, and stored whole.
-/
import proofs.«168352_j85693187490256_1_alg».proof.Proof.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- Case C of the body on any whole memrefs: the inputs at their contents, the outputs taken at anything and returned with
    their pieces `L5`, `L6` written, the accumulator taken at `xs0` and returned with the pieces `LS0` written. -/
noncomputable def kernelRun1_C (c : Dev nD) (i : grid1.Coords) (arg2 : Memref sig .tc .vmem S1024x1024 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x1 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x256 .f32) (harg9 : arg9.IsWhole) (hc0 : ¬cond1_0 i) (hc1 : cond1_1 i)
    (x0 : Vec F S1024x1024 .f32) (x1 : Vec F S4096x128 .f32) (x2 : Vec F S4096x128 .f32) (x3 : Vec F S4096x1 .f32) (x4 : Vec F S128x128 .f32) (xs0 : Vec F S1024x256 .f32) :
    Σ' (L5 : List (View.Piece (Elt F) S1024x128 .f32)) (L6 : List (View.Piece (Elt F) S1024x128 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9) K } := by
  refine ⟨?_, ?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.KernelIdeal.Hand

end
-- ==== Proof.R1Dat.lean ====
/-
  The propagation kernel's region: what the accumulator and the two outputs' buffers hold after each grid point, the proof
  data of the pipeline, and the body obligation at every point.

  After point t of row block i = t / 4 the accumulator holds: at k = t % 4 = 0 the reset followed by the first product; at
  k > 0 what the point before left plus the k-th product.  The outputs' buffers are stored at k = 3 only, from the
  accumulator just completed.  The region's invariant says what the accumulator holds before each point (anything before
  the first one), so that each point can read what the point before left.
-/
import proofs.«168352_j85693187490256_1_alg».proof.Proof.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's current staging buffer holds its block at every point, fetched there or not (the four resident inputs are
    fetched at the first point only and their block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Case A at point `t`: the accumulator's pieces cover it, and what they leave. -/
theorem scover1_A (c : Dev nD) (t : Fin cfg1.N) (hc0 : cond1_0 (grid1.coords t)) (hc1 : ¬cond1_1 (grid1.coords t))
    (y : S1024x256.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t)).1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t)).1 S1024x256.size (by sl_kernel_rfl) y

def sout1_A (c : Dev nD) (t : Fin cfg1.N) (hc0 : cond1_0 (grid1.coords t)) (hc1 : ¬cond1_1 (grid1.coords t)) : Vec F S1024x256 .f32 :=
  VS1.read (Elt F) (VS1.writes (Elt F) VS1.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t)).1)

/-- Case B at point `t`, over what the point before left (`xs0`). -/
theorem scover1_B (c : Dev nD) (t : Fin cfg1.N) (hc0 : ¬cond1_0 (grid1.coords t)) (hc1 : ¬cond1_1 (grid1.coords t))
    (xs0 : Vec F S1024x256 .f32) (y : S1024x256.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).1 S1024x256.size (by sl_kernel_rfl) y

def sout1_B (c : Dev nD) (t : Fin cfg1.N) (hc0 : ¬cond1_0 (grid1.coords t)) (hc1 : ¬cond1_1 (grid1.coords t))
    (xs0 : Vec F S1024x256 .f32) : Vec F S1024x256 .f32 :=
  VS1.read (Elt F) (VS1.writes (Elt F) VS1.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).1)

/-- Case C at point `t`, over what the point before left: the accumulator and the two outputs. -/
theorem scover1_C (c : Dev nD) (t : Fin cfg1.N) (hc0 : ¬cond1_0 (grid1.coords t)) (hc1 : cond1_1 (grid1.coords t))
    (xs0 : Vec F S1024x256 .f32) (y : S1024x256.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).2.2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).2.2.1 S1024x256.size (by sl_kernel_rfl) y

def sout1_C (c : Dev nD) (t : Fin cfg1.N) (hc0 : ¬cond1_0 (grid1.coords t)) (hc1 : cond1_1 (grid1.coords t))
    (xs0 : Vec F S1024x256 .f32) : Vec F S1024x256 .f32 :=
  VS1.read (Elt F) (VS1.writes (Elt F) VS1.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).2.2.1)

theorem cover1_C_5 (c : Dev nD) (t : Fin cfg1.N) (hc0 : ¬cond1_0 (grid1.coords t)) (hc1 : cond1_1 (grid1.coords t))
    (xs0 : Vec F S1024x256 .f32) (y : S1024x128.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).1 S1024x128.size (by sl_kernel_rfl) y

def out1_C_5 (c : Dev nD) (t : Fin cfg1.N) (hc0 : ¬cond1_0 (grid1.coords t)) (hc1 : cond1_1 (grid1.coords t))
    (xs0 : Vec F S1024x256 .f32) : Vec F S1024x128 .f32 :=
  VO1_5.read (Elt F) (VO1_5.writes (Elt F) VO1_5.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).1)

theorem cover1_C_6 (c : Dev nD) (t : Fin cfg1.N) (hc0 : ¬cond1_0 (grid1.coords t)) (hc1 : cond1_1 (grid1.coords t))
    (xs0 : Vec F S1024x256 .f32) (y : S1024x128.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).2.1 S1024x128.size (by sl_kernel_rfl) y

def out1_C_6 (c : Dev nD) (t : Fin cfg1.N) (hc0 : ¬cond1_0 (grid1.coords t)) (hc1 : cond1_1 (grid1.coords t))
    (xs0 : Vec F S1024x256 .f32) : Vec F S1024x128 .f32 :=
  VO1_6.read (Elt F) (VO1_6.writes (Elt F) VO1_6.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) xs0).2.1)

/-! ## The accumulator point by point -/

/-- What the accumulator holds after the body at position `n`: the case the closed forms select there, over what position
    `n - 1` left. -/
def accAt1 (c : Dev nD) : (n : ℕ) → n < cfg1.N → Vec F S1024x256 .f32
  | 0, hn => sout1_A V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 4 = 0 then
      if h1 : (n + 1) % 4 = 3 then False.elim (by omega)
      else sout1_A V c ⟨n + 1, hn⟩ ((hcond1_0 ⟨n + 1, hn⟩).mpr h0) (fun h => h1 ((hcond1_1 ⟨n + 1, hn⟩).mp h))
    else
      if h1 : (n + 1) % 4 = 3 then
        sout1_C V c ⟨n + 1, hn⟩ (fun h => h0 ((hcond1_0 ⟨n + 1, hn⟩).mp h)) ((hcond1_1 ⟨n + 1, hn⟩).mpr h1) (accAt1 c n (Nat.lt_of_succ_lt hn))
      else
        sout1_B V c ⟨n + 1, hn⟩ (fun h => h0 ((hcond1_0 ⟨n + 1, hn⟩).mp h)) (fun h => h1 ((hcond1_1 ⟨n + 1, hn⟩).mp h)) (accAt1 c n (Nat.lt_of_succ_lt hn))

theorem accAt1_A (c : Dev nD) (t : Fin cfg1.N) (h0 : t.val % 4 = 0) (h1 : ¬t.val % 4 = 3) :
    accAt1 V c t.val t.isLt = sout1_A V c t ((hcond1_0 t).mpr h0) (fun h => h1 ((hcond1_1 t).mp h)) := by
  obtain ⟨n, hn⟩ := t
  cases n with
  | zero => exact rfl
  | succ n => exact (dif_pos h0).trans ((dif_neg h1).trans rfl)

theorem accAt1_B (c : Dev nD) (t : Fin cfg1.N) (h0 : ¬t.val % 4 = 0) (h1 : ¬t.val % 4 = 3) :
    accAt1 V c t.val t.isLt = sout1_B V c t (fun h => h0 ((hcond1_0 t).mp h)) (fun h => h1 ((hcond1_1 t).mp h))
      (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt1_C (c : Dev nD) (t : Fin cfg1.N) (h0 : ¬t.val % 4 = 0) (h1 : t.val % 4 = 3) :
    accAt1 V c t.val t.isLt = sout1_C V c t (fun h => h0 ((hcond1_0 t).mp h)) ((hcond1_1 t).mpr h1)
      (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the outputs' buffers hold after the body at point `t`: stored at the points of case C, from the accumulator the
    point before left; at the other points the windows are idle and this value is consulted by nothing. -/
def out5At (c : Dev nD) (t : Fin cfg1.N) : Vec F S1024x128 .f32 :=
  if h1 : t.val % 4 = 3 then
    out1_C_5 V c t (fun h => (by have := (hcond1_0 t).mp h; omega)) ((hcond1_1 t).mpr h1) (accAt1 V c (t.val - 1) (Nat.lt_of_le_of_lt (Nat.sub_le _ _) t.isLt))
  else VO1_5.read (Elt F) VO1_5.junk
def out6At (c : Dev nD) (t : Fin cfg1.N) : Vec F S1024x128 .f32 :=
  if h1 : t.val % 4 = 3 then
    out1_C_6 V c t (fun h => (by have := (hcond1_0 t).mp h; omega)) ((hcond1_1 t).mpr h1) (accAt1 V c (t.val - 1) (Nat.lt_of_le_of_lt (Nat.sub_le _ _) t.isLt))
  else VO1_6.read (Elt F) VO1_6.junk

theorem out5At_C (c : Dev nD) (t : Fin cfg1.N) (h0 : ¬t.val % 4 = 0) (h1 : t.val % 4 = 3) :
    out5At V c t = out1_C_5 V c t (fun h => h0 ((hcond1_0 t).mp h)) ((hcond1_1 t).mpr h1) (accAt1 V c (t.val - 1) (Nat.lt_of_le_of_lt (Nat.sub_le _ _) t.isLt)) := by
  unfold out5At; rw [dif_pos h1]
theorem out6At_C (c : Dev nD) (t : Fin cfg1.N) (h0 : ¬t.val % 4 = 0) (h1 : t.val % 4 = 3) :
    out6At V c t = out1_C_6 V c t (fun h => h0 ((hcond1_0 t).mp h)) ((hcond1_1 t).mpr h1) (accAt1 V c (t.val - 1) (Nat.lt_of_le_of_lt (Nat.sub_le _ _) t.isLt)) := by
  unfold out6At; rw [dif_pos h1]

/-! ## The region's invariant -/

/-- Before position `n`: before the first point the class invariant (the accumulator at anything); afterwards the first
    region's staging buffers at anything, the accumulator at what the point before left, the generator register. -/
def PhiS1 (c : Dev nD) : (n : ℕ) → n ≤ cfg1.N → sProp 𝕄
  | 0, _ => Pipeline.ΦA spec1 c
  | n + 1, hn => iprop(iprop(other1 c cc0_stg0_0 ∗ other1 c cc0_stg0_1 ∗ other1 c cc0_stg1_0 ∗ other1 c cc0_stg1_1 ∗ owns (c : Thread nD τ) scM1 fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(other1 c cc0_stg0_0 ∗ other1 c cc0_stg0_1 ∗ other1 c cc0_stg1_0 ∗ other1 c cc0_stg1_1 ∗ owns (c : Thread nD τ) scM1 fullShare (accAt1 V c n hn)) ∗ (∃ r, prngReg c r)) := rfl

theorem PhiS1_pos (c : Dev nD) (n : ℕ) (h : n ≤ cfg1.N) (hz : n ≠ 0) :
    PhiS1 V c n h = iprop(iprop(other1 c cc0_stg0_0 ∗ other1 c cc0_stg0_1 ∗ other1 c cc0_stg1_0 ∗ other1 c cc0_stg1_1 ∗ owns (c : Thread nD τ) scM1 fullShare (accAt1 V c (n - 1) (by omega))) ∗ (∃ r, prngReg c r)) := by
  cases n with
  | zero => exact absurd rfl hz
  | succ n => rfl

/-! ## The pipeline's proof data -/

/-- The proof data of the region on core `c`: the arrays as the region finds them; after the body each input's buffer at
    its block, the outputs' at `out5At` / `out6At`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out5At V c t
    | ⟨6, _⟩ => out6At V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out5At V c t := by dsimp only [dat1]
theorem after1_6 (c : Dev nD) (t : Fin cfg1.N) : (dat1 V c).after 6 t = out6At V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Cert.KernelIdeal.Hand

end
-- ==== Proof.R1Body.lean ====
/-
  The propagation kernel's body obligation: at every grid point, from the region's invariant (the accumulator at what the
  point before left) and the windows' buffers at what the pipeline hands the body, the body runs and gives back the
  invariant of the next point and each window's buffer at what the proof data says.  The closed forms of the two branch
  conditions select the case; each case is its symbolic run.
-/
import proofs.«168352_j85693187490256_1_alg».proof.Proof.R1Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    · -- case A
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [Dat.leavesExact_idle (dat1 V c) 6 t (idleAt1_6 t (fun h => h1 ((hcond1_1 t).mp h))) (noFlush1_6 t (fun h => h1 ((hcond1_1 t).mp h)))]
      rw [accAt1_A V c t h0 h1]
      unfold sout1_A; (try dsimp only)
      by_cases hz : t.val = 0
      ·
        rw [PhiS1_castSucc V c t, PhiS1_zero V c _ _ hz, PhiA1_eq]
        iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)).2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_A V c t _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      ·
        rw [PhiS1_castSucc V c t, PhiS1_pos V c _ _ hz]
        iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)).2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_A V c t _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · by_cases h1 : t.val % 4 = 3
    · -- case C
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [accAt1_C V c t h0 h1, out5At_C V c t h0 h1, out6At_C V c t h0 h1]
      unfold sout1_C out1_C_5 out1_C_6; (try dsimp only)
      have hz : t.val ≠ 0 := by omega
      rw [PhiS1_castSucc V c t, PhiS1_pos V c _ _ hz]
      iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_C V c t _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_C_5 V c t _ _ _)
      unfold owns; iexists _; isplitr
      swap; · iexact H6
      ipureintro; exact View.read_writes_of_cover _ _ _ _ _ (cover1_C_6 V c t _ _ _)
    · -- case B
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [Dat.leavesExact_idle (dat1 V c) 6 t (idleAt1_6 t (fun h => h1 ((hcond1_1 t).mp h))) (noFlush1_6 t (fun h => h1 ((hcond1_1 t).mp h)))]
      rw [accAt1_B V c t h0 h1]
      unfold sout1_B; (try dsimp only)
      have hz : t.val ≠ 0 := by omega
      ·
        rw [PhiS1_castSucc V c t, PhiS1_pos V c _ _ hz]
        iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _).2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_B V c t _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨Ha, Hb, Hc, Hd, HS0⟩, Hg⟩
  isplitl [Ha Hb Hc Hd HS0]
  · isplitl [Ha]; · iexact Ha
    isplitl [Hb]; · iexact Hb
    isplitl [Hc]; · iexact Hc
    isplitl [Hd]; · iexact Hd
    iexists _; iexact HS0
  iexact Hg

end Cert.KernelIdeal.Hand

end
-- ==== Proof.KRun.lean ====
/-
  The kernel program's run, as the chain of its eight items: a stretch of host operations (the two slices of x), the row-sum
  region, a stretch (the degree scaling), the propagation region, and four stretches (the concatenation and the batch
  normalisation with its rectifier).  Between two items every unscoped buffer of a core is held whole at a known
  valuation W0 .. W8: the launch memory, then each stretch's operations folded over it, then at a region's exit the
  region's arrays at what its pipeline leaves.  The run ends with every unscoped buffer at W8.
-/
import proofs.«168352_j85693187490256_1_alg».proof.Proof.R0Dat
import proofs.«168352_j85693187490256_1_alg».proof.Proof.R1Body
import proofs.«168352_j85693187490256_1_alg».proof.Proof.Gen.KernelIdeal.Regions
import Idealize.ShloMosaic.Lib.Pipeline.Regions
import Idealize.ShloMosaic.Lib.Pipeline.RegionsLoop
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the row-sum region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the propagation region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev W8 : Dev nD → Valuation τ sig (Elt F) := fun c => StableHlo.after hostOps2_3 (W7 m c)

/-! ## The arguments end as launched -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h
theorem W6_of (c : Dev nD) (r : Ref sig .tc) (h : r ∉ hostOps2_1_W) : W6 m c r = W5 m c r :=
  StableHlo.after_of_writes_sub hostOps2_1 _ hostOps2_1_writes h
theorem W7_of (c : Dev nD) (r : Ref sig .tc) (h : r ∉ hostOps2_2_W) : W7 m c r = W6 m c r :=
  StableHlo.after_of_writes_sub hostOps2_2 _ hostOps2_2_writes h
theorem W8_of (c : Dev nD) (r : Ref sig .tc) (h : r ∉ hostOps2_3_W) : W8 m c r = W7 m c r :=
  StableHlo.after_of_writes_sub hostOps2_3 _ hostOps2_3_writes h

/-- A buffer that no stretch after the second region writes holds at the end what that region left. -/
theorem W8_eq_W4 (c : Dev nD) (r : Ref sig .tc) (h3 : r ∉ hostOps2_3_W) (h2 : r ∉ hostOps2_2_W) (h1 : r ∉ hostOps2_1_W) (h0 : r ∉ hostOps2_W) :
    W8 m c r = W4 m c r :=
  (W8_of m c r h3).trans <| (W7_of m c r h2).trans <| (W6_of m c r h1).trans (W5_of m c r h0)

/-- x is no window's array in either region and no stretch writes it. -/
theorem W8_main_arg0 (c : Dev nD) : W8 m c main_arg0 = m ((c : Thread nD τ).loc main_arg0) :=
  (W8_eq_W4 m c main_arg0 (by decide) (by decide) (by decide) (by decide)).trans <|
    (W4_of_ne m c main_arg0 (by decide)).trans <| (W3_of m c main_arg0 (by decide)).trans <|
    (W2_of_ne m c main_arg0 (by decide)).trans <| (W1_of m c main_arg0 (by decide)).trans rfl
/-- The affinity array is the first input window of both regions: each region hands an input's array back as found. -/
theorem W8_main_arg1 (c : Dev nD) : W8 m c main_arg1 = m ((c : Thread nD τ).loc main_arg1) :=
  (W8_eq_W4 m c main_arg1 (by decide) (by decide) (by decide) (by decide)).trans <|
    ((W4_arr m c 0).trans (((dat1 (V3 m) c).arrAt_in 0 rfl _).trans (A_eq1 (V3 m) c 0))).trans <|
    (W3_of m c main_arg1 (by decide)).trans <|
    ((W2_arr m c 0).trans (((dat0 (V1 m) c).arrAt_in 0 rfl _).trans (A_eq0 (V1 m) c 0))).trans <|
    (W1_of m c main_arg1 (by decide)).trans rfl
/-- The weight is the fifth input window of the second region. -/
theorem W8_main_arg2 (c : Dev nD) : W8 m c main_arg2 = m ((c : Thread nD τ).loc main_arg2) :=
  (W8_eq_W4 m c main_arg2 (by decide) (by decide) (by decide) (by decide)).trans <|
    ((W4_arr m c 4).trans (((dat1 (V3 m) c).arrAt_in 4 rfl _).trans (A_eq1 (V3 m) c 4))).trans <|
    (W3_of m c main_arg2 (by decide)).trans <|
    (W2_of_ne m c main_arg2 (by decide)).trans <| (W1_of m c main_arg2 (by decide)).trans rfl
theorem W8_main_arg3 (c : Dev nD) : W8 m c main_arg3 = m ((c : Thread nD τ).loc main_arg3) :=
  (W8_eq_W4 m c main_arg3 (by decide) (by decide) (by decide) (by decide)).trans <|
    (W4_of_ne m c main_arg3 (by decide)).trans <| (W3_of m c main_arg3 (by decide)).trans <|
    (W2_of_ne m c main_arg3 (by decide)).trans <| (W1_of m c main_arg3 (by decide)).trans rfl
theorem W8_main_arg4 (c : Dev nD) : W8 m c main_arg4 = m ((c : Thread nD τ).loc main_arg4) :=
  (W8_eq_W4 m c main_arg4 (by decide) (by decide) (by decide) (by decide)).trans <|
    (W4_of_ne m c main_arg4 (by decide)).trans <| (W3_of m c main_arg4 (by decide)).trans <|
    (W2_of_ne m c main_arg4 (by decide)).trans <| (W1_of m c main_arg4 (by decide)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- The row-sum region: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0_eq (V1 m) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Phi0_eq (V1 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The propagation region: entered from every unscoped buffer at W3, left at W4.  The generator register enters the
    region's invariant and comes back; the accumulator is one of the core's scoped buffers, at anything before and after. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)) ]

theorem main_run (c : Dev nD) : main (F := F) c = Pipeline.Seg.run (segs m) := (main_chain c).trans (by chain_rfl)

set_option backward.isDefEq.respectTransparency.types false in
/-- Every weakly fair execution of the program from memory `m` terminates, nothing faulting, and ends with every unscoped
    buffer of every core at the last valuation `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ R c) ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The run with the result named and the arguments read back: the result buffer ends at the last valuation's contents,
    every argument array as launched. -/
theorem run_result : θ_run defs (onTc (τ := τ) (main (F := F))) ⟨m, fun _ => 0, ρ⟩ (fun r => ∀ c : Dev nD,
      r.2.mem ((c.tc : Thread nD τ).loc main_v31) = W8 m c main_v31
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v31 (by decide)),
     (h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c)⟩) (run_all m ρ)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.KernelIdeal.Hand

end
-- ==== Proof.R1Pieces.lean ====
/-
  The propagation kernel's found pieces read back as values: after a point the accumulator holds the sum-step of what it
  held before (zero at the first column block), and at the last column block the outputs' buffers hold the two finalisation
  products of that accumulator.
-/
import proofs.«168352_j85693187490256_1_alg».proof.Proof.R1Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl

/-- The rows of a resident [4096, ·] input that the body loads for the current column block. -/
abbrev rectK (i : grid1.Coords) : Rect S4096x128 := Rect.unit (s := S4096x128) (k1_off1 i) S1024x128.size (k1_off1_inb i)
/-- The rows it loads for the current row block (at the last column block only). -/
abbrev rectI (i : grid1.Coords) (h : cond1_1 i) : Rect S4096x128 := Rect.unit (s := S4096x128) (k1_off2 i) S1024x128.size (k1_off2_inb i h)
abbrev rectD (i : grid1.Coords) (h : cond1_1 i) : Rect S4096x1 := Rect.unit (s := S4096x1) (k1_off3 i) S1024x1.size (k1_off3_inb i h)

/-- One accumulation step at point `t` over the accumulator contents `a`. -/
def step1 (c : Dev nD) (t : Fin cfg1.N) (a : Vec F S1024x256 .f32) : Vec F S1024x256 .f32 :=
  k1_pay2 (iblk1 V c 0 t : Vec F S1024x1024 .f32) (View.ld (iblk1 V c 1 t : Vec F S4096x128 .f32) (rectK (grid1.coords t)))
    (View.ld (iblk1 V c 2 t : Vec F S4096x128 .f32) (rectK (grid1.coords t))) a

theorem sout1_A_eq (c : Dev nD) (t : Fin cfg1.N) (hc0 : cond1_0 (grid1.coords t)) (hc1 : ¬cond1_1 (grid1.coords t)) :
    sout1_A V c t hc0 hc1 = step1 V c t (k1_pay1 (F := F)) := by
  unfold sout1_A
  rw [View.read_writes_eq_canon _ _ _ (scover1_A V c t hc0 hc1)]
  unfold kernelRun1_A
  dsimp only
  sl_unfold_words
  rw [View.canon_cons_unit_zero (S := S1024x256) hz2, View.readCov_unit_zero (S := S1024x256) _ hz2]
  simp only [View.readAt_eq_ld, (hs1_0 t).read_unread, (hs1_1 t).read_unread, (hs1_2 t).read_unread, View.ld_unit_zero (S := S1024x1024) hz2]
  rfl

theorem sout1_B_eq (c : Dev nD) (t : Fin cfg1.N) (hc0 : ¬cond1_0 (grid1.coords t)) (hc1 : ¬cond1_1 (grid1.coords t))
    (xs0 : Vec F S1024x256 .f32) :
    sout1_B V c t hc0 hc1 xs0 = step1 V c t xs0 := by
  unfold sout1_B
  rw [View.read_writes_eq_canon _ _ _ (scover1_B V c t hc0 hc1 xs0)]
  unfold kernelRun1_B
  dsimp only
  sl_unfold_words
  rw [View.canon_unit_zero (S := S1024x256) hz2]
  simp only [View.readAt_eq_ld, (hs1_0 t).read_unread, (hs1_1 t).read_unread, (hs1_2 t).read_unread, (Memref.isWhole_whole cc1_scratch0).read_unread, View.ld_unit_zero (S := S1024x1024) hz2, View.ld_unit_zero (S := S1024x256) hz2]
  rfl

theorem sout1_C_eq (c : Dev nD) (t : Fin cfg1.N) (hc0 : ¬cond1_0 (grid1.coords t)) (hc1 : cond1_1 (grid1.coords t))
    (xs0 : Vec F S1024x256 .f32) :
    sout1_C V c t hc0 hc1 xs0 = step1 V c t xs0 := by
  unfold sout1_C
  rw [View.read_writes_eq_canon _ _ _ (scover1_C V c t hc0 hc1 xs0)]
  unfold kernelRun1_C
  dsimp only
  sl_unfold_words
  rw [View.canon_unit_zero (S := S1024x256) hz2]
  simp only [View.readAt_eq_ld, (hs1_0 t).read_unread, (hs1_1 t).read_unread, (hs1_2 t).read_unread, (Memref.isWhole_whole cc1_scratch0).read_unread, View.ld_unit_zero (S := S1024x1024) hz2, View.ld_unit_zero (S := S1024x256) hz2]
  rfl

/-- The first output's block at the last column block, from the completed accumulator `a`. -/
def fin5 (c : Dev nD) (t : Fin cfg1.N) (h : cond1_1 (grid1.coords t)) (a : Vec F S1024x256 .f32) : Vec F S1024x128 .f32 :=
  k1_pay5 (View.ld (iblk1 V c 2 t : Vec F S4096x128 .f32) (rectI (grid1.coords t) h))
    (View.ld (iblk1 V c 3 t : Vec F S4096x1 .f32) (rectD (grid1.coords t) h)) a (iblk1 V c 4 t : Vec F S128x128 .f32)
def fin6 (c : Dev nD) (t : Fin cfg1.N) (h : cond1_1 (grid1.coords t)) (a : Vec F S1024x256 .f32) : Vec F S1024x128 .f32 :=
  k1_pay6 (View.ld (iblk1 V c 1 t : Vec F S4096x128 .f32) (rectI (grid1.coords t) h))
    (View.ld (iblk1 V c 3 t : Vec F S4096x1 .f32) (rectD (grid1.coords t) h)) a (iblk1 V c 4 t : Vec F S128x128 .f32)

theorem out1_C_5_eq (c : Dev nD) (t : Fin cfg1.N) (hc0 : ¬cond1_0 (grid1.coords t)) (hc1 : cond1_1 (grid1.coords t))
    (xs0 : Vec F S1024x256 .f32) :
    out1_C_5 V c t hc0 hc1 xs0 = fin5 V c t hc1 (step1 V c t xs0) := by
  unfold out1_C_5
  rw [View.read_writes_eq_canon _ _ _ (cover1_C_5 V c t hc0 hc1 xs0)]
  unfold kernelRun1_C
  dsimp only
  sl_unfold_words
  rw [View.canon_unit_zero (S := S1024x128) hz2, View.readCov_unit_zero (S := S1024x256) _ hz2]
  simp only [View.readAt_eq_ld, (hs1_0 t).read_unread, (hs1_1 t).read_unread, (hs1_2 t).read_unread, (hs1_3 t).read_unread, (hs1_4 t).read_unread, (Memref.isWhole_whole cc1_scratch0).read_unread, View.ld_unit_zero (S := S1024x1024) hz2, View.ld_unit_zero (S := S1024x256) hz2, View.ld_unit_zero (S := S128x128) hz2]
  rfl

theorem out1_C_6_eq (c : Dev nD) (t : Fin cfg1.N) (hc0 : ¬cond1_0 (grid1.coords t)) (hc1 : cond1_1 (grid1.coords t))
    (xs0 : Vec F S1024x256 .f32) :
    out1_C_6 V c t hc0 hc1 xs0 = fin6 V c t hc1 (step1 V c t xs0) := by
  unfold out1_C_6
  rw [View.read_writes_eq_canon _ _ _ (cover1_C_6 V c t hc0 hc1 xs0)]
  unfold kernelRun1_C
  dsimp only
  sl_unfold_words
  rw [View.canon_unit_zero (S := S1024x128) hz2, View.readCov_unit_zero (S := S1024x256) _ hz2]
  simp only [View.readAt_eq_ld, (hs1_0 t).read_unread, (hs1_1 t).read_unread, (hs1_2 t).read_unread, (hs1_3 t).read_unread, (hs1_4 t).read_unread, (Memref.isWhole_whole cc1_scratch0).read_unread, View.ld_unit_zero (S := S1024x1024) hz2, View.ld_unit_zero (S := S1024x256) hz2, View.ld_unit_zero (S := S128x128) hz2]
  rfl

end Cert.KernelIdeal.Hand

end
-- ==== Proof.R1Idx.lean ====
/-
  Where the propagation kernel's loads read the region's arrays.  Point t is row block i = t / 4 and column block k = t % 4:
  the affinity block read at t holds rows 1024 i .. and columns 1024 k ..; the four resident inputs' blocks are their whole
  arrays; the rows loaded from y1, y2 for the column block start at 1024 k, those loaded for the row block (and from the
  degree column) at 1024 i; the outputs' block at t is rows 1024 i .. of their arrays.
-/
import proofs.«168352_j85693187490256_1_alg».proof.Proof.R1Pieces
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

theorem tlt (t : Fin cfg1.N) : t.val < 16 := lt_of_lt_of_eq t.isLt (show cfg1.N = 16 from N_1)

theorem idx1_0 : ∀ t : Fin cfg1.N, win1_0.index t (0 : Fin 2) = t.val / 4 ∧ win1_0.index t (1 : Fin 2) = t.val % 4 :=
  (by decide +kernel : ∀ t : Fin grid1.N, win1_0.index t (0 : Fin 2) = t.val / 4 ∧ win1_0.index t (1 : Fin 2) = t.val % 4)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx1_5 : ∀ t : Fin cfg1.N, win1_5.index t (0 : Fin 2) = t.val / 4 ∧ win1_5.index t (1 : Fin 2) = 0 :=
  (by decide +kernel : ∀ t : Fin grid1.N, win1_5.index t (0 : Fin 2) = t.val / 4 ∧ win1_5.index t (1 : Fin 2) = 0)
theorem idx1_6 : ∀ t : Fin cfg1.N, win1_6.index t (0 : Fin 2) = t.val / 4 ∧ win1_6.index t (1 : Fin 2) = 0 :=
  (by decide +kernel : ∀ t : Fin grid1.N, win1_6.index t (0 : Fin 2) = t.val / 4 ∧ win1_6.index t (1 : Fin 2) = 0)

theorem off1_eq : ∀ t : Fin cfg1.N, k1_off1 (grid1.coords t) 0 = 1024 * (t.val % 4) ∧ k1_off1 (grid1.coords t) 1 = 0 :=
  (by decide +kernel : ∀ t : Fin grid1.N, k1_off1 (grid1.coords t) 0 = 1024 * (t.val % 4) ∧ k1_off1 (grid1.coords t) 1 = 0)
theorem off2_eq : ∀ t : Fin cfg1.N, k1_off2 (grid1.coords t) 0 = 1024 * (t.val / 4) ∧ k1_off2 (grid1.coords t) 1 = 0 :=
  (by decide +kernel : ∀ t : Fin grid1.N, k1_off2 (grid1.coords t) 0 = 1024 * (t.val / 4) ∧ k1_off2 (grid1.coords t) 1 = 0)
theorem off3_eq : ∀ t : Fin cfg1.N, k1_off3 (grid1.coords t) 0 = 1024 * (t.val / 4) ∧ k1_off3 (grid1.coords t) 1 = 0 :=
  (by decide +kernel : ∀ t : Fin grid1.N, k1_off3 (grid1.coords t) 0 = 1024 * (t.val / 4) ∧ k1_off3 (grid1.coords t) 1 = 0)

/-- Row `p` of row block `t / 4`, column `q` of column block `t % 4`. -/
abbrev rowOf (t : Fin cfg1.N) (p : Fin 1024) : Fin 4096 := ⟨1024 * (t.val / 4) + p.val, by have := tlt t; have := p.isLt; omega⟩
abbrev colOf (t : Fin cfg1.N) (q : Fin 1024) : Fin 4096 := ⟨1024 * (t.val % 4) + q.val, by have := tlt t; have := q.isLt; omega⟩

/-- The affinity block at point `t`. -/
theorem iblk1_0_apply (c : Dev nD) (t : Fin cfg1.N) (p q : Fin 1024) :
    (iblk1 V c 0 t : Vec F S1024x1024 .f32) (ix2 p q) = (V c main_arg1 : S4096x4096.Idx → Elt F .f32) (ix2 (rowOf t p) (colOf t q)) := by
  unfold iblk1
  rw [View.read_apply]
  show V c main_arg1 _ = V c main_arg1 _
  refine congrArg _ ?_
  funext a; apply Fin.ext
  obtain ⟨e0, e1⟩ := idx1_0 t
  match a with
  | ⟨0, _⟩ => show win1_0.index t (0 : Fin 2) * 1024 + 1 * p.val = 1024 * (t.val / 4) + p.val; rw [e0]; omega
  | ⟨1, _⟩ => show win1_0.index t (1 : Fin 2) * 1024 + 1 * q.val = 1024 * (t.val % 4) + q.val; rw [e1]; omega

/-- The four resident inputs' blocks are their arrays. -/
theorem iblk1_1_eq (c : Dev nD) (t : Fin cfg1.N) : (iblk1 V c 1 t : Vec F S4096x128 .f32) = (V c main_v7 : S4096x128.Idx → Elt F .f32) := by
  funext y
  unfold iblk1
  rw [View.read_apply]
  show V c main_v7 _ = V c main_v7 _
  refine congrArg _ ?_
  funext a; apply Fin.ext
  obtain ⟨e0, e1⟩ := idx1_1 t
  match a with
  | ⟨0, _⟩ => show win1_1.index t (0 : Fin 2) * 4096 + 1 * (y 0).val = (y 0).val; rw [e0]; omega
  | ⟨1, _⟩ => show win1_1.index t (1 : Fin 2) * 128 + 1 * (y 1).val = (y 1).val; rw [e1]; omega
theorem iblk1_2_eq (c : Dev nD) (t : Fin cfg1.N) : (iblk1 V c 2 t : Vec F S4096x128 .f32) = (V c main_v9 : S4096x128.Idx → Elt F .f32) := by
  funext y
  unfold iblk1
  rw [View.read_apply]
  show V c main_v9 _ = V c main_v9 _
  refine congrArg _ ?_
  funext a; apply Fin.ext
  obtain ⟨e0, e1⟩ := idx1_2 t
  match a with
  | ⟨0, _⟩ => show win1_2.index t (0 : Fin 2) * 4096 + 1 * (y 0).val = (y 0).val; rw [e0]; omega
  | ⟨1, _⟩ => show win1_2.index t (1 : Fin 2) * 128 + 1 * (y 1).val = (y 1).val; rw [e1]; omega
theorem iblk1_3_eq (c : Dev nD) (t : Fin cfg1.N) : (iblk1 V c 3 t : Vec F S4096x1 .f32) = (V c main_v5 : S4096x1.Idx → Elt F .f32) := by
  funext y
  unfold iblk1
  rw [View.read_apply]
  show V c main_v5 _ = V c main_v5 _
  refine congrArg _ ?_
  funext a; apply Fin.ext
  obtain ⟨e0, e1⟩ := idx1_3 t
  match a with
  | ⟨0, _⟩ => show win1_3.index t (0 : Fin 2) * 4096 + 1 * (y 0).val = (y 0).val; rw [e0]; omega
  | ⟨1, _⟩ => show win1_3.index t (1 : Fin 2) * 1 + 1 * (y 1).val = (y 1).val; rw [e1]; omega
theorem iblk1_4_eq (c : Dev nD) (t : Fin cfg1.N) : (iblk1 V c 4 t : Vec F S128x128 .f32) = (V c main_arg2 : S128x128.Idx → Elt F .f32) := by
  funext y
  unfold iblk1
  rw [View.read_apply]
  show V c main_arg2 _ = V c main_arg2 _
  refine congrArg _ ?_
  funext a; apply Fin.ext
  obtain ⟨e0, e1⟩ := idx1_4 t
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- The rows loaded for the column block. -/
theorem ldK_apply (X : S4096x128.Idx → Elt F .f32) (t : Fin cfg1.N) (q : Fin 1024) (j : Fin 128) :
    View.ld X (rectK (grid1.coords t)) (ix2 q j) = X (ix2 (colOf t q) j) := by
  show X _ = X _
  refine congrArg _ ?_
  funext a; apply Fin.ext
  obtain ⟨e0, e1⟩ := off1_eq t
  match a with
  | ⟨0, _⟩ => show k1_off1 (grid1.coords t) 0 + 1 * q.val = 1024 * (t.val % 4) + q.val; rw [e0]; omega
  | ⟨1, _⟩ => show k1_off1 (grid1.coords t) 1 + 1 * j.val = j.val; rw [e1]; omega
/-- The rows loaded for the row block. -/
theorem ldI_apply (X : S4096x128.Idx → Elt F .f32) (t : Fin cfg1.N) (h : cond1_1 (grid1.coords t)) (p : Fin 1024) (j : Fin 128) :
    View.ld X (rectI (grid1.coords t) h) (ix2 p j) = X (ix2 (rowOf t p) j) := by
  show X _ = X _
  refine congrArg _ ?_
  funext a; apply Fin.ext
  obtain ⟨e0, e1⟩ := off2_eq t
  match a with
  | ⟨0, _⟩ => show k1_off2 (grid1.coords t) 0 + 1 * p.val = 1024 * (t.val / 4) + p.val; rw [e0]; omega
  | ⟨1, _⟩ => show k1_off2 (grid1.coords t) 1 + 1 * j.val = j.val; rw [e1]; omega
theorem ldD_apply (X : S4096x1.Idx → Elt F .f32) (t : Fin cfg1.N) (h : cond1_1 (grid1.coords t)) (p : Fin 1024) :
    View.ld X (rectD (grid1.coords t) h) (ix2 p 0) = X (ix2 (rowOf t p) 0) := by
  show X _ = X _
  refine congrArg _ ?_
  funext a; apply Fin.ext
  obtain ⟨e0, e1⟩ := off3_eq t
  match a with
  | ⟨0, _⟩ => show k1_off3 (grid1.coords t) 0 + 1 * p.val = 1024 * (t.val / 4) + p.val; rw [e0]; omega
  | ⟨1, _⟩ => show k1_off3 (grid1.coords t) 1 + 1 * 0 = 0; rw [e1]

/-! ## The accumulator and the outputs, point by point, as steps -/

theorem acc_first (c : Dev nD) (t : Fin cfg1.N) (h0 : t.val % 4 = 0) :
    accAt1 V c t.val t.isLt = step1 V c t (k1_pay1 (F := F)) := by
  have h1 : ¬t.val % 4 = 3 := by omega
  rw [accAt1_A V c t h0 h1, sout1_A_eq]

theorem acc_next (c : Dev nD) (t : Fin cfg1.N) (h0 : ¬t.val % 4 = 0) :
    accAt1 V c t.val t.isLt = step1 V c t (accAt1 V c (t.val - 1) (Nat.lt_of_le_of_lt (Nat.sub_le _ _) t.isLt)) := by
  by_cases h1 : t.val % 4 = 3
  · rw [accAt1_C V c t h0 h1, sout1_C_eq]
  · rw [accAt1_B V c t h0 h1, sout1_B_eq]

theorem out5At_eq (c : Dev nD) (t : Fin cfg1.N) (h1 : t.val % 4 = 3) :
    out5At V c t = fin5 V c t ((hcond1_1 t).mpr h1) (accAt1 V c t.val t.isLt) := by
  have h0 : ¬t.val % 4 = 0 := by omega
  rw [out5At_C V c t h0 h1, out1_C_5_eq, acc_next V c t h0]
theorem out6At_eq (c : Dev nD) (t : Fin cfg1.N) (h1 : t.val % 4 = 3) :
    out6At V c t = fin6 V c t ((hcond1_1 t).mpr h1) (accAt1 V c t.val t.isLt) := by
  have h0 : ¬t.val % 4 = 0 := by omega
  rw [out6At_C V c t h0 h1, out1_C_6_eq, acc_next V c t h0]

end Cert.KernelIdeal.Hand

end
-- ==== Proof.Spec.lean ====
/-
  The mathematics of the graph-convolution layer, free of any program.

  Notation.  n = 4096 nodes, d = 128 features.  `A` is the n×n affinity array, `x` the 2n×d feature array (the first n rows
  belong to the first copy of the graph, the last n rows to the second), `W` the d×d weight.
  `bin a` is the binarised affinity (1 where a > 0, else 0).  The layer propagates over the block adjacency
        adj = [[bin A, I], [I, bin A]]          (2n × 2n)
  normalised symmetrically by the degrees  deg r = Σ_c adj r c = rowsum r + 1,   dinv r = deg r ^ (-1/2).

  Two arrangements of the same propagation are defined here:
   * `refPre`   — the textbook one:  Σ_c (dinv r · adj r c · dinv c) · x c j   over all 2n columns;
   * `kerPre`   — the one that never forms adj: with dv r = rsqrt (rowsum r + 1),
                     top half   dv r · (Σ_{c<n} bin A r c · (dv c · x c j)  +  dv r · x (n+r) j)
                     bottom     dv r · (dv r · x r j  +  Σ_{c<n} bin A r c · (dv c · x (n+c) j)).
  They agree when every entry of x is a real number (distributivity of · over Σ fails at ±∞, so finiteness of x is used;
  the degrees are positive reals whatever A holds, because bin takes only the values 0 and 1).
-/
import Idealize.ShloMosaic.PureOps.Ideal

noncomputable section

namespace Gcn

open Idealize.ShloMosaic

/-- The binarised affinity: 1 where the entry is positive, else 0. -/
def bin (a : EReal) : EReal := if 0 < a then 1 else 0

/-- Row `c` of the first copy (s = 0) or of the second copy (s = 1) of the graph, as a row of the 2n-row feature array. -/
def half (s : Fin 2) (c : Fin 4096) : Fin 8192 := ⟨s.val * 4096 + c.val, by have := s.isLt; have := c.isLt; omega⟩

/-- The number of positive affinities in row r. -/
def rowsum (A : Fin 4096 → Fin 4096 → EReal) (r : Fin 4096) : EReal := ∑ c : Fin 4096, bin (A r c)

/-- deg^(-1/2) as the kernel computes it: the reciprocal square root of rowsum + 1. -/
def dv (A : Fin 4096 → Fin 4096 → EReal) (r : Fin 4096) : EReal := Ideal.rsqrt (rowsum A r + 1)

/-- Σ_{c<n} bin A r c · (dv c · x (copy s, row c) j): the affinity block applied to the degree-scaled features of copy s. -/
def prop (x : Fin 8192 → Fin 128 → EReal) (A : Fin 4096 → Fin 4096 → EReal) (s : Fin 2) (r : Fin 4096) (j : Fin 128) : EReal :=
  ∑ c : Fin 4096, bin (A r c) * (dv A c * x (half s c) j)

/-- The propagated features before the weight, in the arrangement that never forms the 2n×2n adjacency. -/
def kerPre (x : Fin 8192 → Fin 128 → EReal) (A : Fin 4096 → Fin 4096 → EReal) (r : Fin 8192) (j : Fin 128) : EReal :=
  if h : r.val < 4096 then
    dv A ⟨r.val, h⟩ * (prop x A 0 ⟨r.val, h⟩ j + dv A ⟨r.val, h⟩ * x (half 1 ⟨r.val, h⟩) j)
  else
    dv A ⟨r.val - 4096, by have := r.isLt; omega⟩
      * (dv A ⟨r.val - 4096, by have := r.isLt; omega⟩ * x (half 0 ⟨r.val - 4096, by have := r.isLt; omega⟩) j
          + prop x A 1 ⟨r.val - 4096, by have := r.isLt; omega⟩ j)

/-- The block adjacency [[bin A, I], [I, bin A]]. -/
def adj (A : Fin 4096 → Fin 4096 → EReal) (r c : Fin 8192) : EReal :=
  if hr : r.val < 4096 then
    (if hc : c.val < 4096 then bin (A ⟨r.val, hr⟩ ⟨c.val, hc⟩) else if c.val - 4096 = r.val then 1 else 0)
  else
    (if hc : c.val < 4096 then (if c.val = r.val - 4096 then 1 else 0)
     else bin (A ⟨r.val - 4096, by have := r.isLt; omega⟩ ⟨c.val - 4096, by have := c.isLt; omega⟩))

/-- The degree of row r of the block adjacency. -/
def deg (A : Fin 4096 → Fin 4096 → EReal) (r : Fin 8192) : EReal := ∑ c : Fin 8192, adj A r c

/-- deg^(-1/2) as the reference computes it: the power with exponent -1/2. -/
def dinv (A : Fin 4096 → Fin 4096 → EReal) (r : Fin 8192) : EReal := Ideal.pow (deg A r) ((-(1/2) : ℝ) : EReal)

/-- The propagated features before the weight, textbook arrangement: (D^(-1/2) adj D^(-1/2)) x. -/
def refPre (x : Fin 8192 → Fin 128 → EReal) (A : Fin 4096 → Fin 4096 → EReal) (r : Fin 8192) (j : Fin 128) : EReal :=
  ∑ c : Fin 8192, ((dinv A r * adj A r c) * dinv A c) * x c j

/-- The layer's output before normalisation: the propagated features times the weight. -/
def withWeight (pre : Fin 8192 → Fin 128 → EReal) (W : Fin 128 → Fin 128 → EReal) (r : Fin 8192) (j : Fin 128) : EReal :=
  ∑ k : Fin 128, pre r k * W k j

end Gcn

end
-- ==== Proof.SpecLaws.lean ====
/-
  Algebraic facts about the graph-convolution specification: the float literals the programs spell, the splitting of
  the column sums into halves and into four blocks, positivity of the degrees, and the equality of the two arrangements
  of the propagation when every feature is a real number.
-/
import proofs.«168352_j85693187490256_1_alg».proof.Proof.Spec
import Mathlib

noncomputable section

namespace Gcn

open Idealize.ShloMosaic

/-! ### Literals -/

/-- The pattern of +0.0 denotes 0. -/
theorem ofBits_zero : Ideal.ofBits .f32 0x00000000#32 = 0 := by
  simp [Ideal.ofBits, Ideal.ieee]

/-- The pattern of 1.0 denotes 1. -/
theorem ofBits_one : Ideal.ofBits .f32 0x3F800000#32 = 1 := by
  simp [Ideal.ofBits, Ideal.ieee, -EReal.coe_mul]; norm_num

/-- The pattern of -0.5 denotes the real -1/2. -/
theorem ofBits_neg_half : Ideal.ofBits .f32 0xBF000000#32 = ((-(1/2) : ℝ) : EReal) := by
  simp [Ideal.ofBits, Ideal.ieee, -EReal.coe_mul]; norm_num

/-! ### Splitting sums -/

/-- A sum over a + b indices is the sum over the first a plus the sum over the last b. -/
theorem sum_split {M : Type*} [AddCommMonoid M] (a b n : ℕ) (h : a + b = n) (f : Fin n → M) :
    ∑ c, f c = ∑ c : Fin a, f ⟨c.val, by have := c.isLt; omega⟩ + ∑ c : Fin b, f ⟨a + c.val, by have := c.isLt; omega⟩ := by
  subst h
  rw [Fin.sum_univ_add]
  rfl

/-- A sum over the 2n rows is the sum over the first copy plus the sum over the second copy. -/
theorem sum_halves {M : Type*} [AddCommMonoid M] (f : Fin 8192 → M) :
    ∑ c, f c = ∑ c : Fin 4096, f (half 0 c) + ∑ c : Fin 4096, f (half 1 c) := by
  rw [sum_split 4096 4096 8192 rfl f]
  congr 1 <;> (apply Finset.sum_congr rfl; intro c _; congr 1; ext; simp [half])

/-- Column c' of block k, the columns taken in four blocks of 1024. -/
def blk (k : Fin 4) (c' : Fin 1024) : Fin 4096 := ⟨k.val * 1024 + c'.val, by have := k.isLt; have := c'.isLt; omega⟩

/-- A sum over the n columns, accumulated block by block from zero. -/
theorem sum_blocks4 {M : Type*} [AddCommMonoid M] (f : Fin 4096 → M) :
    ∑ c, f c = (((0 + ∑ c' : Fin 1024, f (blk 0 c')) + ∑ c', f (blk 1 c')) + ∑ c', f (blk 2 c')) + ∑ c', f (blk 3 c') := by
  rw [sum_split 3072 1024 4096 rfl f,
    sum_split 2048 1024 3072 rfl (fun c : Fin 3072 => f ⟨c.val, by have := c.isLt; omega⟩),
    sum_split 1024 1024 2048 rfl (fun c : Fin 2048 => f ⟨c.val, by have := c.isLt; omega⟩), zero_add]
  congr 1

/-- Every row of the 2n-row array is a row of the first copy or a row of the second copy. -/
theorem exists_half (r : Fin 8192) : (∃ r' : Fin 4096, r = half 0 r') ∨ (∃ r' : Fin 4096, r = half 1 r') := by
  by_cases h : r.val < 4096
  · exact Or.inl ⟨⟨r.val, h⟩, Fin.ext (by simp [half])⟩
  · have := r.isLt
    exact Or.inr ⟨⟨r.val - 4096, by omega⟩, Fin.ext (by simp [half]; omega)⟩

/-- The coercion of a finite sum of reals is the sum of the coercions. -/
theorem coe_sum {ι : Type*} (s : Finset ι) (g : ι → ℝ) : ((∑ c ∈ s, g c : ℝ) : EReal) = ∑ c ∈ s, (g c : EReal) := by
  classical
  induction s using Finset.induction_on with
  | empty => simp
  | insert a s ha ih => rw [Finset.sum_insert ha, Finset.sum_insert ha, EReal.coe_add, ih]

/-! ### The binarised affinity and the degrees -/

theorem bin_eq (a : EReal) : bin a = 0 ∨ bin a = 1 := by
  unfold bin; split_ifs <;> simp

/-- The binarised affinity as a real number. -/
def binR (a : EReal) : ℝ := if 0 < a then 1 else 0

theorem bin_coe (a : EReal) : bin a = (binR a : EReal) := by
  unfold bin binR; split_ifs <;> simp

theorem binR_nonneg (a : EReal) : 0 ≤ binR a := by
  unfold binR; split_ifs <;> norm_num

/-- The number of positive affinities in row r, as a real number. -/
def rowsumR (A : Fin 4096 → Fin 4096 → EReal) (r : Fin 4096) : ℝ := ∑ c : Fin 4096, binR (A r c)

theorem rowsum_coe (A : Fin 4096 → Fin 4096 → EReal) (r : Fin 4096) : rowsum A r = (rowsumR A r : EReal) := by
  unfold rowsum rowsumR
  rw [coe_sum]
  exact Finset.sum_congr rfl (fun c _ => bin_coe _)

theorem rowsumR_nonneg (A : Fin 4096 → Fin 4096 → EReal) (r : Fin 4096) : 0 ≤ rowsumR A r :=
  Finset.sum_nonneg (fun c _ => binR_nonneg _)

/-- deg^(-1/2) as a real number: 1 / √(rowsum + 1). -/
def dvR (A : Fin 4096 → Fin 4096 → EReal) (r : Fin 4096) : ℝ := (Real.sqrt (rowsumR A r + 1))⁻¹

theorem dvR_pos (A : Fin 4096 → Fin 4096 → EReal) (r : Fin 4096) : 0 < dvR A r := by
  have := rowsumR_nonneg A r
  exact inv_pos.mpr (Real.sqrt_pos.mpr (by linarith))

theorem dv_coe (A : Fin 4096 → Fin 4096 → EReal) (r : Fin 4096) : dv A r = (dvR A r : EReal) := by
  have h := rowsumR_nonneg A r
  unfold dv dvR
  rw [rowsum_coe, ← EReal.coe_one, ← EReal.coe_add, Ideal.rsqrt_coe,
    if_neg (not_lt.mpr (by linarith)), if_neg (by linarith : ¬ rowsumR A r + 1 = 0)]

theorem dv_pos_real (A : Fin 4096 → Fin 4096 → EReal) (r : Fin 4096) : ∃ d : ℝ, 0 < d ∧ dv A r = (d : EReal) :=
  ⟨dvR A r, dvR_pos A r, dv_coe A r⟩

/-! ### The block adjacency, block by block -/

theorem adj_00 (A : Fin 4096 → Fin 4096 → EReal) (r c : Fin 4096) : adj A (half 0 r) (half 0 c) = bin (A r c) := by
  have hr : (half 0 r).val < 4096 := by simp [half]
  have hc : (half 0 c).val < 4096 := by simp [half]
  have er : ∀ h, (⟨(half 0 r).val, h⟩ : Fin 4096) = r := fun h => Fin.ext (by simp [half])
  have ec : ∀ h, (⟨(half 0 c).val, h⟩ : Fin 4096) = c := fun h => Fin.ext (by simp [half])
  unfold adj
  rw [dif_pos hr, dif_pos hc, er, ec]

theorem adj_01 (A : Fin 4096 → Fin 4096 → EReal) (r c : Fin 4096) :
    adj A (half 0 r) (half 1 c) = if c = r then 1 else 0 := by
  have hr : (half 0 r).val < 4096 := by simp [half]
  have hc : ¬ (half 1 c).val < 4096 := by simp [half]
  have e1 : (half 1 c).val - 4096 = c.val := by simp [half]
  have e2 : (half 0 r).val = r.val := by simp [half]
  unfold adj
  rw [dif_pos hr, dif_neg hc, e1, e2]
  simp [Fin.ext_iff]

theorem adj_10 (A : Fin 4096 → Fin 4096 → EReal) (r c : Fin 4096) :
    adj A (half 1 r) (half 0 c) = if c = r then 1 else 0 := by
  have hr : ¬ (half 1 r).val < 4096 := by simp [half]
  have hc : (half 0 c).val < 4096 := by simp [half]
  have e1 : (half 1 r).val - 4096 = r.val := by simp [half]
  have e2 : (half 0 c).val = c.val := by simp [half]
  unfold adj
  rw [dif_neg hr, dif_pos hc, e1, e2]
  simp [Fin.ext_iff]

theorem adj_11 (A : Fin 4096 → Fin 4096 → EReal) (r c : Fin 4096) : adj A (half 1 r) (half 1 c) = bin (A r c) := by
  have hr : ¬ (half 1 r).val < 4096 := by simp [half]
  have hc : ¬ (half 1 c).val < 4096 := by simp [half]
  have er : ∀ h, (⟨(half 1 r).val - 4096, h⟩ : Fin 4096) = r := fun h => Fin.ext (by simp [half])
  have ec : ∀ h, (⟨(half 1 c).val - 4096, h⟩ : Fin 4096) = c := fun h => Fin.ext (by simp [half])
  unfold adj
  rw [dif_neg hr, dif_neg hc, er, ec]

theorem sum_ite_one (r : Fin 4096) : (∑ c : Fin 4096, (if c = r then (1 : EReal) else 0)) = 1 := by
  simp

theorem deg_half0 (A : Fin 4096 → Fin 4096 → EReal) (r : Fin 4096) :
    deg A (half 0 r) = ((rowsumR A r + 1 : ℝ) : EReal) := by
  unfold deg
  rw [sum_halves]
  simp only [adj_00, adj_01]
  rw [sum_ite_one, EReal.coe_add, EReal.coe_one, ← rowsum_coe]
  rfl

theorem deg_half1 (A : Fin 4096 → Fin 4096 → EReal) (r : Fin 4096) :
    deg A (half 1 r) = ((rowsumR A r + 1 : ℝ) : EReal) := by
  unfold deg
  rw [sum_halves]
  simp only [adj_10, adj_11]
  rw [sum_ite_one, EReal.coe_add, EReal.coe_one, ← rowsum_coe, add_comm]
  rfl

theorem rpow_neg_half (t : ℝ) (ht : 0 < t) : Real.rpow t (-(1/2)) = (Real.sqrt t)⁻¹ := by
  show t ^ (-(1/2) : ℝ) = (Real.sqrt t)⁻¹
  rw [Real.rpow_neg ht.le, Real.sqrt_eq_rpow]

theorem dinv_half0 (A : Fin 4096 → Fin 4096 → EReal) (r : Fin 4096) : dinv A (half 0 r) = (dvR A r : EReal) := by
  have h := rowsumR_nonneg A r
  unfold dinv dvR
  rw [deg_half0, Ideal.pow_coe_coe, rpow_neg_half _ (by linarith)]

theorem dinv_half1 (A : Fin 4096 → Fin 4096 → EReal) (r : Fin 4096) : dinv A (half 1 r) = (dvR A r : EReal) := by
  have h := rowsumR_nonneg A r
  unfold dinv dvR
  rw [deg_half1, Ideal.pow_coe_coe, rpow_neg_half _ (by linarith)]

theorem dinv_pos_real (A : Fin 4096 → Fin 4096 → EReal) (r : Fin 8192) : ∃ d : ℝ, 0 < d ∧ dinv A r = (d : EReal) := by
  rcases exists_half r with ⟨r', rfl⟩ | ⟨r', rfl⟩
  · exact ⟨dvR A r', dvR_pos A r', dinv_half0 A r'⟩
  · exact ⟨dvR A r', dvR_pos A r', dinv_half1 A r'⟩

/-! ### The two arrangements agree -/

theorem kerPre_half0 (x : Fin 8192 → Fin 128 → EReal) (A : Fin 4096 → Fin 4096 → EReal) (r : Fin 4096) (j : Fin 128) :
    kerPre x A (half 0 r) j = dv A r * (prop x A 0 r j + dv A r * x (half 1 r) j) := by
  have hr : (half 0 r).val < 4096 := by simp [half]
  have er : ∀ h, (⟨(half 0 r).val, h⟩ : Fin 4096) = r := fun h => Fin.ext (by simp [half])
  unfold kerPre
  rw [dif_pos hr]
  simp only [er]

theorem kerPre_half1 (x : Fin 8192 → Fin 128 → EReal) (A : Fin 4096 → Fin 4096 → EReal) (r : Fin 4096) (j : Fin 128) :
    kerPre x A (half 1 r) j = dv A r * (dv A r * x (half 0 r) j + prop x A 1 r j) := by
  have hr : ¬ (half 1 r).val < 4096 := by simp [half]
  have er : ∀ h, (⟨(half 1 r).val - 4096, h⟩ : Fin 4096) = r := fun h => Fin.ext (by simp [half])
  unfold kerPre
  rw [dif_neg hr]
  simp only [er]

/-- The real-number identity behind the top half: the identity block contributes the single term c = r. -/
theorem real_core (d b X0 X1 : Fin 4096 → ℝ) (r : Fin 4096) :
    ∑ c, ((d r * b c) * d c) * X0 c + ∑ c, ((d r * (if c = r then 1 else 0)) * d c) * X1 c
      = d r * (∑ c, b c * (d c * X0 c) + d r * X1 r) := by
  have h2 : ∑ c, ((d r * (if c = r then (1 : ℝ) else 0)) * d c) * X1 c = d r * d r * X1 r := by
    rw [Finset.sum_eq_single r]
    · simp
    · intro c _ hc; simp [hc]
    · intro h; exact absurd (Finset.mem_univ r) h
  rw [h2, mul_add, Finset.mul_sum]
  congr 1
  · exact Finset.sum_congr rfl (fun c _ => by ring)
  · ring

theorem ite_coe (c r : Fin 4096) : (if c = r then (1 : EReal) else 0) = ((if c = r then (1 : ℝ) else 0 : ℝ) : EReal) := by
  split_ifs <;> simp

theorem refPre_half0 (x : Fin 8192 → Fin 128 → EReal) (A : Fin 4096 → Fin 4096 → EReal)
    (xR : Fin 8192 → Fin 128 → ℝ) (hxR : ∀ r j, x r j = (xR r j : EReal)) (r : Fin 4096) (j : Fin 128) :
    refPre x A (half 0 r) j = kerPre x A (half 0 r) j := by
  rw [kerPre_half0]
  unfold refPre prop
  rw [sum_halves]
  simp only [dinv_half0, dinv_half1, adj_00, adj_01, dv_coe, bin_coe, hxR, ite_coe]
  simp only [← EReal.coe_mul, ← coe_sum, ← EReal.coe_add]
  rw [real_core]

theorem refPre_half1 (x : Fin 8192 → Fin 128 → EReal) (A : Fin 4096 → Fin 4096 → EReal)
    (xR : Fin 8192 → Fin 128 → ℝ) (hxR : ∀ r j, x r j = (xR r j : EReal)) (r : Fin 4096) (j : Fin 128) :
    refPre x A (half 1 r) j = kerPre x A (half 1 r) j := by
  rw [kerPre_half1]
  unfold refPre prop
  rw [sum_halves]
  simp only [dinv_half0, dinv_half1, adj_10, adj_11, dv_coe, bin_coe, hxR, ite_coe]
  simp only [← EReal.coe_mul, ← coe_sum, ← EReal.coe_add]
  rw [add_comm, real_core, add_comm]

/-- The textbook arrangement and the arrangement that never forms the adjacency agree on real features. -/
theorem refPre_eq_kerPre (x : Fin 8192 → Fin 128 → EReal) (A : Fin 4096 → Fin 4096 → EReal)
    (hx : ∀ r j, ∃ v : ℝ, x r j = (v : EReal)) (r : Fin 8192) (j : Fin 128) : refPre x A r j = kerPre x A r j := by
  choose xR hxR using hx
  rcases exists_half r with ⟨r', rfl⟩ | ⟨r', rfl⟩
  · exact refPre_half0 x A xR hxR r' j
  · exact refPre_half1 x A xR hxR r' j

theorem withWeight_ref_eq_ker (x : Fin 8192 → Fin 128 → EReal) (A : Fin 4096 → Fin 4096 → EReal)
    (W : Fin 128 → Fin 128 → EReal) (hx : ∀ r j, ∃ v : ℝ, x r j = (v : EReal)) :
    withWeight (refPre x A) W = withWeight (kerPre x A) W := by
  have h : refPre x A = kerPre x A := by
    funext r j; exact refPre_eq_kerPre x A hx r j
  rw [h]

end Gcn

end
-- ==== Proof.KPay.lean ====
/-
  The payloads of the propagation kernel read at an index, over the extended reals: the zero fill, the accumulation of
  one block of columns of the binarised affinity times the degree-scaled features, and the two final products with
  the weight.
-/
import proofs.«168352_j85693187490256_1_alg».proof.Proof.Gen.KernelIdeal.Skeleton
import proofs.«168352_j85693187490256_1_alg».proof.Proof.SpecLaws
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandV

open Cert.KernelIdeal Cert.KernelIdeal.Gen Idealize.ShloMosaic ValueIdx

/-- The zero fill reads 0 everywhere. -/
theorem pay1_apply (i : S1024x256.Idx) : k1_pay1 (F := Ideal) i = 0 := by
  unfold k1_pay1
  simp only [shapeCast_self]
  exact Gcn.ofBits_zero

/-- The comparison with zero selecting between one and zero is the binarised affinity. -/
theorem select_bin (a : EReal) :
    Scalar.select (FloatOps.cmpf (F := Ideal) (φ := .f32) .ogt a (Ideal.ofBits .f32 0x00000000#32))
      (Ideal.ofBits .f32 0x3F800000#32) (Ideal.ofBits .f32 0x00000000#32) = Gcn.bin a := by
  rw [Gcn.ofBits_zero, Gcn.ofBits_one, Ideal.cmpf_def]
  unfold Ideal.cmp Scalar.select Gcn.bin
  by_cases h : (0 : EReal) < a <;> simp [h]

abbrev D1 := dot_S1024x1024_S1024x256_S1024x256_1_0_0_1_n_n
abbrev D2 := dot_S1024x128_S128x128_S1024x128_1_0_0_1_n_n

theorem d1_lhs0 (j : S1024x256.Idx) (k : D1.contr.Idx) : (D1.lhsIdx j k 0 : ℕ) = j 0 := by
  simp [DotDims.lhsIdx, D1, dot_S1024x1024_S1024x256_S1024x256_1_0_0_1_n_n]; rfl
theorem d1_rhs1 (j : S1024x256.Idx) (k : D1.contr.Idx) : (D1.rhsIdx j k 1 : ℕ) = j 1 := by
  simp [DotDims.rhsIdx, D1, dot_S1024x1024_S1024x256_S1024x256_1_0_0_1_n_n]; rfl
theorem d2_lhs0 (j : S1024x128.Idx) (k : D2.contr.Idx) : (D2.lhsIdx j k 0 : ℕ) = j 0 := by
  simp [DotDims.lhsIdx, D2, dot_S1024x128_S128x128_S1024x128_1_0_0_1_n_n]; rfl
theorem d2_rhs1 (j : S1024x128.Idx) (k : D2.contr.Idx) : (D2.rhsIdx j k 1 : ℕ) = j 1 := by
  simp [DotDims.rhsIdx, D2, dot_S1024x128_S128x128_S1024x128_1_0_0_1_n_n]; rfl

/-- The contraction index of either product is one coordinate. -/
abbrev e1 : D1.contr.Idx ≃ Fin 1024 := contrEquiv1 D1 1024 rfl rfl
abbrev e2 : D2.contr.Idx ≃ Fin 128 := contrEquiv1 D2 128 rfl rfl

theorem d1_lhsIdx (p : Fin 1024) (q : Fin 256) (c : Fin 1024) : D1.lhsIdx (ix2 p q) (e1.symm c) = ix2 p c := by
  funext a
  match a with
  | ⟨0, _⟩ => exact Fin.ext (d1_lhs0 _ _)
  | ⟨1, _⟩ => exact Fin.ext ((D1.lhsIdx_val_of_single rfl _ _).trans (contrEquiv1_symm_val D1 1024 rfl rfl c))

theorem d1_rhsIdx (p : Fin 1024) (q : Fin 256) (c : Fin 1024) : D1.rhsIdx (ix2 p q) (e1.symm c) = ix2 c q := by
  funext a
  match a with
  | ⟨0, _⟩ => exact Fin.ext ((D1.rhsIdx_val_of_single rfl _ _).trans (contrEquiv1_symm_val D1 1024 rfl rfl c))
  | ⟨1, _⟩ => exact Fin.ext (d1_rhs1 _ _)

theorem d2_lhsIdx (p : Fin 1024) (j : Fin 128) (k : Fin 128) : D2.lhsIdx (ix2 p j) (e2.symm k) = ix2 p k := by
  funext a
  match a with
  | ⟨0, _⟩ => exact Fin.ext (d2_lhs0 _ _)
  | ⟨1, _⟩ => exact Fin.ext ((D2.lhsIdx_val_of_single rfl _ _).trans (contrEquiv1_symm_val D2 128 rfl rfl k))

theorem d2_rhsIdx (p : Fin 1024) (j : Fin 128) (k : Fin 128) : D2.rhsIdx (ix2 p j) (e2.symm k) = ix2 k j := by
  funext a
  match a with
  | ⟨0, _⟩ => exact Fin.ext ((D2.rhsIdx_val_of_single rfl _ _).trans (contrEquiv1_symm_val D2 128 rfl rfl k))
  | ⟨1, _⟩ => exact Fin.ext (d2_rhs1 _ _)

/-- A product into the zero accumulator, at an entry, is the sum over the contracted coordinate. -/
theorem matmul1_apply (l : FVec Ideal S1024x1024 .bf16) (r : FVec Ideal S1024x256 .bf16) (p : Fin 1024) (q : Fin 256) :
    matmul D1 none l r (constant S1024x256 .f32 0x00000000#32) (ix2 p q) = ∑ c : Fin 1024, l (ix2 p c) * r (ix2 c q) := by
  show FloatOps.matmul D1 none l r (constant S1024x256 .f32 0x00000000#32) (ix2 p q) = _
  rw [Ideal.matmul_constant_zero_apply, ← Equiv.sum_comp e1.symm]
  exact Finset.sum_congr rfl fun c _ => by rw [d1_lhsIdx, d1_rhsIdx]

theorem matmul2_apply (l : FVec Ideal S1024x128 .bf16) (r : FVec Ideal S128x128 .bf16) (p : Fin 1024) (j : Fin 128) :
    matmul D2 none l r (constant S1024x128 .f32 0x00000000#32) (ix2 p j) = ∑ k : Fin 128, l (ix2 p k) * r (ix2 k j) := by
  show FloatOps.matmul D2 none l r (constant S1024x128 .f32 0x00000000#32) (ix2 p j) = _
  rw [Ideal.matmul_constant_zero_apply, ← Equiv.sum_comp e2.symm]
  exact Finset.sum_congr rfl fun k _ => by rw [d2_lhsIdx, d2_rhsIdx]

/-- The two feature blocks laid side by side: the left 128 columns are the first block. -/
theorem concat_left (x1 x2 : FVec Ideal S1024x128 .f32) (c : Fin 1024) (j : Fin 128) (q : Fin 256) (hq : q.val = j.val) :
    concatenate S1024x256 1 [⟨S1024x128, x1⟩, ⟨S1024x128, x2⟩] concatenates_S1024x128_S1024x128_S1024x256_d1 (ix2 c q) = x1 (ix2 c j) :=
  concatenate_pair_apply_left (t := S1024x256) (s₁ := S1024x128) (s₂ := S1024x128) 1 x1 x2 _ (ix2 c q) rfl (ix2 c j)
    (fun b => by
      match b with
      | ⟨0, _⟩ => rfl
      | ⟨1, _⟩ => exact hq.symm)

/-- … and the right 128 columns are the second block. -/
theorem concat_right (x1 x2 : FVec Ideal S1024x128 .f32) (c : Fin 1024) (j : Fin 128) (q : Fin 256) (hq : q.val = 128 + j.val) :
    concatenate S1024x256 1 [⟨S1024x128, x1⟩, ⟨S1024x128, x2⟩] concatenates_S1024x128_S1024x128_S1024x256_d1 (ix2 c q) = x2 (ix2 c j) :=
  concatenate_pair_apply_right (t := S1024x256) (s₁ := S1024x128) (s₂ := S1024x128) 1 x1 x2 _ (ix2 c q) rfl rfl (ix2 c j)
    (fun b hb => by
      match b with
      | ⟨0, _⟩ => rfl
      | ⟨1, _⟩ => exact absurd rfl hb)
    (by show j.val + 128 = q.val; omega)

/-- The accumulation step at an entry, the laid-out features still as one array. -/
theorem pay2_apply_raw (v3 : Vec Ideal S1024x1024 .f32) (v13 v16 : Vec Ideal S1024x128 .f32) (v20 : Vec Ideal S1024x256 .f32)
    (p : Fin 1024) (q : Fin 256) :
    k1_pay2 v3 v13 v16 v20 (ix2 p q) = v20 (ix2 p q) + ∑ c : Fin 1024, Gcn.bin (v3 (ix2 p c))
      * concatenate S1024x256 1 [⟨S1024x128, v13⟩, ⟨S1024x128, v16⟩] concatenates_S1024x128_S1024x128_S1024x256_d1 (ix2 c q) := by
  unfold k1_pay2
  simp only [shapeCast_self]
  rw [addf_apply, matmul1_apply]
  refine congrArg (v20 (ix2 p q) + ·) (Finset.sum_congr rfl fun c _ => ?_)
  rw [truncf_apply, truncf_apply, select_apply, cmpf_apply]
  simp only [broadcast_apply]
  rw [shapeCast_self v13, shapeCast_self v16]
  exact congrArg (· * _) (select_bin _)

/-- The accumulation step at an entry: the running value plus this block's columns of the binarised affinity against the
    features of the first copy (left 128 columns) or of the second copy (right 128 columns). -/
theorem pay2_apply (v3 : Vec Ideal S1024x1024 .f32) (v13 v16 : Vec Ideal S1024x128 .f32) (v20 : Vec Ideal S1024x256 .f32)
    (p : Fin 1024) (s : Fin 2) (j : Fin 128) :
    k1_pay2 v3 v13 v16 v20 (ix2 p (⟨s.val * 128 + j.val, by have := s.isLt; have := j.isLt; omega⟩ : Fin 256))
      = v20 (ix2 p (⟨s.val * 128 + j.val, by have := s.isLt; have := j.isLt; omega⟩ : Fin 256))
        + ∑ c : Fin 1024, Gcn.bin (v3 (ix2 p c)) * (if s = 0 then v13 (ix2 c j) else v16 (ix2 c j)) := by
  rw [pay2_apply_raw]
  congr 1
  refine Finset.sum_congr rfl fun c _ => ?_
  congr 1
  by_cases hs : s = 0
  · rw [if_pos hs]
    exact concat_left v13 v16 c j _ (by subst hs; simp)
  · rw [if_neg hs]
    have h1 : s.val = 1 := by have := s.isLt; have : s.val ≠ 0 := fun h => hs (Fin.ext h); omega
    exact concat_right v13 v16 c j _ (by show s.val * 128 + j.val = 128 + j.val; rw [h1])

/-- A column of 1024 entries laid along 128 columns reads its row's entry. -/
theorem bcastCol_apply (x : FVec Ideal S1024x1 .f32) (p : Fin 1024) (k : Fin 128) :
    broadcastTo S1024x128 x broadcasts_S1024x1_S1024x128 (ix2 p k) = x (ix2 p 0) :=
  broadcastTo_apply x _ (ix2 p k) (ix2 p (0 : Fin 1)) (fun a => by
    match a with
    | ⟨0, _⟩ => rfl
    | ⟨1, _⟩ => rfl)

/-- The first final product at an entry: the degree scale times (accumulated first copy + second copy's scaled features),
    times the weight. -/
theorem pay5_apply (v35 : Vec Ideal S1024x128 .f32) (v38 : Vec Ideal S1024x1 .f32) (v40 : Vec Ideal S1024x256 .f32)
    (v49 : Vec Ideal S128x128 .f32) (p : Fin 1024) (j : Fin 128) :
    k1_pay5 v35 v38 v40 v49 (ix2 p j)
      = ∑ k : Fin 128, (v38 (ix2 p 0) * (v40 (ix2 p (⟨k.val, by have := k.isLt; omega⟩ : Fin 256)) + v35 (ix2 p k))) * v49 (ix2 k j) := by
  unfold k1_pay5 k1_pay3 k1_pay4
  simp only [shapeCast_self]
  rw [matmul2_apply]
  refine Finset.sum_congr rfl fun k _ => ?_
  rw [truncf_apply, truncf_apply, mulf_apply, addf_apply, bcastCol_apply,
    slice2_axis1_apply 0 v40 _ p k (⟨k.val, by have := k.isLt; omega⟩ : Fin 256) (by simp)]

/-- The second final product at an entry: the degree scale times (first copy's scaled features + accumulated second copy),
    times the weight. -/
theorem pay6_apply (v32 : Vec Ideal S1024x128 .f32) (v38 : Vec Ideal S1024x1 .f32) (v40 : Vec Ideal S1024x256 .f32)
    (v49 : Vec Ideal S128x128 .f32) (p : Fin 1024) (j : Fin 128) :
    k1_pay6 v32 v38 v40 v49 (ix2 p j)
      = ∑ k : Fin 128, (v38 (ix2 p 0) * (v32 (ix2 p k) + v40 (ix2 p (⟨128 + k.val, by have := k.isLt; omega⟩ : Fin 256)))) * v49 (ix2 k j) := by
  unfold k1_pay6 k1_pay3 k1_pay4
  simp only [shapeCast_self]
  rw [matmul2_apply]
  refine Finset.sum_congr rfl fun k _ => ?_
  rw [truncf_apply, truncf_apply, mulf_apply, addf_apply, bcastCol_apply,
    slice2_axis1_apply 128 v40 _ p k (⟨128 + k.val, by have := k.isLt; omega⟩ : Fin 256) rfl]

end Cert.KernelIdeal.HandV

end
-- ==== Proof.R1Value.lean ====
/-
  The propagation region's two result arrays, index by index (extended reals).  With A the affinity array, y1, y2 the
  degree-scaled feature halves, d the degree column and W the weight as the region finds them:
      first result  (r, j) = Σ_k (d r · (Σ_c bin (A r c) · y1 c k  +  y2 r k)) · W k j
      second result (r, j) = Σ_k (d r · (y1 r k  +  Σ_c bin (A r c) · y2 c k)) · W k j.
  The inner sum over the 4096 columns is accumulated in four blocks of 1024 starting from zero, one per column block of the
  grid; over the extended reals that ordered chain is the plain sum.
-/
import proofs.«168352_j85693187490256_1_alg».proof.Proof.R1Idx
import proofs.«168352_j85693187490256_1_alg».proof.Proof.KPay
import proofs.«168352_j85693187490256_1_alg».proof.Proof.SpecLaws
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx Cert.KernelIdeal.HandV

/-! ## The accumulator after the last column block, as four steps (any float instance) -/

section
variable (V : (c : Dev nD) → (b : Ref sig .tc) → Buf (Elt F) ((c : Thread nD τ).loc b))

/-- The point before `t`. -/
abbrev prevPt (t : Fin cfg1.N) : Fin cfg1.N := ⟨t.val - 1, Nat.lt_of_le_of_lt (Nat.sub_le _ _) t.isLt⟩

theorem acc_last (c : Dev nD) (t : Fin cfg1.N) (h3 : t.val % 4 = 3) :
    accAt1 V c t.val t.isLt
      = step1 V c t (step1 V c (prevPt t) (step1 V c (prevPt (prevPt t)) (step1 V c (prevPt (prevPt (prevPt t))) (k1_pay1 (F := F))))) := by
  rw [acc_next V c t (by omega)]
  show step1 V c t (accAt1 V c (prevPt t).val (prevPt t).isLt) = _
  rw [acc_next V c (prevPt t) (by show ¬(t.val - 1) % 4 = 0; omega)]
  show step1 V c t (step1 V c (prevPt t) (accAt1 V c (prevPt (prevPt t)).val (prevPt (prevPt t)).isLt)) = _
  rw [acc_next V c (prevPt (prevPt t)) (by show ¬(t.val - 1 - 1) % 4 = 0; omega)]
  show step1 V c t (step1 V c (prevPt t) (step1 V c (prevPt (prevPt t)) (accAt1 V c (prevPt (prevPt (prevPt t))).val (prevPt (prevPt (prevPt t))).isLt))) = _
  rw [acc_first V c (prevPt (prevPt (prevPt t))) (by show (t.val - 1 - 1 - 1) % 4 = 0; omega)]
end

/-! ## At the extended reals -/

variable (V : (c : Dev nD) → (b : Ref sig .tc) → Buf (Elt Ideal) ((c : Thread nD τ).loc b))

/-- Column `j` of the first (s = 0) or second (s = 1) half of the accumulator's 256 columns. -/
abbrev col2 (s : Fin 2) (j : Fin 128) : Fin 256 := ⟨s.val * 128 + j.val, by have := s.isLt; have := j.isLt; omega⟩

/-- y1 (s = 0) or y2 (s = 1) as the region finds them. -/
def ysel (c : Dev nD) (s : Fin 2) : S4096x128.Idx → EReal := if s = 0 then (V c main_v7 : S4096x128.Idx → EReal) else (V c main_v9 : S4096x128.Idx → EReal)

/-- One accumulation step adds the column block's 1024 terms. -/
theorem step1_apply (c : Dev nD) (t : Fin cfg1.N) (a : Vec Ideal S1024x256 .f32) (p : Fin 1024) (s : Fin 2) (j : Fin 128) :
    step1 V c t a (ix2 p (col2 s j))
      = a (ix2 p (col2 s j)) + ∑ q : Fin 1024, Gcn.bin ((V c main_arg1 : S4096x4096.Idx → EReal) (ix2 (rowOf t p) (colOf t q))) * ysel V c s (ix2 (colOf t q) j) := by
  unfold step1
  rw [pay2_apply]
  refine congrArg _ (Finset.sum_congr rfl fun q _ => ?_)
  rw [iblk1_0_apply, ldK_apply, ldK_apply, iblk1_1_eq, iblk1_2_eq]
  unfold ysel
  split <;> rfl

/-- After the last column block of a row block the accumulator holds the plain sum over all 4096 columns. -/
theorem acc_last_apply (c : Dev nD) (t : Fin cfg1.N) (h3 : t.val % 4 = 3) (p : Fin 1024) (s : Fin 2) (j : Fin 128) :
    accAt1 V c t.val t.isLt (ix2 p (col2 s j))
      = ∑ q : Fin 4096, Gcn.bin ((V c main_arg1 : S4096x4096.Idx → EReal) (ix2 (rowOf t p) q)) * ysel V c s (ix2 q j) := by
  rw [acc_last V c t h3, step1_apply, step1_apply, step1_apply, step1_apply, pay1_apply]
  rw [Gcn.sum_blocks4 (fun q : Fin 4096 => Gcn.bin ((V c main_arg1 : S4096x4096.Idx → EReal) (ix2 (rowOf t p) q)) * ysel V c s (ix2 q j))]
  have hr1 : rowOf (prevPt t) p = rowOf t p := Fin.ext (by show 1024 * ((t.val - 1) / 4) + p.val = 1024 * (t.val / 4) + p.val; have := tlt t; omega)
  have hr2 : rowOf (prevPt (prevPt t)) p = rowOf t p := Fin.ext (by show 1024 * ((t.val - 1 - 1) / 4) + p.val = 1024 * (t.val / 4) + p.val; have := tlt t; omega)
  have hr3 : rowOf (prevPt (prevPt (prevPt t))) p = rowOf t p := Fin.ext (by show 1024 * ((t.val - 1 - 1 - 1) / 4) + p.val = 1024 * (t.val / 4) + p.val; have := tlt t; omega)
  have hc0 : ∀ q, colOf (prevPt (prevPt (prevPt t))) q = Gcn.blk 0 q := fun q => Fin.ext (by show 1024 * ((t.val - 1 - 1 - 1) % 4) + q.val = (0 : Fin 4).val * 1024 + q.val; have := tlt t; simp only [Fin.val_zero]; omega)
  have hc1 : ∀ q, colOf (prevPt (prevPt t)) q = Gcn.blk 1 q := fun q => Fin.ext (by show 1024 * ((t.val - 1 - 1) % 4) + q.val = (1 : Fin 4).val * 1024 + q.val; have := tlt t; simp only [Fin.val_one]; omega)
  have hc2 : ∀ q, colOf (prevPt t) q = Gcn.blk 2 q := fun q => Fin.ext (by show 1024 * ((t.val - 1) % 4) + q.val = (2 : Fin 4).val * 1024 + q.val; have := tlt t; simp only [Fin.val_two]; omega)
  have hc3 : ∀ q, colOf t q = Gcn.blk 3 q := fun q => Fin.ext (by show 1024 * (t.val % 4) + q.val = (3 : Fin 4).val * 1024 + q.val; have := tlt t; have : (3 : Fin 4).val = 3 := rfl; omega)
  simp only [hr1, hr2, hr3, hc0, hc1, hc2, hc3]

/-- The first result array, index by index, from the five arrays the region reads. -/
def G5f (A : S4096x4096.Idx → EReal) (Y1 Y2 : S4096x128.Idx → EReal) (D : S4096x1.Idx → EReal) (Wt : S128x128.Idx → EReal) :
    S4096x128.Idx → EReal := fun i =>
  ∑ k : Fin 128, (D (ix2 (i 0) 0) * ((∑ q : Fin 4096, Gcn.bin (A (ix2 (i 0) q)) * Y1 (ix2 q k)) + Y2 (ix2 (i 0) k))) * Wt (ix2 k (i 1))
/-- The second result array, index by index. -/
def G6f (A : S4096x4096.Idx → EReal) (Y1 Y2 : S4096x128.Idx → EReal) (D : S4096x1.Idx → EReal) (Wt : S128x128.Idx → EReal) :
    S4096x128.Idx → EReal := fun i =>
  ∑ k : Fin 128, (D (ix2 (i 0) 0) * (Y1 (ix2 (i 0) k) + (∑ q : Fin 4096, Gcn.bin (A (ix2 (i 0) q)) * Y2 (ix2 q k)))) * Wt (ix2 k (i 1))
/-- The same at the arrays as the region finds them. -/
abbrev G5 (c : Dev nD) : S4096x128.Idx → EReal := G5f (V c main_arg1) (V c main_v7) (V c main_v9) (V c main_v5) (V c main_arg2)
abbrev G6 (c : Dev nD) : S4096x128.Idx → EReal := G6f (V c main_arg1) (V c main_v7) (V c main_v9) (V c main_v5) (V c main_arg2)

theorem col2_zero (k : Fin 128) : col2 0 k = ⟨k.val, by have := k.isLt; omega⟩ := Fin.ext (by show (0 : Fin 2).val * 128 + k.val = k.val; simp)
theorem col2_one (k : Fin 128) : col2 1 k = ⟨128 + k.val, by have := k.isLt; omega⟩ := Fin.ext (by show (1 : Fin 2).val * 128 + k.val = 128 + k.val; simp)

/-- What the first output's buffer holds after the last column block of row block t / 4: rows 1024 (t / 4) .. of G5. -/
theorem out5_apply (c : Dev nD) (t : Fin cfg1.N) (h3 : t.val % 4 = 3) (p : Fin 1024) (j : Fin 128) :
    out5At V c t (ix2 p j) = G5 V c (ix2 (rowOf t p) j) := by
  rw [out5At_eq V c t h3]
  unfold fin5
  rw [pay5_apply]
  unfold G5 G5f
  refine Finset.sum_congr rfl fun k _ => ?_
  rw [ldD_apply, ldI_apply, iblk1_3_eq, iblk1_2_eq, iblk1_4_eq, ← col2_zero k, acc_last_apply V c t h3 p 0 k]
  unfold ysel
  rw [if_pos rfl]

theorem out6_apply (c : Dev nD) (t : Fin cfg1.N) (h3 : t.val % 4 = 3) (p : Fin 1024) (j : Fin 128) :
    out6At V c t (ix2 p j) = G6 V c (ix2 (rowOf t p) j) := by
  rw [out6At_eq V c t h3]
  unfold fin6
  rw [pay6_apply]
  unfold G6 G6f
  refine Finset.sum_congr rfl fun k _ => ?_
  rw [ldD_apply, ldI_apply, iblk1_3_eq, iblk1_1_eq, iblk1_4_eq, ← col2_one k, acc_last_apply V c t h3 p 1 k]
  unfold ysel
  rw [if_neg (by decide)]

end Cert.KernelIdeal.Hand

end
-- ==== Proof.R1Final.lean ====
/-
  The propagation region's result arrays after the run: each row block is written back once, after its last column block,
  and the four row blocks tile the array, so each result array ends holding its index-by-index function.
-/
import proofs.«168352_j85693187490256_1_alg».proof.Proof.R1Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx Cert.KernelIdeal.HandV

variable (V : (c : Dev nD) → (b : Ref sig .tc) → Buf (Elt Ideal) ((c : Thread nD τ).loc b))

/-- The last point (column block 3) of row block `g`. -/
def lastPt (g : Fin 4) : Fin cfg1.N := ⟨4 * g.val + 3, by have := g.isLt; rw [show cfg1.N = 16 from N_1]; omega⟩
theorem lastPt_val (g : Fin 4) : (lastPt g).val = 4 * g.val + 3 := rfl

/-- What the pipeline writes back at a flushing point is that point's block of `G5`. -/
theorem flushed5_eq (c : Dev nD) (t : Fin cfg1.N) (hf : (cfg1.win 5).flush t = true) :
    (dat1 V c).flushed 5 t = ((cfg1.win 5).blk t).view.read (Elt Ideal) (G5 V c) := by
  have h3 : t.val % 4 = 3 := (flush1_5 t).mp hf
  show (cfg1.win 5).cut (grid1.coords t) ((dat1 V c).after 5 t) = _
  rw [after1_5]
  funext y
  obtain ⟨p, j, rfl⟩ : ∃ (p : Fin 1024) (j : Fin 128), y = ix2 p j := ⟨y 0, y 1, eq_ix2 y⟩
  rw [View.read_apply]
  show out5At V c t (ix2 p j) = G5 V c (((cfg1.win 5).blk t).view.emb (ix2 p j))
  rw [out5_apply V c t h3]
  refine congrArg _ ?_
  funext a; apply Fin.ext
  obtain ⟨e0, e1⟩ := idx1_5 t
  match a with
  | ⟨0, _⟩ => show 1024 * (t.val / 4) + p.val = win1_5.index t (0 : Fin 2) * 1024 + 1 * p.val; rw [e0]; omega
  | ⟨1, _⟩ => show j.val = win1_5.index t (1 : Fin 2) * 128 + 1 * j.val; rw [e1]; omega

theorem mem_blk5 (t : Fin cfg1.N) (i : S4096x128.Idx) :
    i ∈ ((cfg1.win 5).blk t).view.set ↔ ∀ a : Fin 2, win1_5.index t a * S1024x128.size a ≤ (i a).val ∧ (i a).val < win1_5.index t a * S1024x128.size a + S1024x128.size a := by
  show i ∈ ((View.whole main_v10_0).slice (win1_5.rect t)).set ↔ _
  rw [View.set_slice_whole, Rect.mem_set_unit]
  exact Iff.rfl

/-- Every row lies in the block written back after its row block's last column block. -/
theorem cover5 (i : S4096x128.Idx) : ∃ t : Fin cfg1.N, (cfg1.win 5).flush t = true ∧ i ∈ ((cfg1.win 5).blk t).view.set := by
  have hi0 : (i 0).val < 4096 := (i 0).isLt
  have hi1 : (i 1).val < 128 := (i 1).isLt
  have hv := lastPt_val ⟨(i 0).val / 1024, by omega⟩
  have hg : (⟨(i 0).val / 1024, by omega⟩ : Fin 4).val = (i 0).val / 1024 := rfl
  refine ⟨lastPt ⟨(i 0).val / 1024, by omega⟩, (flush1_5 _).mpr (by rw [hv, hg]; omega), ?_⟩
  rw [mem_blk5]
  obtain ⟨e0, e1⟩ := idx1_5 (lastPt ⟨(i 0).val / 1024, by omega⟩)
  rw [hv, hg] at e0
  intro a
  match a with
  | ⟨0, _⟩ => show win1_5.index _ (0 : Fin 2) * 1024 ≤ (i 0).val ∧ (i 0).val < win1_5.index _ (0 : Fin 2) * 1024 + 1024; rw [e0]; omega
  | ⟨1, _⟩ => show win1_5.index _ (1 : Fin 2) * 128 ≤ (i 1).val ∧ (i 1).val < win1_5.index _ (1 : Fin 2) * 128 + 128; rw [e1]; omega

/-- The result array after the region. -/
theorem final5 (c : Dev nD) : (dat1 V c).arrAt 5 cfg1.N = G5 V c :=
  (dat1 V c).arrAt_eq_of_cover 5 (G5 V c) (flushed5_eq V c) (cover5)

/-- What the pipeline writes back at a flushing point is that point's block of `G6`. -/
theorem flushed6_eq (c : Dev nD) (t : Fin cfg1.N) (hf : (cfg1.win 6).flush t = true) :
    (dat1 V c).flushed 6 t = ((cfg1.win 6).blk t).view.read (Elt Ideal) (G6 V c) := by
  have h3 : t.val % 4 = 3 := (flush1_6 t).mp hf
  show (cfg1.win 6).cut (grid1.coords t) ((dat1 V c).after 6 t) = _
  rw [after1_6]
  funext y
  obtain ⟨p, j, rfl⟩ : ∃ (p : Fin 1024) (j : Fin 128), y = ix2 p j := ⟨y 0, y 1, eq_ix2 y⟩
  rw [View.read_apply]
  show out6At V c t (ix2 p j) = G6 V c (((cfg1.win 6).blk t).view.emb (ix2 p j))
  rw [out6_apply V c t h3]
  refine congrArg _ ?_
  funext a; apply Fin.ext
  obtain ⟨e0, e1⟩ := idx1_6 t
  match a with
  | ⟨0, _⟩ => show 1024 * (t.val / 4) + p.val = win1_6.index t (0 : Fin 2) * 1024 + 1 * p.val; rw [e0]; omega
  | ⟨1, _⟩ => show j.val = win1_6.index t (1 : Fin 2) * 128 + 1 * j.val; rw [e1]; omega

theorem mem_blk6 (t : Fin cfg1.N) (i : S4096x128.Idx) :
    i ∈ ((cfg1.win 6).blk t).view.set ↔ ∀ a : Fin 2, win1_6.index t a * S1024x128.size a ≤ (i a).val ∧ (i a).val < win1_6.index t a * S1024x128.size a + S1024x128.size a := by
  show i ∈ ((View.whole main_v10_1).slice (win1_6.rect t)).set ↔ _
  rw [View.set_slice_whole, Rect.mem_set_unit]
  exact Iff.rfl

/-- Every row lies in the block written back after its row block's last column block. -/
theorem cover6 (i : S4096x128.Idx) : ∃ t : Fin cfg1.N, (cfg1.win 6).flush t = true ∧ i ∈ ((cfg1.win 6).blk t).view.set := by
  have hi0 : (i 0).val < 4096 := (i 0).isLt
  have hi1 : (i 1).val < 128 := (i 1).isLt
  have hv := lastPt_val ⟨(i 0).val / 1024, by omega⟩
  have hg : (⟨(i 0).val / 1024, by omega⟩ : Fin 4).val = (i 0).val / 1024 := rfl
  refine ⟨lastPt ⟨(i 0).val / 1024, by omega⟩, (flush1_6 _).mpr (by rw [hv, hg]; omega), ?_⟩
  rw [mem_blk6]
  obtain ⟨e0, e1⟩ := idx1_6 (lastPt ⟨(i 0).val / 1024, by omega⟩)
  rw [hv, hg] at e0
  intro a
  match a with
  | ⟨0, _⟩ => show win1_6.index _ (0 : Fin 2) * 1024 ≤ (i 0).val ∧ (i 0).val < win1_6.index _ (0 : Fin 2) * 1024 + 1024; rw [e0]; omega
  | ⟨1, _⟩ => show win1_6.index _ (1 : Fin 2) * 128 ≤ (i 1).val ∧ (i 1).val < win1_6.index _ (1 : Fin 2) * 128 + 128; rw [e1]; omega

/-- The result array after the region. -/
theorem final6 (c : Dev nD) : (dat1 V c).arrAt 6 cfg1.N = G6 V c :=
  (dat1 V c).arrAt_eq_of_cover 6 (G6 V c) (flushed6_eq V c) (cover6)

end Cert.KernelIdeal.Hand

end
-- ==== Proof.R0Value.lean ====
/-
  The value of the row-sum pipeline (region 0 of the program) at the ideal floats: after the region, row r of the
  [4096, 1] result array holds the number of positive entries in row r of the [4096, 4096] input array.

  The output block of row block q is reset at the first of its four points and the four column blocks' partial row sums
  are added in turn, so after the last of them the staging buffer holds ((((0 + Σ₀) + Σ₁) + Σ₂) + Σ₃) of the binarised
  entries of the four column blocks, which over the extended reals is the plain sum over the 4096 columns.  That point
  writes the block back; the four row blocks' write-backs cover the result array.
-/
import proofs.«168352_j85693187490256_1_alg».proof.Proof.R0Dat
import proofs.«168352_j85693187490256_1_alg».proof.Proof.Spec
import proofs.«168352_j85693187490256_1_alg».proof.Proof.SpecLaws
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal.Gen

section Generic
variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- CASE B's value: on the output block holding `xo` the body leaves the sum payload of the input block `x` and `xo`. -/
theorem out_B (c : Dev nD) (i : grid0.Coords) (a2 : Memref sig .tc .vmem S1024x1024 .f32) (h2 : a2.IsWhole)
    (a3 : Memref sig .tc .vmem S1024x1 .f32) (h3 : a3.IsWhole) (hc : ¬cond0_0 i) (x : Vec F S1024x1024 .f32) (xo : Vec F S1024x1 .f32) :
    out0_B_1 c i a2 h2 a3 h3 hc x xo = k0_pay2 x xo := by
  unfold out0_B_1
  rw [View.read_writes_eq_canon _ _ _ (cover0_B_1 c i a2 h2 a3 h3 hc x xo)]
  unfold kernelRun0_B
  dsimp only
  rw [View.canon_unit_zero hz]
  simp only [View.readAt_eq_ld, h2.read_unread, h3.read_unread, View.ld_unit_zero (S := S1024x1024) hz, View.ld_unit_zero (S := S1024x1) hz]

/-- CASE A's value: the body stores the zero block, reads it back, and leaves the sum payload of the input block and the
    zero block. -/
theorem out_A (c : Dev nD) (i : grid0.Coords) (a2 : Memref sig .tc .vmem S1024x1024 .f32) (h2 : a2.IsWhole)
    (a3 : Memref sig .tc .vmem S1024x1 .f32) (h3 : a3.IsWhole) (hc : cond0_0 i) (x : Vec F S1024x1024 .f32) :
    out0_A_1 c i a2 h2 a3 h3 hc x = k0_pay2 x (k0_pay1 (F := F)) := by
  unfold out0_A_1
  rw [View.read_writes_eq_canon _ _ _ (cover0_A_1 c i a2 h2 a3 h3 hc x)]
  unfold kernelRun0_A
  dsimp only
  sl_unfold_words
  rw [View.canon_cons_unit_zero (S := S1024x1) hz, View.readCov_unit_zero (S := S1024x1) _ hz]
  simp only [View.readAt_eq_ld, h2.read_unread, View.ld_unit_zero (S := S1024x1024) hz, View.ld_unit_zero (S := S1024x1) hz]

/-- The reset point's contents: the sum payload of the point's input block and the zero block. -/
def accA (c : Dev nD) (n : ℕ) (h : n < cfg0.N) : Vec F S1024x1 .f32 := k0_pay2 (iblk0 V c 0 ⟨n, h⟩) (k0_pay1 (F := F))

/-- An accumulating point's contents from what the point before left. -/
def accG (c : Dev nD) (n : ℕ) (h : n < cfg0.N) (acc : Vec F S1024x1 .f32) : Vec F S1024x1 .f32 := k0_pay2 (iblk0 V c 0 ⟨n, h⟩) acc

/-- What the output's staging buffer holds after point 4q + j (j < 4) is the fold over the points 4q … 4q + j: the
    reset point's contents stepped through the accumulating points. -/
theorem outsAt_eq (c : Dev nD) (q j : ℕ) (hj : j < 4) (h : 4 * q + j < cfg0.N) :
    outsAt0 V c (4 * q + j) h = Pipeline.accAt (accA V c) (accG V c) (4 * q) j h :=
  Pipeline.eq_accAt (outsAt0 V c) 4 (accA V c) (accG V c)
    (fun n h hn => (outsAt0_A V c ⟨n, h⟩ hn).trans (out_A ..))
    (fun n h hn => (outsAt0_B V c ⟨n + 1, h⟩ hn).trans (out_B ..)) q j hj h

/-- After the last point of row block q: the four column blocks' payloads nested, innermost the reset. -/
theorem outsAt_last (c : Dev nD) (q : ℕ) (h : 4 * q + 3 < cfg0.N) :
    outsAt0 V c (4 * q + 3) h
      = k0_pay2 (iblk0 V c 0 ⟨4 * q + 3, h⟩) (k0_pay2 (iblk0 V c 0 ⟨4 * q + 2, by omega⟩)
          (k0_pay2 (iblk0 V c 0 ⟨4 * q + 1, by omega⟩) (k0_pay2 (iblk0 V c 0 ⟨4 * q, by omega⟩) (k0_pay1 (F := F))))) := by
  rw [outsAt_eq V c q 3 (by omega) h]
  rfl

/-- Element (r, c') of the input window's block at point n is element (1024·(n / 4) + r, 1024·(n % 4) + c') of the
    input array. -/
theorem iblk0_apply (c : Dev nD) (t : Fin cfg0.N) (r c' : Fin 1024) (R C : Fin 4096)
    (hR : R.val = 1024 * (t.val / 4) + r.val) (hC : C.val = 1024 * (t.val % 4) + c'.val) :
    (iblk0 V c 0 t : Vec F S1024x1024 .f32) (ix2 r c') = V c main_arg1 (ix2 R C) := by
  have hi : win0_0.index t 0 = t.val / 4 ∧ win0_0.index t 1 = t.val % 4 := by
    rcases fin_N0 t with rfl | rfl | rfl | rfl | rfl | rfl | rfl | rfl | rfl | rfl | rfl | rfl | rfl | rfl | rfl | rfl <;> decide
  unfold iblk0
  rw [View.read_apply]
  show V c main_arg1 _ = V c main_arg1 _
  congr 1
  funext a
  apply Fin.ext
  match a with
  | ⟨0, _⟩ => show win0_0.index t 0 * 1024 + 1 * r.val = R.val; rw [hi.1, hR]; omega
  | ⟨1, _⟩ => show win0_0.index t 1 * 1024 + 1 * c'.val = C.val; rw [hi.2, hC]; omega

end Generic

section AtIdeal

/-- The zero block at the ideal floats is 0 everywhere. -/
theorem pay1_apply (y : S1024x1.Idx) : k0_pay1 (F := Ideal) y = 0 := by
  unfold k0_pay1
  exact Gcn.ofBits_zero

/-- The inserted index of the row reduction: row r with column k. -/
theorem lift_eq (r k : Fin 1024) : reduces_S1024x1024_S1024.lift (ix1 r) k = ix2 r k := by
  funext a
  match a with
  | ⟨0, _⟩ => exact Fin.ext rfl
  | ⟨1, _⟩ => exact Fin.ext rfl

/-- 1 where the entry is positive, else 0, as the kernel spells it, is the binarised entry. -/
theorem select_bin (a : EReal) :
    Scalar.select (FloatOps.cmpf (F := Ideal) .ogt a (Scalar.ofBits .f32 0x00000000#32)) (Scalar.ofBits (F := Ideal) .f32 0x3F800000#32)
      (Scalar.ofBits (F := Ideal) .f32 0x00000000#32) = Gcn.bin a := by
  show Scalar.select (Ideal.cmp .ogt a (Ideal.ofBits .f32 0x00000000#32)) (Ideal.ofBits .f32 0x3F800000#32) (Ideal.ofBits .f32 0x00000000#32) = _
  rw [Gcn.ofBits_zero, Gcn.ofBits_one]
  unfold Gcn.bin Ideal.cmp
  by_cases h : 0 < a
  · simp [h, Scalar.select]
  · simp [h, Scalar.select]

/-- The binarised block, element by element. -/
theorem sel_apply (x : Vec Ideal S1024x1024 .f32) (i : S1024x1024.Idx) :
    select (cmpf (F := Ideal) (φ := .f32) .ogt x (broadcast S1024x1024 (Scalar.ofBits (F := Ideal) .f32 0x00000000#32)))
      (broadcast S1024x1024 (Scalar.ofBits (F := Ideal) .f32 0x3F800000#32))
      (broadcast S1024x1024 (Scalar.ofBits (F := Ideal) .f32 0x00000000#32)) i = Gcn.bin (x i) := by
  rw [select_apply, cmpf_apply, broadcast_apply, broadcast_apply]
  exact select_bin _

/-- The sum payload at the ideal floats, at row r: what the output block held there plus the number of positive entries
    in row r of the input block. -/
theorem pay2_apply (x : Vec Ideal S1024x1024 .f32) (xo : Vec Ideal S1024x1 .f32) (r : Fin 1024) :
    k0_pay2 (F := Ideal) x xo (ix2 r 0) = xo (ix2 r 0) + ∑ c' : Fin 1024, Gcn.bin (x (ix2 r c')) := by
  unfold k0_pay2
  dsimp only
  rw [addf_apply, shapeCast_self]
  refine congrArg (xo (ix2 r 0) + ·) ?_
  refine (shapeCast_apply _ shapeCasts_S1024_S1024x1 (ix2 r 0) (ix1 r) (by rw [Shape.rowMajor_val_one, Shape.rowMajor_val_two]; simp)).trans ?_
  refine (Ideal.multiReduction_add_single _ _ reduces_S1024x1024_S1024 _ _ (ix1 r)).trans ?_
  refine Finset.sum_congr rfl fun (k : Fin 1024) _ => ?_
  exact (sel_apply x _).trans (congrArg (fun i => Gcn.bin (x i)) (lift_eq r k))

end AtIdeal

section Final
variable (V : (c : Dev nD) → (b : Ref sig .tc) → Buf (Elt Ideal) ((c : Thread nD τ).loc b))

/-- The partial row sum of the input block of point n = 4q + s is the sum over column block s of row 1024·q + r of the
    input array. -/
theorem blocksum_eq (c : Dev nD) (n : ℕ) (hn : n < cfg0.N) (q s : Fin 4) (hns : n = 4 * q.val + s.val) (r : Fin 1024) (R : Fin 4096)
    (hR : R.val = 1024 * q.val + r.val) :
    ∑ c' : Fin 1024, Gcn.bin ((iblk0 V c 0 ⟨n, hn⟩ : Vec Ideal S1024x1024 .f32) (ix2 r c'))
      = ∑ c' : Fin 1024, Gcn.bin (V c main_arg1 (ix2 R (Gcn.blk s c'))) :=
  Finset.sum_congr rfl fun c' _ => congrArg Gcn.bin (iblk0_apply V c ⟨n, hn⟩ r c' R (Gcn.blk s c')
    (by have := q.isLt; have := s.isLt; show R.val = 1024 * (n / 4) + r.val; omega)
    (by have := q.isLt; have := s.isLt; show (Gcn.blk s c').val = 1024 * (n % 4) + c'.val; simp only [Gcn.blk]; omega))

/-- After the last point of row block q the output's staging buffer holds, at row r, the number of positive entries in
    row 1024·q + r of the input array: the four column blocks' partial sums added onto zero in turn are the sum over
    all 4096 columns. -/
theorem last_row (c : Dev nD) (q : Fin 4) (h : 4 * q.val + 3 < cfg0.N) (r : Fin 1024) (R : Fin 4096) (hR : R.val = 1024 * q.val + r.val) :
    outsAt0 V c (4 * q.val + 3) h (ix2 r 0) = Gcn.rowsum (fun r' c' => V c main_arg1 (ix2 r' c')) R := by
  have hN : cfg0.N = 16 := N_0
  rw [outsAt_last V c q.val h, pay2_apply, pay2_apply, pay2_apply, pay2_apply, pay1_apply,
    blocksum_eq V c (4 * q.val + 3) _ q 3 rfl r R hR, blocksum_eq V c (4 * q.val + 2) _ q 2 rfl r R hR,
    blocksum_eq V c (4 * q.val + 1) _ q 1 rfl r R hR, blocksum_eq V c (4 * q.val) _ q 0 rfl r R hR]
  unfold Gcn.rowsum
  rw [Gcn.sum_blocks4]

/-- The output window's block index at point t: row block t / 4, column block 0. -/
theorem index0_1 (t : Fin cfg0.N) : win0_1.index t 0 = t.val / 4 ∧ win0_1.index t 1 = 0 := by
  rcases fin_N0 t with rfl | rfl | rfl | rfl | rfl | rfl | rfl | rfl | rfl | rfl | rfl | rfl | rfl | rfl | rfl | rfl <;> decide

/-- The result array's final contents: row r holds the number of positive entries in row r of the input array. -/
def G0 (c : Dev nD) : Buf (Elt Ideal) ((c : Thread nD τ).loc main_v2) :=
  fun (i : S4096x1.Idx) => Gcn.rowsum (fun r' c' => V c main_arg1 (ix2 r' c')) ⟨(i 0).val, idx2_lt0 i⟩

/-- What a point that writes the output block back writes is its block of the final contents. -/
theorem flushed_eq (c : Dev nD) (t : Fin cfg0.N) (hf : (cfg0.win 1).flush t = true) :
    (dat0 V c).flushed 1 t = ((cfg0.win 1).blk t).view.read (Elt Ideal) (G0 V c) := by
  have hN : cfg0.N = 16 := N_0
  have h3 : t.val % 4 = 3 := (flush0_1 t).mp hf
  have hlt := t.isLt
  funext (y : S1024x1.Idx)
  obtain ⟨r, rfl⟩ : ∃ r : Fin 1024, y = ix2 r 0 :=
    ⟨y 0, (eq_ix2 y).trans (congrArg (ix2 (y 0)) (Subsingleton.elim (α := Fin 1) _ _))⟩
  rw [View.read_apply]
  show (cfg0.win 1).cut (grid0.coords t) ((dat0 V c).after 1 t) (ix2 r 0) = G0 V c (((cfg0.win 1).blk t).view.emb (ix2 r 0))
  rw [after0_1]
  show outsAt0 V c t.val t.isLt (ix2 r 0) = _
  have hq : t.val / 4 < 4 := by omega
  have ht : 4 * (t.val / 4) + 3 = t.val := by omega
  have same : ∀ (u : ℕ) (hu : u < cfg0.N), u = t.val → outsAt0 V c u hu = outsAt0 V c t.val t.isLt := fun u hu e => by subst e; rfl
  rw [← same (4 * (t.val / 4) + 3) (by omega) ht]
  have hv : ((((cfg0.win 1).blk t).view.emb (ix2 r 0)) 0).val = 1024 * (t.val / 4) + r.val := by
    show win0_1.index t 0 * 1024 + 1 * r.val = _
    rw [(index0_1 t).1]; omega
  exact (last_row V c ⟨t.val / 4, hq⟩ _ r ⟨1024 * (t.val / 4) + r.val, by have := r.isLt; omega⟩ rfl).trans
    (congrArg (Gcn.rowsum _) (Fin.ext hv.symm))

/-- THE VALUE OF REGION 0.  After the region, row r of the result array holds the number of positive entries in row r of
    the input array as the region found it. -/
theorem rowsum_final (c : Dev nD) (r : Fin 4096) :
    (dat0 (F := Ideal) V c).arrAt 1 cfg0.N (ix2 r 0) = Gcn.rowsum (fun r' c' => V c main_arg1 (ix2 r' c')) r := by
  have hN : cfg0.N = 16 := N_0
  have hr := r.isLt
  have hlt : 4 * (r.val / 1024) + 3 < cfg0.N := by omega
  have hf : (cfg0.win 1).flush ⟨4 * (r.val / 1024) + 3, hlt⟩ = true := (flush0_1 _).mpr (by show (4 * (r.val / 1024) + 3) % 4 = 3; omega)
  refine ((dat0 V c).arrAt_apply_of_mem 1 (G0 V c) (flushed_eq V c) cfg0.N ⟨4 * (r.val / 1024) + 3, hlt⟩ (ix2 r 0) hlt hf ?_).trans rfl
  show (ix2 r 0 : S4096x1.Idx) ∈ ((View.whole main_v2).slice (win0_1.rect ⟨4 * (r.val / 1024) + 3, hlt⟩)).set
  rw [View.set_slice_whole, Rect.mem_set_unit]
  intro a
  match a with
  | ⟨0, _⟩ =>
    show win0_1.index ⟨4 * (r.val / 1024) + 3, hlt⟩ 0 * 1024 ≤ r.val ∧ r.val < win0_1.index ⟨4 * (r.val / 1024) + 3, hlt⟩ 0 * 1024 + 1024
    rw [(index0_1 _).1]; show (4 * (r.val / 1024) + 3) / 4 * 1024 ≤ r.val ∧ r.val < (4 * (r.val / 1024) + 3) / 4 * 1024 + 1024; omega
  | ⟨1, _⟩ =>
    show win0_1.index ⟨4 * (r.val / 1024) + 3, hlt⟩ 1 * 1 ≤ 0 ∧ 0 < win0_1.index ⟨4 * (r.val / 1024) + 3, hlt⟩ 1 * 1 + 1
    rw [(index0_1 _).2]; omega

end Final

end Cert.KernelIdeal.Hand

end
-- ==== Proof.KHost.lean ====
/-
  The kernel program's two host stretches before its regions, read at an index.

  The first stretch cuts the feature array x (8192 × 128) into its two halves: rows 0 .. 4095 (the first copy of the graph) and
  rows 4096 .. 8191 (the second copy).  The second stretch turns the row sums s (4096 × 1) left by the first region into
  d = rsqrt (s + 1), and scales each half of x by it row by row: y₁ r j = d r · x₁ r j,  y₂ r j = d r · x₂ r j.
  Each result is stated over an arbitrary valuation of the buffers the stretch starts from.
-/
import proofs.«168352_j85693187490256_1_alg».proof.Proof.Gen.KernelIdeal.Launch
import proofs.«168352_j85693187490256_1_alg».proof.Proof.Gen.KernelIdeal.Regions
import proofs.«168352_j85693187490256_1_alg».proof.Proof.Spec
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.HandV

open Cert.KernelIdeal Cert.KernelIdeal.Gen Idealize.ShloMosaic Idealize.ShloMosaic.ValueIdx
open Idealize.ShloMosaic.StableHlo

/-- The pattern of 1.0 denotes 1. -/
theorem lit_one : Ideal.ofBits .f32 0x3F800000#32 = 1 := by
  simp [Ideal.ofBits, Ideal.ieee, -EReal.coe_mul]; norm_num

/-- A 4096 × 1 column across 128 columns: entry (r, j) is the column's entry r. -/
theorem bcast_col128_apply {α : Type} (v : S4096x1.Idx → α) (r : Fin 4096) (j : Fin 128) :
    broadcastInDim S4096x128 ![0, 1] bcast_S4096x1_S4096x128_0_1 v (ix2 r j) = v (ix2 r 0) :=
  congrArg v (funext fun a => match a with | ⟨0, _⟩ => rfl | ⟨1, _⟩ => rfl)

variable (W : Valuation τ sig (Elt Ideal))

/-! ### The first stretch: the two halves of x -/

theorem v0_eq : after (hostOps0 (F := Ideal)) W (Proc.devRef .tc main_v0)
    = extractStridedSlice S4096x128 ![0, 0] (W (Proc.devRef .tc main_arg0)) slices_S8192x128_S4096x128_0_0 := by
  after_results

theorem v1_eq : after (hostOps0 (F := Ideal)) W (Proc.devRef .tc main_v1)
    = extractStridedSlice S4096x128 ![4096, 0] (W (Proc.devRef .tc main_arg0)) slices_S8192x128_S4096x128_4096_0 := by
  after_results

/-- The first half of x: row r of it is row r of the first copy. -/
theorem slice0_read (r : Fin 4096) (j : Fin 128) :
    after (hostOps0 (F := Ideal)) W (Proc.devRef .tc main_v0) (ix2 r j) = W (Proc.devRef .tc main_arg0) (ix2 (Gcn.half 0 r) j) := by
  rw [v0_eq]
  exact slice2_axis0_apply 0 _ _ r j (Gcn.half 0 r) (by show 0 * 4096 + r.val = 0 + r.val; omega)

/-- The second half of x: row r of it is row r of the second copy. -/
theorem slice1_read (r : Fin 4096) (j : Fin 128) :
    after (hostOps0 (F := Ideal)) W (Proc.devRef .tc main_v1) (ix2 r j) = W (Proc.devRef .tc main_arg0) (ix2 (Gcn.half 1 r) j) := by
  rw [v1_eq]
  exact slice2_axis0_apply 4096 _ _ r j (Gcn.half 1 r) (by show 1 * 4096 + r.val = 4096 + r.val; omega)

theorem hostOps0_arg0 : after (hostOps0 (F := Ideal)) W (Proc.devRef .tc main_arg0) = W (Proc.devRef .tc main_arg0) :=
  after_of_writes_sub hostOps0 _ hostOps0_writes (by decide)
theorem hostOps0_arg1 : after (hostOps0 (F := Ideal)) W (Proc.devRef .tc main_arg1) = W (Proc.devRef .tc main_arg1) :=
  after_of_writes_sub hostOps0 _ hostOps0_writes (by decide)
theorem hostOps0_arg2 : after (hostOps0 (F := Ideal)) W (Proc.devRef .tc main_arg2) = W (Proc.devRef .tc main_arg2) :=
  after_of_writes_sub hostOps0 _ hostOps0_writes (by decide)
theorem hostOps0_arg3 : after (hostOps0 (F := Ideal)) W (Proc.devRef .tc main_arg3) = W (Proc.devRef .tc main_arg3) :=
  after_of_writes_sub hostOps0 _ hostOps0_writes (by decide)
theorem hostOps0_arg4 : after (hostOps0 (F := Ideal)) W (Proc.devRef .tc main_arg4) = W (Proc.devRef .tc main_arg4) :=
  after_of_writes_sub hostOps0 _ hostOps0_writes (by decide)

/-! ### The second stretch: the degree scaling -/

/-- d as a composed term: rsqrt (s + 1). -/
def dvecT : FVec Ideal S4096x1 .f32 :=
  Host.rsqrt (F := Ideal) (addf (F := Ideal) (W (Proc.devRef .tc main_v2))
    (broadcastInDim S4096x1 ![] bcast_S_S4096x1 (constant (F := Ideal) S_ .f32 0x3F800000#32)))

theorem v5_eq : after (hostOps1 (F := Ideal)) W (Proc.devRef .tc main_v5) = dvecT W := by
  after_results
  rfl

theorem v7_eq : after (hostOps1 (F := Ideal)) W (Proc.devRef .tc main_v7)
    = mulf (F := Ideal) (broadcastInDim S4096x128 ![0, 1] bcast_S4096x1_S4096x128_0_1 (dvecT W)) (W (Proc.devRef .tc main_v0)) := by
  after_results
  rfl

theorem v9_eq : after (hostOps1 (F := Ideal)) W (Proc.devRef .tc main_v9)
    = mulf (F := Ideal) (broadcastInDim S4096x128 ![0, 1] bcast_S4096x1_S4096x128_0_1 (dvecT W)) (W (Proc.devRef .tc main_v1)) := by
  after_results
  rfl

theorem dvecT_apply (r : Fin 4096) : dvecT W (ix2 r 0) = Ideal.rsqrt (HAdd.hAdd (α := EReal) (β := EReal) (γ := EReal) (W (Proc.devRef .tc main_v2) (ix2 r 0)) 1) := by
  show Ideal.rsqrt (HAdd.hAdd (α := EReal) (β := EReal) (γ := EReal) (W (Proc.devRef .tc main_v2) (ix2 r 0)) (Ideal.ofBits .f32 0x3F800000#32)) = _
  rw [lit_one]

/-- d r = rsqrt (s r + 1). -/
theorem dvec_read (r : Fin 4096) :
    after (hostOps1 (F := Ideal)) W (Proc.devRef .tc main_v5) (ix2 r 0) = Ideal.rsqrt (HAdd.hAdd (α := EReal) (β := EReal) (γ := EReal) (W (Proc.devRef .tc main_v2) (ix2 r 0)) 1) := by
  rw [v5_eq, dvecT_apply]

/-- y₁ r j = d r · x₁ r j. -/
theorem y1_read (r : Fin 4096) (j : Fin 128) :
    after (hostOps1 (F := Ideal)) W (Proc.devRef .tc main_v7) (ix2 r j)
      = HMul.hMul (α := EReal) (β := EReal) (γ := EReal) (Ideal.rsqrt (HAdd.hAdd (α := EReal) (β := EReal) (γ := EReal) (W (Proc.devRef .tc main_v2) (ix2 r 0)) 1)) (W (Proc.devRef .tc main_v0) (ix2 r j)) := by
  rw [v7_eq]
  show HMul.hMul (α := EReal) (β := EReal) (γ := EReal) (broadcastInDim S4096x128 ![0, 1] bcast_S4096x1_S4096x128_0_1 (dvecT W) (ix2 r j)) (W (Proc.devRef .tc main_v0) (ix2 r j)) = _
  rw [bcast_col128_apply, dvecT_apply]

/-- y₂ r j = d r · x₂ r j. -/
theorem y2_read (r : Fin 4096) (j : Fin 128) :
    after (hostOps1 (F := Ideal)) W (Proc.devRef .tc main_v9) (ix2 r j)
      = HMul.hMul (α := EReal) (β := EReal) (γ := EReal) (Ideal.rsqrt (HAdd.hAdd (α := EReal) (β := EReal) (γ := EReal) (W (Proc.devRef .tc main_v2) (ix2 r 0)) 1)) (W (Proc.devRef .tc main_v1) (ix2 r j)) := by
  rw [v9_eq]
  show HMul.hMul (α := EReal) (β := EReal) (γ := EReal) (broadcastInDim S4096x128 ![0, 1] bcast_S4096x1_S4096x128_0_1 (dvecT W) (ix2 r j)) (W (Proc.devRef .tc main_v1) (ix2 r j)) = _
  rw [bcast_col128_apply, dvecT_apply]

theorem hostOps1_arg1 : after (hostOps1 (F := Ideal)) W (Proc.devRef .tc main_arg1) = W (Proc.devRef .tc main_arg1) :=
  after_of_writes_sub hostOps1 _ hostOps1_writes (by decide)
theorem hostOps1_arg2 : after (hostOps1 (F := Ideal)) W (Proc.devRef .tc main_arg2) = W (Proc.devRef .tc main_arg2) :=
  after_of_writes_sub hostOps1 _ hostOps1_writes (by decide)
theorem hostOps1_v0 : after (hostOps1 (F := Ideal)) W (Proc.devRef .tc main_v0) = W (Proc.devRef .tc main_v0) :=
  after_of_writes_sub hostOps1 _ hostOps1_writes (by decide)
theorem hostOps1_v1 : after (hostOps1 (F := Ideal)) W (Proc.devRef .tc main_v1) = W (Proc.devRef .tc main_v1) :=
  after_of_writes_sub hostOps1 _ hostOps1_writes (by decide)
theorem hostOps1_v2 : after (hostOps1 (F := Ideal)) W (Proc.devRef .tc main_v2) = W (Proc.devRef .tc main_v2) :=
  after_of_writes_sub hostOps1 _ hostOps1_writes (by decide)

end Cert.KernelIdeal.HandV

end
-- ==== Proof.KEntry.lean ====
/-
  What the second region finds in its input arrays, in terms of the launch memory.

  When the propagation region is entered, the affinity array A and the weight W are as launched; the degree vector holds
  d r = rsqrt (rowsum A r + 1) = dv A r (the first region left the row sums, the host stretch after it added 1 and took the
  reciprocal square root); and the two scaled halves of the features hold  y₁ r j = dv A r · x (first copy, row r) j  and
  y₂ r j = dv A r · x (second copy, row r) j.
-/
import proofs.«168352_j85693187490256_1_alg».proof.Proof.KRun
import proofs.«168352_j85693187490256_1_alg».proof.Proof.R0Value
import proofs.«168352_j85693187490256_1_alg».proof.Proof.KHost
import proofs.«168352_j85693187490256_1_alg».proof.Proof.Spec

set_option maxRecDepth 16384

noncomputable section

namespace Cert.KernelIdeal.Hand

open Cert.KernelIdeal Cert.KernelIdeal.Gen Cert.KernelIdeal.HandV
open Idealize.ShloMosaic Idealize.ShloMosaic.TcCoe Idealize.SL.Sem Idealize.ShloMosaic.ValueIdx

variable (m : (ℓ : Loc nD τ sig) → Buf (Elt Ideal) ℓ)

/-- The launched feature array as a function of its two coordinates. -/
abbrev xsOf (c : Dev nD) : Fin 8192 → Fin 128 → EReal := fun r j => m ((c.tc : Thread nD τ).loc main_arg0) (ix2 r j)
/-- The launched affinity array as a function of its two coordinates. -/
abbrev asOf (c : Dev nD) : Fin 4096 → Fin 4096 → EReal := fun r q => m ((c.tc : Thread nD τ).loc main_arg1) (ix2 r q)
/-- The launched weight as a function of its two coordinates. -/
abbrev wsOf (c : Dev nD) : Fin 128 → Fin 128 → EReal := fun k j => m ((c.tc : Thread nD τ).loc main_arg2) (ix2 k j)

/-- The affinity array is the first region's input window: the region hands it back as found, and no stretch writes it. -/
theorem V3_arg1 (c : Dev nD) : V3 m c main_arg1 = m ((c.tc : Thread nD τ).loc main_arg1) :=
  (W3_of m c main_arg1 (by decide)).trans <|
    ((W2_arr m c 0).trans (((dat0 (V1 m) c).arrAt_in 0 rfl _).trans (A_eq0 (V1 m) c 0))).trans <|
    (W1_of m c main_arg1 (by decide)).trans rfl

/-- The weight is no window of the first region and no stretch before the second region writes it. -/
theorem V3_arg2 (c : Dev nD) : V3 m c main_arg2 = m ((c.tc : Thread nD τ).loc main_arg2) :=
  (W3_of m c main_arg2 (by decide)).trans <|
    (W2_of_ne m c main_arg2 (by decide)).trans <| (W1_of m c main_arg2 (by decide)).trans rfl

/-- The first region leaves the row sums of the launched affinity array. -/
theorem W2_v2 (c : Dev nD) (r : Fin 4096) :
    W2 m c (Proc.devRef .tc main_v2) (ix2 r 0) = Gcn.rowsum (asOf m c) r := by
  have e1 : W2 m c (Proc.devRef .tc main_v2) = (dat0 (V1 m) c).arrAt 1 cfg0.N := W2_arr m c 1
  have e2 : V1 m c main_arg1 = m ((c.tc : Thread nD τ).loc main_arg1) := (W1_of m c main_arg1 (by decide)).trans rfl
  rw [e1, rowsum_final (V1 m) c r, e2]

/-- The degree vector the second region finds. -/
theorem V3_v5 (c : Dev nD) (r : Fin 4096) : V3 m c main_v5 (ix2 r 0) = Gcn.dv (asOf m c) r := by
  show StableHlo.after (hostOps1 (F := Ideal)) (W2 m c) (Proc.devRef .tc main_v5) (ix2 r 0) = _
  rw [dvec_read, W2_v2]
  rfl

/-- The first copy's features, scaled, as the second region finds them. -/
theorem V3_v7 (c : Dev nD) (r : Fin 4096) (j : Fin 128) :
    V3 m c main_v7 (ix2 r j) = Gcn.dv (asOf m c) r * xsOf m c (Gcn.half 0 r) j := by
  show StableHlo.after (hostOps1 (F := Ideal)) (W2 m c) (Proc.devRef .tc main_v7) (ix2 r j) = _
  have e0 : W2 m c (Proc.devRef .tc main_v0) = StableHlo.after (hostOps0 (F := Ideal)) (W0 m c) (Proc.devRef .tc main_v0) :=
    W2_of_ne m c main_v0 (by decide)
  rw [y1_read, W2_v2, e0, slice0_read]
  rfl

/-- The second copy's features, scaled, as the second region finds them. -/
theorem V3_v9 (c : Dev nD) (r : Fin 4096) (j : Fin 128) :
    V3 m c main_v9 (ix2 r j) = Gcn.dv (asOf m c) r * xsOf m c (Gcn.half 1 r) j := by
  show StableHlo.after (hostOps1 (F := Ideal)) (W2 m c) (Proc.devRef .tc main_v9) (ix2 r j) = _
  have e1 : W2 m c (Proc.devRef .tc main_v1) = StableHlo.after (hostOps0 (F := Ideal)) (W0 m c) (Proc.devRef .tc main_v1) :=
    W2_of_ne m c main_v1 (by decide)
  rw [y2_read, W2_v2, e1, slice1_read]
  rfl

end Cert.KernelIdeal.Hand

end
-- ==== Proof.KBridge.lean ====
/-
  The closed forms of the propagation kernel's two result arrays are the specification's kernel arrangement followed by the
  weight: when the arrays the kernel reads hold the affinity, the degree-scaled features of the two copies, the degree
  scales and the weight, the first result is withWeight (kerPre x A) W on the rows of the first copy and the second result
  the same on the rows of the second copy.
-/
import proofs.«168352_j85693187490256_1_alg».proof.Proof.R1Value
import proofs.«168352_j85693187490256_1_alg».proof.Proof.SpecLaws

noncomputable section

namespace Cert.KernelIdeal.HandV

open Cert.KernelIdeal Idealize.ShloMosaic ValueIdx

theorem G5f_eq (x : Fin 8192 → Fin 128 → EReal) (A : Fin 4096 → Fin 4096 → EReal) (W : Fin 128 → Fin 128 → EReal)
    (Af : S4096x4096.Idx → EReal) (Y1 Y2 : S4096x128.Idx → EReal) (D : S4096x1.Idx → EReal) (Wf : S128x128.Idx → EReal)
    (hA : ∀ r q, Af (ix2 r q) = A r q)
    (hY1 : ∀ r j, Y1 (ix2 r j) = Gcn.dv A r * x (Gcn.half 0 r) j)
    (hY2 : ∀ r j, Y2 (ix2 r j) = Gcn.dv A r * x (Gcn.half 1 r) j)
    (hD : ∀ r, D (ix2 r 0) = Gcn.dv A r) (hW : ∀ k j, Wf (ix2 k j) = W k j) (r : Fin 4096) (j : Fin 128) :
    Cert.KernelIdeal.Hand.G5f Af Y1 Y2 D Wf (ix2 r j) = Gcn.withWeight (Gcn.kerPre x A) W (Gcn.half 0 r) j := by
  show (∑ k : Fin 128, (D (ix2 r (0 : Fin 1)) * ((∑ q : Fin 4096, Gcn.bin (Af (ix2 r q)) * Y1 (ix2 q k)) + Y2 (ix2 r k))) * Wf (ix2 k j))
    = ∑ k : Fin 128, Gcn.kerPre x A (Gcn.half 0 r) k * W k j
  refine Finset.sum_congr rfl fun k _ => ?_
  rw [Gcn.kerPre_half0, hD, hY2, hW]
  unfold Gcn.prop
  simp only [hA, hY1]

theorem G6f_eq (x : Fin 8192 → Fin 128 → EReal) (A : Fin 4096 → Fin 4096 → EReal) (W : Fin 128 → Fin 128 → EReal)
    (Af : S4096x4096.Idx → EReal) (Y1 Y2 : S4096x128.Idx → EReal) (D : S4096x1.Idx → EReal) (Wf : S128x128.Idx → EReal)
    (hA : ∀ r q, Af (ix2 r q) = A r q)
    (hY1 : ∀ r j, Y1 (ix2 r j) = Gcn.dv A r * x (Gcn.half 0 r) j)
    (hY2 : ∀ r j, Y2 (ix2 r j) = Gcn.dv A r * x (Gcn.half 1 r) j)
    (hD : ∀ r, D (ix2 r 0) = Gcn.dv A r) (hW : ∀ k j, Wf (ix2 k j) = W k j) (r : Fin 4096) (j : Fin 128) :
    Cert.KernelIdeal.Hand.G6f Af Y1 Y2 D Wf (ix2 r j) = Gcn.withWeight (Gcn.kerPre x A) W (Gcn.half 1 r) j := by
  show (∑ k : Fin 128, (D (ix2 r (0 : Fin 1)) * (Y1 (ix2 r k) + (∑ q : Fin 4096, Gcn.bin (Af (ix2 r q)) * Y2 (ix2 q k)))) * Wf (ix2 k j))
    = ∑ k : Fin 128, Gcn.kerPre x A (Gcn.half 1 r) k * W k j
  refine Finset.sum_congr rfl fun k _ => ?_
  rw [Gcn.kerPre_half1, hD, hY1, hW]
  unfold Gcn.prop
  simp only [hA, hY2]

end Cert.KernelIdeal.HandV

end
-- ==== Proof.KTail.lean ====
/-
  The last stretch of the layer, after the propagation: the two halves of the propagated features are stacked, then each
  column is normalised by its mean and variance over the 8192 rows, mapped affinely by γ and β, and cut off below at 0.
  The stretch is read back here as one composed pure term kTail of the stacked array, γ and β.
-/
import proofs.«168352_j85693187490256_1_alg».proof.Proof.Gen.KernelIdeal.Launch
import Idealize.ShloMosaic.Lib.StableHlo.Run
import Idealize.ShloMosaic.PureOps.Ideal

noncomputable section

namespace Cert.KernelIdeal.HandV

open Cert.KernelIdeal Cert.KernelIdeal.Gen Idealize.ShloMosaic Idealize.ShloMosaic.TcCoe Idealize.SL.Sem Idealize.ShloMosaic.StableHlo

/-- The column sums over the 8192 rows. -/
def colSumT (h : FVec Ideal S8192x128 .f32) : FVec Ideal S128 .f32 :=
  Host.reduceAdd (F := Ideal) h (constant (F := Ideal) S_ .f32 0x00000000#32) reducesTo_S8192x128_S128_d0 h_S_

/-- The column means: the column sums divided by 8192. -/
def meanT (h : FVec Ideal S8192x128 .f32) : FVec Ideal S128 .f32 :=
  Host.divf (F := Ideal) (colSumT h) (broadcastInDim S128 ![] bcast_S_S128 (constant (F := Ideal) S_ .f32 0x46000000#32))

/-- The centred array inside the variance: h minus the column means, the means formed as a 1 × 128 row. -/
def cenT (h : FVec Ideal S8192x128 .f32) : FVec Ideal S8192x128 .f32 :=
  subf (F := Ideal) h
    (broadcastInDim S8192x128 ![0, 1] bcast_S1x128_S8192x128_0_1
      (Host.divf (F := Ideal) (broadcastInDim S1x128 ![1] bcast_S128_S1x128_1 (colSumT h))
        (broadcastInDim S1x128 ![] bcast_S_S1x128 (constant (F := Ideal) S_ .f32 0x46000000#32))))

/-- The variance's divisor: 8192 minus the (zero) correction, as a rank-0 array. -/
def cntT : FVec Ideal S_ .f32 :=
  subf (F := Ideal) (constant (F := Ideal) S_ .f32 0x46000000#32) (sitofp (F := Ideal) .f32 (constantI S_ 32 0#32))

/-- The column variances: the column sums of the squared centred array over the divisor where the divisor is positive
    (and the literal 0x7FC00000 otherwise). -/
def varT (h : FVec Ideal S8192x128 .f32) : FVec Ideal S128 .f32 :=
  select (broadcastInDim S128 ![] bcast_S_S128 (cmpf .ogt cntT (constant (F := Ideal) S_ .f32 0x00000000#32)))
    (Host.divf (F := Ideal) (colSumT (mulf (F := Ideal) (cenT h) (cenT h))) (broadcastInDim S128 ![] bcast_S_S128 cntT))
    (broadcastInDim S128 ![] bcast_S_S128 (id (constant (F := Ideal) S_ .f32 0x7FC00000#32)))

/-- A 128-vector as a full 8192 × 128 array, every row the vector. -/
def rowsT (v : FVec Ideal S128 .f32) : FVec Ideal S8192x128 .f32 :=
  broadcastInDim S8192x128 ![0, 1] bcast_S1x128_S8192x128_0_1 (broadcastInDim S1x128 ![1] bcast_S128_S1x128_1 v)

/-- The normalisation, the affine map and the maximum with 0:
    max ((h − mean) · rsqrt (var + ε) · γ + β) 0. -/
def kTail (h : FVec Ideal S8192x128 .f32) (γ β : FVec Ideal S128 .f32) : FVec Ideal S8192x128 .f32 :=
  maximumf (F := Ideal)
    (addf (F := Ideal)
      (mulf (F := Ideal)
        (mulf (F := Ideal) (subf (F := Ideal) h (rowsT (meanT h)))
          (rowsT (Host.rsqrt (F := Ideal)
            (addf (F := Ideal) (varT h) (broadcastInDim S128 ![] bcast_S_S128 (constant (F := Ideal) S_ .f32 0x3727C5AC#32))))))
        (rowsT γ))
      (rowsT β))
    (broadcastInDim S8192x128 ![] bcast_S_S8192x128 (constant (F := Ideal) S_ .f32 0x00000000#32))

attribute [local irreducible] Host.reduceAdd concatenate broadcastInDim in
/-- After the four last stretches of array operations the result buffer holds kTail of the stacked halves, γ and β. -/
theorem tail_read (W : Valuation τ sig (Elt Ideal)) :
    after (hostOps2_3 (F := Ideal)) (after (hostOps2_2 (F := Ideal)) (after (hostOps2_1 (F := Ideal)) (after (hostOps2 (F := Ideal)) W)))
        (Proc.devRef .tc main_v31)
      = kTail (concatenate S8192x128 0 [⟨S4096x128, W (Proc.devRef .tc main_v10_0)⟩, ⟨S4096x128, W (Proc.devRef .tc main_v10_1)⟩]
            concatenates_S4096x128_S4096x128_S8192x128_d0)
          (W (Proc.devRef .tc main_arg3)) (W (Proc.devRef .tc main_arg4)) := by
  after_results_simp
  rfl

end Cert.KernelIdeal.HandV

end
-- ==== Proof.RefRun.lean ====
/-
  The reference program's run, read back as a composed pure term.

  The reference computes, from the feature array x (8192 × 128), the affinity array A (4096 × 4096), the weight W (128 × 128) and the
  two normalisation vectors γ, β (128 each):
    1. the binarised affinity  bin A  (1 where A > 0, else 0) and the 4096 × 4096 identity, assembled into the block adjacency
       adj = [[bin A, I], [I, bin A]]  (8192 × 8192);
    2. the degrees  deg = Σ_c adj · c,  their power  dinv = deg ^ (-1/2),  the normalised adjacency  (dinv_r · adj_rc) · dinv_c,
       and the two products  (norm · x) · W            — this is `preBN`;
    3. the per-column mean and variance over the 8192 rows, the normalisation  (h − mean) · rsqrt (var + ε) · γ + β  and the
       maximum with 0                                    — this is `bnTail`.
  The program is a straight line of 79 array operations once its outlined functions are opened at their call sites; it is split
  here after the 32nd (the second matrix product), and each half's fold over the buffer contents is read back separately, so
  that the second half is read over an opaque first-half result.
-/
import proofs.«168352_j85693187490256_1_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

section Program

variable {F : FTy → Type} [FloatOps F]

/-- The first 32 operations: everything up to and including the second matrix product (the callees' operations listed at their
    call sites over the calls' buffer records). -/
abbrev ops1 : List (HloOp τ sig (Elt F)) :=
  [ nullary main_cst (constant S_ .f32 0x00000000#32),
    unary main_cst main_v0 (broadcastInDim S4096x4096 ![] bcast_S_S4096x4096 : (⟨S_, .f32⟩ : BufTy).Contents (Elt F) → (⟨S4096x4096, .f32⟩ : BufTy).Contents (Elt F)),
    binary main_arg1 main_v0 main_v1 (cmpf .ogt : (⟨S4096x4096, .f32⟩ : BufTy).Contents (Elt F) → (⟨S4096x4096, .f32⟩ : BufTy).Contents (Elt F) → (⟨S4096x4096, .i1⟩ : BufTy).Contents (Elt F)),
    nullary main_cst_0 (constant S_ .f32 0x3F800000#32),
    nullary main_cst_1 (constant S_ .f32 0x00000000#32),
    TRef.unary (.of main_cst_0 : TRef sig ⟨S_, .f32⟩) main_call0.v0 (broadcastInDim S4096x4096 ![] bcast_S_S4096x4096),
    TRef.unary (.of main_cst_1 : TRef sig ⟨S_, .f32⟩) main_call0.v1 (broadcastInDim S4096x4096 ![] bcast_S_S4096x4096),
    TRef.ternary (.of main_v1 : TRef sig ⟨S4096x4096, .i1⟩) main_call0.v0 main_call0.v1 main_call0.v2 select,
    unary main_v2 main_v3 (id : (⟨S4096x4096, .f32⟩ : BufTy).Contents (Elt F) → (⟨S4096x4096, .f32⟩ : BufTy).Contents (Elt F)),
    nullary main_v4 (iotaInDim S4096x4096 32 0),
    nullary main_v5 (iotaInDim S4096x4096 32 1),
    nullary main_c (constantI S_ 32 0#32),
    unary main_c main_v6 (broadcastInDim S4096x4096 ![] bcast_S_S4096x4096 : (⟨S_, .i32⟩ : BufTy).Contents (Elt F) → (⟨S4096x4096, .i32⟩ : BufTy).Contents (Elt F)),
    binary main_v4 main_v6 main_v7 (addi : (⟨S4096x4096, .i32⟩ : BufTy).Contents (Elt F) → (⟨S4096x4096, .i32⟩ : BufTy).Contents (Elt F) → (⟨S4096x4096, .i32⟩ : BufTy).Contents (Elt F)),
    binary main_v7 main_v5 main_v8 (cmpi .eq : (⟨S4096x4096, .i32⟩ : BufTy).Contents (Elt F) → (⟨S4096x4096, .i32⟩ : BufTy).Contents (Elt F) → (⟨S4096x4096, .i1⟩ : BufTy).Contents (Elt F)),
    unary main_v8 main_v9 (uitofp .f32 : (⟨S4096x4096, .i1⟩ : BufTy).Contents (Elt F) → (⟨S4096x4096, .f32⟩ : BufTy).Contents (Elt F)),
    TRef.binary (.of main_v3 : TRef sig ⟨S4096x4096, .f32⟩) (.of main_v9 : TRef sig ⟨S4096x4096, .f32⟩) main_call1.v0 (fun a b => concatenate S4096x8192 1 [⟨S4096x4096, a⟩, ⟨S4096x4096, b⟩] concatenates_S4096x4096_S4096x4096_S4096x8192_d1),
    TRef.binary (.of main_v9 : TRef sig ⟨S4096x4096, .f32⟩) (.of main_v3 : TRef sig ⟨S4096x4096, .f32⟩) main_call1.v1 (fun a b => concatenate S4096x8192 1 [⟨S4096x4096, a⟩, ⟨S4096x4096, b⟩] concatenates_S4096x4096_S4096x4096_S4096x8192_d1),
    TRef.binary main_call1.v0 main_call1.v1 main_call1.v2 (fun a b => concatenate S8192x8192 0 [⟨S4096x8192, a⟩, ⟨S4096x8192, b⟩] concatenates_S4096x8192_S4096x8192_S8192x8192_d0),
    nullary main_cst_2 (constant S_ .f32 0x00000000#32),
    binary main_v10 main_cst_2 main_v11 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_3 (constant S_ .f32 0xBF000000#32),
    unary main_cst_3 main_v12 (broadcastInDim S8192 ![] bcast_S_S8192 : (⟨S_, .f32⟩ : BufTy).Contents (Elt F) → (⟨S8192, .f32⟩ : BufTy).Contents (Elt F)),
    binary main_v11 main_v12 main_v13 (Host.powf : (⟨S8192, .f32⟩ : BufTy).Contents (Elt F) → (⟨S8192, .f32⟩ : BufTy).Contents (Elt F) → (⟨S8192, .f32⟩ : BufTy).Contents (Elt F)),
    unary main_v13 main_v14 (broadcastInDim S8192x1 ![0] bcast_S8192_S8192x1_0 : (⟨S8192, .f32⟩ : BufTy).Contents (Elt F) → (⟨S8192x1, .f32⟩ : BufTy).Contents (Elt F)),
    unary main_v14 main_v15 (broadcastInDim S8192x8192 ![0, 1] bcast_S8192x1_S8192x8192_0_1 : (⟨S8192x1, .f32⟩ : BufTy).Contents (Elt F) → (⟨S8192x8192, .f32⟩ : BufTy).Contents (Elt F)),
    binary main_v15 main_v10 main_v16 (mulf : (⟨S8192x8192, .f32⟩ : BufTy).Contents (Elt F) → (⟨S8192x8192, .f32⟩ : BufTy).Contents (Elt F) → (⟨S8192x8192, .f32⟩ : BufTy).Contents (Elt F)),
    unary main_v13 main_v17 (broadcastInDim S1x8192 ![1] bcast_S8192_S1x8192_1 : (⟨S8192, .f32⟩ : BufTy).Contents (Elt F) → (⟨S1x8192, .f32⟩ : BufTy).Contents (Elt F)),
    unary main_v17 main_v18 (broadcastInDim S8192x8192 ![0, 1] bcast_S1x8192_S8192x8192_0_1 : (⟨S1x8192, .f32⟩ : BufTy).Contents (Elt F) → (⟨S8192x8192, .f32⟩ : BufTy).Contents (Elt F)),
    binary main_v16 main_v18 main_v19 (mulf : (⟨S8192x8192, .f32⟩ : BufTy).Contents (Elt F) → (⟨S8192x8192, .f32⟩ : BufTy).Contents (Elt F) → (⟨S8192x8192, .f32⟩ : BufTy).Contents (Elt F)),
    binary main_v19 main_arg0 main_v20 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    binary main_v20 main_arg2 main_v21 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)) ]

/-- The remaining 47 operations: the column statistics, the normalisation, the affine map and the maximum with 0. -/
abbrev ops2 : List (HloOp τ sig (Elt F)) :=
  [ nullary main_cst_4 (constant S_ .f32 0x00000000#32),
    binary main_v21 main_cst_4 main_v22 ((fun x v => Host.reduceAdd x v reducesTo_S8192x128_S128_d0 h_S_) : (⟨S8192x128, .f32⟩ : BufTy).Contents (Elt F) → (⟨S_, .f32⟩ : BufTy).Contents (Elt F) → (⟨S128, .f32⟩ : BufTy).Contents (Elt F)),
    nullary main_cst_5 (constant S_ .f32 0x46000000#32),
    unary main_cst_5 main_v23 (broadcastInDim S128 ![] bcast_S_S128 : (⟨S_, .f32⟩ : BufTy).Contents (Elt F) → (⟨S128, .f32⟩ : BufTy).Contents (Elt F)),
    binary main_v22 main_v23 main_v24 (Host.divf : (⟨S128, .f32⟩ : BufTy).Contents (Elt F) → (⟨S128, .f32⟩ : BufTy).Contents (Elt F) → (⟨S128, .f32⟩ : BufTy).Contents (Elt F)),
    nullary main_c_6 (constantI S_ 32 0#32),
    TRef.nullary main_call2.cst (constant S_ .f32 0x00000000#32),
    TRef.binary (.of main_v21 : TRef sig ⟨S8192x128, .f32⟩) main_call2.cst main_call2.v0 (fun x v => Host.reduceAdd x v reducesTo_S8192x128_S128_d0 h_S_),
    TRef.unary main_call2.v0 main_call2.v1 (broadcastInDim S1x128 ![1] bcast_S128_S1x128_1),
    TRef.nullary main_call2.cst_0 (constant S_ .f32 0x46000000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S8192x128 ![0, 1] bcast_S1x128_S8192x128_0_1),
    TRef.binary (.of main_v21 : TRef sig ⟨S8192x128, .f32⟩) main_call2.v4 main_call2.v5 subf,
    TRef.binary main_call2.v5 main_call2.v5 main_call2.v6 mulf,
    TRef.unary (.of main_c_6 : TRef sig ⟨S_, .i32⟩) main_call2.v7 (sitofp .f32),
    TRef.nullary main_call2.cst_1 (constant S_ .f32 0x46000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S8192x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v24 main_v26 (broadcastInDim S1x128 ![1] bcast_S128_S1x128_1 : (⟨S128, .f32⟩ : BufTy).Contents (Elt F) → (⟨S1x128, .f32⟩ : BufTy).Contents (Elt F)),
    unary main_v26 main_v27 (broadcastInDim S8192x128 ![0, 1] bcast_S1x128_S8192x128_0_1 : (⟨S1x128, .f32⟩ : BufTy).Contents (Elt F) → (⟨S8192x128, .f32⟩ : BufTy).Contents (Elt F)),
    binary main_v21 main_v27 main_v28 (subf : (⟨S8192x128, .f32⟩ : BufTy).Contents (Elt F) → (⟨S8192x128, .f32⟩ : BufTy).Contents (Elt F) → (⟨S8192x128, .f32⟩ : BufTy).Contents (Elt F)),
    nullary main_cst_7 (constant S_ .f32 0x3727C5AC#32),
    unary main_cst_7 main_v29 (broadcastInDim S128 ![] bcast_S_S128 : (⟨S_, .f32⟩ : BufTy).Contents (Elt F) → (⟨S128, .f32⟩ : BufTy).Contents (Elt F)),
    binary main_v25 main_v29 main_v30 (addf : (⟨S128, .f32⟩ : BufTy).Contents (Elt F) → (⟨S128, .f32⟩ : BufTy).Contents (Elt F) → (⟨S128, .f32⟩ : BufTy).Contents (Elt F)),
    unary main_v30 main_v31 (Host.rsqrt : (⟨S128, .f32⟩ : BufTy).Contents (Elt F) → (⟨S128, .f32⟩ : BufTy).Contents (Elt F)),
    unary main_v31 main_v32 (broadcastInDim S1x128 ![1] bcast_S128_S1x128_1 : (⟨S128, .f32⟩ : BufTy).Contents (Elt F) → (⟨S1x128, .f32⟩ : BufTy).Contents (Elt F)),
    unary main_v32 main_v33 (broadcastInDim S8192x128 ![0, 1] bcast_S1x128_S8192x128_0_1 : (⟨S1x128, .f32⟩ : BufTy).Contents (Elt F) → (⟨S8192x128, .f32⟩ : BufTy).Contents (Elt F)),
    binary main_v28 main_v33 main_v34 (mulf : (⟨S8192x128, .f32⟩ : BufTy).Contents (Elt F) → (⟨S8192x128, .f32⟩ : BufTy).Contents (Elt F) → (⟨S8192x128, .f32⟩ : BufTy).Contents (Elt F)),
    unary main_arg3 main_v35 (broadcastInDim S1x128 ![1] bcast_S128_S1x128_1 : (⟨S128, .f32⟩ : BufTy).Contents (Elt F) → (⟨S1x128, .f32⟩ : BufTy).Contents (Elt F)),
    unary main_v35 main_v36 (broadcastInDim S8192x128 ![0, 1] bcast_S1x128_S8192x128_0_1 : (⟨S1x128, .f32⟩ : BufTy).Contents (Elt F) → (⟨S8192x128, .f32⟩ : BufTy).Contents (Elt F)),
    binary main_v34 main_v36 main_v37 (mulf : (⟨S8192x128, .f32⟩ : BufTy).Contents (Elt F) → (⟨S8192x128, .f32⟩ : BufTy).Contents (Elt F) → (⟨S8192x128, .f32⟩ : BufTy).Contents (Elt F)),
    unary main_arg4 main_v38 (broadcastInDim S1x128 ![1] bcast_S128_S1x128_1 : (⟨S128, .f32⟩ : BufTy).Contents (Elt F) → (⟨S1x128, .f32⟩ : BufTy).Contents (Elt F)),
    unary main_v38 main_v39 (broadcastInDim S8192x128 ![0, 1] bcast_S1x128_S8192x128_0_1 : (⟨S1x128, .f32⟩ : BufTy).Contents (Elt F) → (⟨S8192x128, .f32⟩ : BufTy).Contents (Elt F)),
    binary main_v37 main_v39 main_v40 (addf : (⟨S8192x128, .f32⟩ : BufTy).Contents (Elt F) → (⟨S8192x128, .f32⟩ : BufTy).Contents (Elt F) → (⟨S8192x128, .f32⟩ : BufTy).Contents (Elt F)),
    TRef.nullary main_call3.cst (constant S_ .f32 0x00000000#32),
    TRef.unary main_call3.cst main_call3.v0 (broadcastInDim S8192x128 ![] bcast_S_S8192x128),
    TRef.binary (.of main_v40 : TRef sig ⟨S8192x128, .f32⟩) main_call3.v0 main_call3.v1 maximumf ]

/-- All 79 operations, in order. -/
abbrev ops : List (HloOp τ sig (Elt F)) := ops1 ++ ops2

set_option maxRecDepth 4096 in
/-- @main is that straight line: the outlined functions unfolded at their calls, sequencing reassociated. -/
theorem main_eq (c : Dev nD) : main (F := F) c = seq ops := by
  simp only [main, fn_where.body, fn_block.body, fn_var.body, fn_where_0.body, fn_relu.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨nullary_bufs_sub .., unary_bufs_sub .., binary_bufs_sub .., nullary_bufs_sub .., nullary_bufs_sub .., unary_bufs_sub .., unary_bufs_sub .., ternary_bufs_sub .., unary_bufs_sub .., nullary_bufs_sub .., nullary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., binary_bufs_sub ..⟩

theorem ops2_sub : (ops2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem ops_sub : (ops : List (HloOp τ sig (Elt F))).Forall fun op => op.bufs ⊆ tcRefs τ sig :=
  ⟨nullary_bufs_sub .., unary_bufs_sub .., binary_bufs_sub .., nullary_bufs_sub .., nullary_bufs_sub .., unary_bufs_sub .., unary_bufs_sub .., ternary_bufs_sub .., unary_bufs_sub .., nullary_bufs_sub .., nullary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

end Program

/-! ## The composed terms, stage by stage, at the ideal instance -/

/-- bin A: 1 where A > 0, else 0. -/
def binT (A : FVec Ideal S4096x4096 .f32) : FVec Ideal S4096x4096 .f32 :=
  select (cmpf .ogt A (broadcastInDim S4096x4096 ![] bcast_S_S4096x4096 (constant (F := Ideal) S_ .f32 0x00000000#32)))
    (broadcastInDim S4096x4096 ![] bcast_S_S4096x4096 (constant (F := Ideal) S_ .f32 0x3F800000#32))
    (broadcastInDim S4096x4096 ![] bcast_S_S4096x4096 (constant (F := Ideal) S_ .f32 0x00000000#32))

/-- The 4096 × 4096 identity: 1 where the row index equals the column index, else 0. -/
def eyeT : FVec Ideal S4096x4096 .f32 :=
  uitofp (F := Ideal) .f32
    (cmpi .eq (addi (iotaInDim S4096x4096 32 0) (broadcastInDim S4096x4096 ![] bcast_S_S4096x4096 (constantI S_ 32 0#32)))
      (iotaInDim S4096x4096 32 1))

/-- The block adjacency [[bin A, I], [I, bin A]]. -/
def adjT (A : FVec Ideal S4096x4096 .f32) : FVec Ideal S8192x8192 .f32 :=
  concatenate S8192x8192 0
    [⟨S4096x8192, concatenate S4096x8192 1 [⟨S4096x4096, binT A⟩, ⟨S4096x4096, eyeT⟩] concatenates_S4096x4096_S4096x4096_S4096x8192_d1⟩,
     ⟨S4096x8192, concatenate S4096x8192 1 [⟨S4096x4096, eyeT⟩, ⟨S4096x4096, binT A⟩] concatenates_S4096x4096_S4096x4096_S4096x8192_d1⟩]
    concatenates_S4096x8192_S4096x8192_S8192x8192_d0

/-- The row sums of the block adjacency. -/
def degT (A : FVec Ideal S4096x4096 .f32) : FVec Ideal S8192 .f32 :=
  Host.reduceAdd (F := Ideal) (adjT A) (constant (F := Ideal) S_ .f32 0x00000000#32) reducesTo_S8192x8192_S8192_d1 h_S_

/-- deg ^ (-1/2). -/
def dinvT (A : FVec Ideal S4096x4096 .f32) : FVec Ideal S8192 .f32 :=
  Host.powf (F := Ideal) (degT A) (broadcastInDim S8192 ![] bcast_S_S8192 (constant (F := Ideal) S_ .f32 0xBF000000#32))

/-- The normalised adjacency (dinv_r · adj_rc) · dinv_c. -/
def normT (A : FVec Ideal S4096x4096 .f32) : FVec Ideal S8192x8192 .f32 :=
  mulf (F := Ideal)
    (mulf (F := Ideal)
      (broadcastInDim S8192x8192 ![0, 1] bcast_S8192x1_S8192x8192_0_1 (broadcastInDim S8192x1 ![0] bcast_S8192_S8192x1_0 (dinvT A)))
      (adjT A))
    (broadcastInDim S8192x8192 ![0, 1] bcast_S1x8192_S8192x8192_0_1 (broadcastInDim S1x8192 ![1] bcast_S8192_S1x8192_1 (dinvT A)))

/-- The propagated features: the normalised adjacency times x. -/
def propT (x : FVec Ideal S8192x128 .f32) (A : FVec Ideal S4096x4096 .f32) : FVec Ideal S8192x128 .f32 :=
  Host.dotGeneral (F := Ideal) dot_S8192x8192_S8192x128_S8192x128_1_0_0_1_n_n none (normT A) x

/-- The layer's output before normalisation: the propagated features times the weight. -/
def preBN (x : FVec Ideal S8192x128 .f32) (A : FVec Ideal S4096x4096 .f32) (W : FVec Ideal S128x128 .f32) : FVec Ideal S8192x128 .f32 :=
  Host.dotGeneral (F := Ideal) dot_S8192x128_S128x128_S8192x128_1_0_0_1_n_n none (propT x A) W

/-- The column sums over the 8192 rows. -/
def colSumT (h : FVec Ideal S8192x128 .f32) : FVec Ideal S128 .f32 :=
  Host.reduceAdd (F := Ideal) h (constant (F := Ideal) S_ .f32 0x00000000#32) reducesTo_S8192x128_S128_d0 h_S_

/-- The column means: the column sums divided by 8192. -/
def meanT (h : FVec Ideal S8192x128 .f32) : FVec Ideal S128 .f32 :=
  Host.divf (F := Ideal) (colSumT h) (broadcastInDim S128 ![] bcast_S_S128 (constant (F := Ideal) S_ .f32 0x46000000#32))

/-- The centred array inside the variance: h minus the column means, the means formed as a 1 × 128 row. -/
def cenT (h : FVec Ideal S8192x128 .f32) : FVec Ideal S8192x128 .f32 :=
  subf (F := Ideal) h
    (broadcastInDim S8192x128 ![0, 1] bcast_S1x128_S8192x128_0_1
      (Host.divf (F := Ideal) (broadcastInDim S1x128 ![1] bcast_S128_S1x128_1 (colSumT h))
        (broadcastInDim S1x128 ![] bcast_S_S1x128 (constant (F := Ideal) S_ .f32 0x46000000#32))))

/-- The variance's divisor: 8192 minus the (zero) correction, as a rank-0 array. -/
def cntT : FVec Ideal S_ .f32 :=
  subf (F := Ideal) (constant (F := Ideal) S_ .f32 0x46000000#32) (sitofp (F := Ideal) .f32 (constantI S_ 32 0#32))

/-- The column variances: the column sums of the squared centred array over the divisor where the divisor is positive
    (and the literal 0x7FC00000 otherwise). -/
def varT (h : FVec Ideal S8192x128 .f32) : FVec Ideal S128 .f32 :=
  select (broadcastInDim S128 ![] bcast_S_S128 (cmpf .ogt cntT (constant (F := Ideal) S_ .f32 0x00000000#32)))
    (Host.divf (F := Ideal) (colSumT (mulf (F := Ideal) (cenT h) (cenT h))) (broadcastInDim S128 ![] bcast_S_S128 cntT))
    (broadcastInDim S128 ![] bcast_S_S128 (id (constant (F := Ideal) S_ .f32 0x7FC00000#32)))

/-- A 128-vector as a full 8192 × 128 array, every row the vector. -/
def rowsT (v : FVec Ideal S128 .f32) : FVec Ideal S8192x128 .f32 :=
  broadcastInDim S8192x128 ![0, 1] bcast_S1x128_S8192x128_0_1 (broadcastInDim S1x128 ![1] bcast_S128_S1x128_1 v)

/-- The normalisation, the affine map and the maximum with 0:
    max ((h − mean) · rsqrt (var + ε) · γ + β) 0. -/
def bnTail (h : FVec Ideal S8192x128 .f32) (γ β : FVec Ideal S128 .f32) : FVec Ideal S8192x128 .f32 :=
  maximumf (F := Ideal)
    (addf (F := Ideal)
      (mulf (F := Ideal)
        (mulf (F := Ideal) (subf (F := Ideal) h (rowsT (meanT h)))
          (rowsT (Host.rsqrt (F := Ideal)
            (addf (F := Ideal) (varT h) (broadcastInDim S128 ![] bcast_S_S128 (constant (F := Ideal) S_ .f32 0x3727C5AC#32))))))
        (rowsT γ))
      (rowsT β))
    (broadcastInDim S8192x128 ![] bcast_S_S8192x128 (constant (F := Ideal) S_ .f32 0x00000000#32))

/-! ## The folds read back -/

attribute [local irreducible] Host.reduceAdd concatenate broadcastInDim in
/-- After the first 32 operations the second product's buffer holds `preBN` of the three argument arrays. -/
theorem pre_eq (V : Valuation τ sig (Elt Ideal)) :
    after (ops1 (F := Ideal)) V (main_v21 : DevRef τ sig)
      = preBN (V (main_arg0 : DevRef τ sig)) (V (main_arg1 : DevRef τ sig)) (V (main_arg2 : DevRef τ sig)) := by
  after_results_simp
  rfl

theorem pre_arg0 (V : Valuation τ sig (Elt Ideal)) : after (ops1 (F := Ideal)) V (main_arg0 : DevRef τ sig) = V (main_arg0 : DevRef τ sig) := by
  after_results_simp
theorem pre_arg1 (V : Valuation τ sig (Elt Ideal)) : after (ops1 (F := Ideal)) V (main_arg1 : DevRef τ sig) = V (main_arg1 : DevRef τ sig) := by
  after_results_simp
theorem pre_arg2 (V : Valuation τ sig (Elt Ideal)) : after (ops1 (F := Ideal)) V (main_arg2 : DevRef τ sig) = V (main_arg2 : DevRef τ sig) := by
  after_results_simp
theorem pre_arg3 (V : Valuation τ sig (Elt Ideal)) : after (ops1 (F := Ideal)) V (main_arg3 : DevRef τ sig) = V (main_arg3 : DevRef τ sig) := by
  after_results_simp
theorem pre_arg4 (V : Valuation τ sig (Elt Ideal)) : after (ops1 (F := Ideal)) V (main_arg4 : DevRef τ sig) = V (main_arg4 : DevRef τ sig) := by
  after_results_simp

attribute [local irreducible] Host.reduceAdd concatenate broadcastInDim in
/-- After the remaining 47 operations the result buffer holds `bnTail` of the second product's buffer and the last two arguments. -/
theorem tail_eq (V : Valuation τ sig (Elt Ideal)) :
    after (ops2 (F := Ideal)) V (main_v41 : DevRef τ sig)
      = bnTail (V (main_v21 : DevRef τ sig)) (V (main_arg3 : DevRef τ sig)) (V (main_arg4 : DevRef τ sig)) := by
  after_results_simp
  rfl

theorem tail_arg0 (V : Valuation τ sig (Elt Ideal)) : after (ops2 (F := Ideal)) V (main_arg0 : DevRef τ sig) = V (main_arg0 : DevRef τ sig) := by
  after_results_simp
theorem tail_arg1 (V : Valuation τ sig (Elt Ideal)) : after (ops2 (F := Ideal)) V (main_arg1 : DevRef τ sig) = V (main_arg1 : DevRef τ sig) := by
  after_results_simp
theorem tail_arg2 (V : Valuation τ sig (Elt Ideal)) : after (ops2 (F := Ideal)) V (main_arg2 : DevRef τ sig) = V (main_arg2 : DevRef τ sig) := by
  after_results_simp
theorem tail_arg3 (V : Valuation τ sig (Elt Ideal)) : after (ops2 (F := Ideal)) V (main_arg3 : DevRef τ sig) = V (main_arg3 : DevRef τ sig) := by
  after_results_simp
theorem tail_arg4 (V : Valuation τ sig (Elt Ideal)) : after (ops2 (F := Ideal)) V (main_arg4 : DevRef τ sig) = V (main_arg4 : DevRef τ sig) := by
  after_results_simp

/-- The whole fold at the result buffer. -/
theorem out_eq (V : Valuation τ sig (Elt Ideal)) :
    after (ops (F := Ideal)) V (main_v41 : DevRef τ sig)
      = bnTail (preBN (V (main_arg0 : DevRef τ sig)) (V (main_arg1 : DevRef τ sig)) (V (main_arg2 : DevRef τ sig)))
          (V (main_arg3 : DevRef τ sig)) (V (main_arg4 : DevRef τ sig)) := by
  rw [after_app, tail_eq, pre_eq, pre_arg3, pre_arg4]

theorem out_arg0 (V : Valuation τ sig (Elt Ideal)) : after (ops (F := Ideal)) V (main_arg0 : DevRef τ sig) = V (main_arg0 : DevRef τ sig) := by
  rw [after_app, tail_arg0, pre_arg0]
theorem out_arg1 (V : Valuation τ sig (Elt Ideal)) : after (ops (F := Ideal)) V (main_arg1 : DevRef τ sig) = V (main_arg1 : DevRef τ sig) := by
  rw [after_app, tail_arg1, pre_arg1]
theorem out_arg2 (V : Valuation τ sig (Elt Ideal)) : after (ops (F := Ideal)) V (main_arg2 : DevRef τ sig) = V (main_arg2 : DevRef τ sig) := by
  rw [after_app, tail_arg2, pre_arg2]
theorem out_arg3 (V : Valuation τ sig (Elt Ideal)) : after (ops (F := Ideal)) V (main_arg3 : DevRef τ sig) = V (main_arg3 : DevRef τ sig) := by
  rw [after_app, tail_arg3, pre_arg3]
theorem out_arg4 (V : Valuation τ sig (Elt Ideal)) : after (ops (F := Ideal)) V (main_arg4 : DevRef τ sig) = V (main_arg4 : DevRef τ sig) := by
  rw [after_app, tail_arg4, pre_arg4]

/-- From any memory with zero counters: every weakly fair execution of @main terminates with the result buffer at
    `bnTail (preBN x A W) γ β` of the five argument arrays' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v41)
          = bnTail (preBN (m ((c.tc : Thread nD τ).loc main_arg0)) (m ((c.tc : Thread nD τ).loc main_arg1)) (m ((c.tc : Thread nD τ).loc main_arg2)))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v41).trans (out_eq _),
      (h c main_arg0).trans (out_arg0 _),
      (h c main_arg1).trans (out_arg1 _),
      (h c main_arg2).trans (out_arg2 _),
      (h c main_arg3).trans (out_arg3 _),
      (h c main_arg4).trans (out_arg4 _)⟩)
    (run_seq scopedRefs_eq scopedSems_eq defs main (fun _ => ops) main_eq (fun _ => ops_sub) m ρ)

end Cert.ReferenceIdeal.RefValue

end
-- ==== Proof.KTailEq.lean ====
/-
  The last stretch of the layer is the same composed term in both programs: the kernel program's tail kTail and the
  reference program's tail bnTail are the same operations in the same order over the same shapes, so they are equal
  as functions of the array before the normalisation, γ and β.  The equality is shown one constituent at a time.
-/
import proofs.«168352_j85693187490256_1_alg».proof.Proof.KTail
import proofs.«168352_j85693187490256_1_alg».proof.Proof.RefRun

noncomputable section

namespace Cert.KernelIdeal.HandV

open Idealize.ShloMosaic

theorem colSumT_eq (h : FVec Ideal S8192x128 .f32) : colSumT h = Cert.ReferenceIdeal.RefValue.colSumT h := rfl

theorem meanT_eq (h : FVec Ideal S8192x128 .f32) : meanT h = Cert.ReferenceIdeal.RefValue.meanT h := by
  unfold meanT Cert.ReferenceIdeal.RefValue.meanT
  rw [colSumT_eq]

theorem cenT_eq (h : FVec Ideal S8192x128 .f32) : cenT h = Cert.ReferenceIdeal.RefValue.cenT h := by
  unfold cenT Cert.ReferenceIdeal.RefValue.cenT
  rw [colSumT_eq]

theorem cntT_eq : cntT = Cert.ReferenceIdeal.RefValue.cntT := rfl

theorem varT_eq (h : FVec Ideal S8192x128 .f32) : varT h = Cert.ReferenceIdeal.RefValue.varT h := by
  unfold varT Cert.ReferenceIdeal.RefValue.varT
  rw [colSumT_eq, cenT_eq, cntT_eq]

theorem rowsT_eq (v : FVec Ideal S128 .f32) : rowsT v = Cert.ReferenceIdeal.RefValue.rowsT v := rfl

/-- The two programs' tails are one function. -/
theorem kTail_eq_bnTail (h : FVec Ideal S8192x128 .f32) (γ β : FVec Ideal S128 .f32) :
    kTail h γ β = Cert.ReferenceIdeal.RefValue.bnTail h γ β := by
  unfold kTail Cert.ReferenceIdeal.RefValue.bnTail
  rw [meanT_eq, varT_eq, rowsT_eq, rowsT_eq, rowsT_eq, rowsT_eq]

end Cert.KernelIdeal.HandV

end
-- ==== Proof.KConcat.lean ====
/-
  The concatenation of the two result halves along the rows, read at an index: rows 0 … 4095 of the 8192-row array are
  the first half's rows, rows 4096 … 8191 the second half's.
-/
import proofs.«168352_j85693187490256_1_alg».proof.Proof.Gen.KernelIdeal
import proofs.«168352_j85693187490256_1_alg».proof.Proof.Spec
import proofs.«168352_j85693187490256_1_alg».proof.Proof.SpecLaws
import Idealize.ShloMosaic.Lib.ValueIdx
import Idealize.ShloMosaic.Lib.Pipeline.Value
import Idealize.ShloMosaic.PureOps.Ideal.Laws

noncomputable section

namespace Cert.KernelIdeal.HandV

open Cert.KernelIdeal Cert.KernelIdeal.Gen Idealize.ShloMosaic ValueIdx

/-- A row of the first copy reads the first half. -/
theorem concat0_top (H1 H2 : FVec Ideal S4096x128 .f32) (r : Fin 4096) (j : Fin 128) :
    concatenate S8192x128 0 [⟨S4096x128, H1⟩, ⟨S4096x128, H2⟩] concatenates_S4096x128_S4096x128_S8192x128_d0 (ix2 (Gcn.half 0 r) j)
      = H1 (ix2 r j) :=
  concatenate_pair_apply_left (t := S8192x128) (s₁ := S4096x128) (s₂ := S4096x128) 0 H1 H2 _ (ix2 (Gcn.half 0 r) j) rfl (ix2 r j)
    (fun b => by
      match b with
      | ⟨0, _⟩ => show r.val = (Gcn.half 0 r).val; simp [Gcn.half]
      | ⟨1, _⟩ => rfl)

/-- A row of the second copy reads the second half. -/
theorem concat0_bot (H1 H2 : FVec Ideal S4096x128 .f32) (r : Fin 4096) (j : Fin 128) :
    concatenate S8192x128 0 [⟨S4096x128, H1⟩, ⟨S4096x128, H2⟩] concatenates_S4096x128_S4096x128_S8192x128_d0 (ix2 (Gcn.half 1 r) j)
      = H2 (ix2 r j) :=
  concatenate_pair_apply_right (t := S8192x128) (s₁ := S4096x128) (s₂ := S4096x128) 0 H1 H2 _ (ix2 (Gcn.half 1 r) j) rfl rfl (ix2 r j)
    (fun b hb => by
      match b with
      | ⟨0, _⟩ => exact absurd rfl hb
      | ⟨1, _⟩ => rfl)
    (by show r.val + 4096 = (Gcn.half 1 r).val; simp [Gcn.half]; omega)

/-- The concatenation at row r of copy s: the first half for the first copy, the second half for the second. -/
theorem concat0_apply (H1 H2 : FVec Ideal S4096x128 .f32) (s : Fin 2) (r : Fin 4096) (j : Fin 128) :
    concatenate S8192x128 0 [⟨S4096x128, H1⟩, ⟨S4096x128, H2⟩] concatenates_S4096x128_S4096x128_S8192x128_d0 (ix2 (Gcn.half s r) j)
      = if s = 0 then H1 (ix2 r j) else H2 (ix2 r j) := by
  by_cases hs : s = 0
  · subst hs
    rw [if_pos rfl]
    exact concat0_top H1 H2 r j
  · have h1 : s = 1 := by
      apply Fin.ext
      have := s.isLt
      have : s.val ≠ 0 := fun h => hs (Fin.ext h)
      show s.val = 1
      omega
    subst h1
    rw [if_neg hs]
    exact concat0_bot H1 H2 r j

/-- So when each half is a function of the 2n-row index restricted to its copy, the concatenation is that function. -/
theorem concat0_eq (H1 H2 : FVec Ideal S4096x128 .f32) (G : Fin 8192 → Fin 128 → EReal)
    (h1 : ∀ r j, H1 (ix2 r j) = G (Gcn.half 0 r) j) (h2 : ∀ r j, H2 (ix2 r j) = G (Gcn.half 1 r) j) :
    concatenate S8192x128 0 [⟨S4096x128, H1⟩, ⟨S4096x128, H2⟩] concatenates_S4096x128_S4096x128_S8192x128_d0
      = fun i => G (i 0) (i 1) := by
  funext i
  obtain ⟨R, j, rfl⟩ : ∃ (R : Fin 8192) (j : Fin 128), i = ix2 R j := ⟨i 0, i 1, eq_ix2 i⟩
  show concatenate S8192x128 0 [⟨S4096x128, H1⟩, ⟨S4096x128, H2⟩] concatenates_S4096x128_S4096x128_S8192x128_d0 (ix2 R j) = G R j
  rcases Gcn.exists_half R with ⟨r, rfl⟩ | ⟨r, rfl⟩
  · rw [concat0_top, h1]
  · rw [concat0_bot, h2]

end Cert.KernelIdeal.HandV

end
-- ==== Proof.RefRead.lean ====
/-
  The first half of the reference, read at an index.

  With  x r j = x[r, j]  etc., the composed term `preBN x A W` at the index (r, j) is
      Σ_{k<128} (Σ_{c<8192} ((dinv r · adj r c) · dinv c) · x c k) · W k j
  where adj is the block adjacency [[bin A, I], [I, bin A]], deg r = Σ_c adj r c and dinv r = deg r ^ (-1/2): each operation
  of the straight line is read at an index (a broadcast reads its operand at the kept coordinates, a concatenation reads the
  piece the coordinate falls in, a row reduction is the initial value 0 plus the sum over the row, a matrix product is the sum
  over the contracted coordinate), and the result is the specification's `withWeight (refPre x A) W`.
-/
import proofs.«168352_j85693187490256_1_alg».proof.Proof.RefRun
import proofs.«168352_j85693187490256_1_alg».proof.Proof.Spec
import Idealize.ShloMosaic.Lib.ValueIdx
import Idealize.ShloMosaic.Lib.Pipeline.Value
import Idealize.ShloMosaic.Lib.StackMember
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-- A rank-2 array as a function of its two coordinates. -/
abbrev fn2 {n0 n1 : Nat} (x : FVec Ideal ⟨2, ![n0, n1]⟩ .f32) : Fin n0 → Fin n1 → EReal := fun r j => x (ix2 r j)

/-! ### Literals -/

theorem lit_zero : Ideal.ofBits .f32 0x00000000#32 = 0 := Ideal.ofBits_zero_f32

theorem lit_one : Ideal.ofBits .f32 0x3F800000#32 = 1 := by
  simp [Ideal.ofBits, Ideal.ieee, -EReal.coe_mul]; norm_num

theorem lit_neg_half : Ideal.ofBits .f32 0xBF000000#32 = ((-(1/2) : ℝ) : EReal) := by
  simp [Ideal.ofBits, Ideal.ieee, -EReal.coe_mul]; norm_num

/-! ### Broadcasts at an index -/

section Bcast
variable {α : Type}

/-- A rank-0 array broadcast to any shape reads its one element everywhere. -/
theorem bcast0_apply {t : Shape} (h : S_.BroadcastsInDim t (![] : Fin 0 → Fin t.rank)) (v : S_.Idx → α) (j : t.Idx) :
    broadcastInDim t ![] h v j = v ix0 :=
  congrArg v (funext fun a => a.elim0)

/-- A vector as a column, then across the columns: entry (r, c) is the vector's entry r. -/
theorem bcast_col_apply (v : S8192.Idx → α) (r c : Fin 8192) :
    broadcastInDim S8192x8192 ![0, 1] bcast_S8192x1_S8192x8192_0_1 (broadcastInDim S8192x1 ![0] bcast_S8192_S8192x1_0 v) (ix2 r c)
      = v (ix1 r) :=
  congrArg v (funext fun a => match a with | ⟨0, _⟩ => rfl)

/-- A vector as a row, then down the rows: entry (r, c) is the vector's entry c. -/
theorem bcast_row_apply (v : S8192.Idx → α) (r c : Fin 8192) :
    broadcastInDim S8192x8192 ![0, 1] bcast_S1x8192_S8192x8192_0_1 (broadcastInDim S1x8192 ![1] bcast_S8192_S1x8192_1 v) (ix2 r c)
      = v (ix1 c) :=
  congrArg v (funext fun a => match a with | ⟨0, _⟩ => rfl)

end Bcast

/-! ### The binarised affinity and the identity at an index -/

theorem binT_apply (A : FVec Ideal S4096x4096 .f32) (i : S4096x4096.Idx) : binT A i = Gcn.bin (A i) := by
  show Scalar.select (Ideal.cmp .ogt (A i) (Ideal.ofBits .f32 0x00000000#32)) (Ideal.ofBits .f32 0x3F800000#32)
      (Ideal.ofBits .f32 0x00000000#32) = _
  rw [lit_zero, lit_one]
  unfold Gcn.bin Scalar.select Ideal.cmp
  by_cases h : 0 < A i <;> simp [h]

theorem eyeT_apply (a b : Fin 4096) : eyeT (ix2 a b) = if a.val = b.val then 1 else 0 := by
  show (((IntOp.cmpi .eq (IntOp.addi (BitVec.ofNat 32 a.val) 0#32) (BitVec.ofNat 32 b.val)).toNat : ℝ) : EReal) = _
  have ha := a.isLt
  have hb := b.isLt
  have key : (BitVec.ofNat 32 a.val + 0#32 == BitVec.ofNat 32 b.val) = decide (a.val = b.val) := by
    rw [BitVec.add_zero]
    by_cases h : a.val = b.val
    · simp [h]
    · have : BitVec.ofNat 32 a.val ≠ BitVec.ofNat 32 b.val := by
        intro he
        have := congrArg BitVec.toNat he
        simp only [BitVec.toNat_ofNat] at this
        rw [Nat.mod_eq_of_lt (by omega), Nat.mod_eq_of_lt (by omega)] at this
        exact h this
      simp [h, this]
  unfold IntOp.cmpi IntOp.addi
  simp only [key]
  by_cases h : a.val = b.val <;> simp [h]

/-! ### The block adjacency at an index -/

/-- The upper half [bin A, I] at (r, c). -/
theorem top_apply (A : FVec Ideal S4096x4096 .f32) (r : Fin 4096) (c : Fin 8192) :
    concatenate S4096x8192 1 [⟨S4096x4096, binT A⟩, ⟨S4096x4096, eyeT⟩] concatenates_S4096x4096_S4096x4096_S4096x8192_d1 (ix2 r c)
      = if hc : c.val < 4096 then Gcn.bin (A (ix2 r ⟨c.val, hc⟩))
        else if r.val = c.val - 4096 then 1 else 0 := by
  by_cases hc : c.val < 4096
  · rw [dif_pos hc, ← binT_apply]
    exact concatenate_pair_apply_left (s₁ := S4096x4096) (s₂ := S4096x4096) (1 : Fin 2) (binT A) eyeT _ (ix2 r c) rfl
      (ix2 r (⟨c.val, hc⟩ : Fin 4096)) (fun b => match b with | ⟨0, _⟩ => rfl | ⟨1, _⟩ => rfl)
  · rw [dif_neg hc]
    have hc' : c.val - 4096 < 4096 := by have := c.isLt; omega
    have := eyeT_apply r ⟨c.val - 4096, hc'⟩
    rw [← this]
    exact concatenate_pair_apply_right (s₁ := S4096x4096) (s₂ := S4096x4096) (1 : Fin 2) (binT A) eyeT _ (ix2 r c) rfl rfl
      (ix2 r (⟨c.val - 4096, hc'⟩ : Fin 4096))
      (by
        intro b hb
        obtain ⟨bv, hbv⟩ := b
        have h2 : bv < 2 := hbv
        have e0 : bv = 0 := by
          rcases Nat.lt_or_ge bv 1 with h | h
          · omega
          · exfalso; apply hb; apply Fin.ext; show bv = 1; omega
        subst e0; rfl)
      (by show c.val - 4096 + 4096 = c.val; omega)

/-- The lower half [I, bin A] at (r, c). -/
theorem bot_apply (A : FVec Ideal S4096x4096 .f32) (r : Fin 4096) (c : Fin 8192) :
    concatenate S4096x8192 1 [⟨S4096x4096, eyeT⟩, ⟨S4096x4096, binT A⟩] concatenates_S4096x4096_S4096x4096_S4096x8192_d1 (ix2 r c)
      = if hc : c.val < 4096 then (if r.val = c.val then 1 else 0)
        else Gcn.bin (A (ix2 r ⟨c.val - 4096, by have := c.isLt; omega⟩)) := by
  by_cases hc : c.val < 4096
  · rw [dif_pos hc]
    have := eyeT_apply r ⟨c.val, hc⟩
    rw [← this]
    exact concatenate_pair_apply_left (s₁ := S4096x4096) (s₂ := S4096x4096) (1 : Fin 2) eyeT (binT A) _ (ix2 r c) rfl
      (ix2 r (⟨c.val, hc⟩ : Fin 4096)) (fun b => match b with | ⟨0, _⟩ => rfl | ⟨1, _⟩ => rfl)
  · rw [dif_neg hc, ← binT_apply]
    have hc' : c.val - 4096 < 4096 := by have := c.isLt; omega
    exact concatenate_pair_apply_right (s₁ := S4096x4096) (s₂ := S4096x4096) (1 : Fin 2) eyeT (binT A) _ (ix2 r c) rfl rfl
      (ix2 r (⟨c.val - 4096, hc'⟩ : Fin 4096))
      (by
        intro b hb
        obtain ⟨bv, hbv⟩ := b
        have h2 : bv < 2 := hbv
        have e0 : bv = 0 := by
          rcases Nat.lt_or_ge bv 1 with h | h
          · omega
          · exfalso; apply hb; apply Fin.ext; show bv = 1; omega
        subst e0; rfl)
      (by show c.val - 4096 + 4096 = c.val; omega)

/-- The block adjacency at (r, c) is the specification's. -/
theorem adjT_apply (A : FVec Ideal S4096x4096 .f32) (r c : Fin 8192) : adjT A (ix2 r c) = Gcn.adj (fn2 A) r c := by
  unfold adjT Gcn.adj
  by_cases hr : r.val < 4096
  · rw [dif_pos hr]
    refine (concatenate_pair_apply_left (s₁ := S4096x8192) (s₂ := S4096x8192) (0 : Fin 2) _ _ _ (ix2 r c) rfl
      (ix2 (⟨r.val, hr⟩ : Fin 4096) c) (fun b => match b with | ⟨0, _⟩ => rfl | ⟨1, _⟩ => rfl)).trans ?_
    rw [top_apply]
    by_cases hc : c.val < 4096
    · rw [dif_pos hc, dif_pos hc]
    · rw [dif_neg hc, dif_neg hc]
      by_cases h : r.val = c.val - 4096
      · rw [if_pos h, if_pos h.symm]
      · rw [if_neg h, if_neg (fun h' => h h'.symm)]
  · rw [dif_neg hr]
    have hr' : r.val - 4096 < 4096 := by have := r.isLt; omega
    refine (concatenate_pair_apply_right (s₁ := S4096x8192) (s₂ := S4096x8192) (0 : Fin 2) _ _ _ (ix2 r c) rfl rfl
      (ix2 (⟨r.val - 4096, hr'⟩ : Fin 4096) c)
      (by
        intro b hb
        obtain ⟨bv, hbv⟩ := b
        have h2 : bv < 2 := hbv
        have e0 : bv = 1 := by
          rcases Nat.lt_or_ge bv 1 with h | h
          · exfalso; apply hb; apply Fin.ext; show bv = 0; omega
          · omega
        subst e0; rfl)
      (by show r.val - 4096 + 4096 = r.val; omega)).trans ?_
    rw [bot_apply]
    by_cases hc : c.val < 4096
    · rw [dif_pos hc, dif_pos hc]
      by_cases h : r.val - 4096 = c.val
      · rw [if_pos h, if_pos h.symm]
      · rw [if_neg h, if_neg (fun h' => h h'.symm)]
    · rw [dif_neg hc, dif_neg hc]

/-! ### Degrees, their powers, the normalised adjacency -/

theorem degT_apply (A : FVec Ideal S4096x4096 .f32) (r : Fin 8192) : degT A (ix1 r) = Gcn.deg (fn2 A) r := by
  have h : S8192x8192.Reduces [1] S8192 := by decide
  show Ideal.hostReduceAdd reducesTo_S8192x8192_S8192_d1 (adjT A) (Ideal.ofBits .f32 0x00000000#32) (ix1 r) = _
  rw [Ideal.hostReduceAdd_single _ h, lit_zero, zero_add]
  unfold Gcn.deg
  refine Finset.sum_congr rfl fun (c : Fin 8192) _ => ?_
  have e : h.lift (ix1 r) c = ix2 r (c : Fin 8192) := funext fun a => match a with | ⟨0, _⟩ => rfl | ⟨1, _⟩ => rfl
  rw [e]
  exact adjT_apply A r c

theorem dinvT_apply (A : FVec Ideal S4096x4096 .f32) (r : Fin 8192) : dinvT A (ix1 r) = Gcn.dinv (fn2 A) r := by
  show Ideal.pow (degT A (ix1 r)) (Ideal.ofBits .f32 0xBF000000#32) = _
  rw [degT_apply, lit_neg_half]
  rfl

theorem normT_apply (A : FVec Ideal S4096x4096 .f32) (r c : Fin 8192) :
    normT A (ix2 r c) = (Gcn.dinv (fn2 A) r * Gcn.adj (fn2 A) r c) * Gcn.dinv (fn2 A) c := by
  show (broadcastInDim S8192x8192 ![0, 1] bcast_S8192x1_S8192x8192_0_1 (broadcastInDim S8192x1 ![0] bcast_S8192_S8192x1_0 (dinvT A)) (ix2 r c)
      * adjT A (ix2 r c))
    * broadcastInDim S8192x8192 ![0, 1] bcast_S1x8192_S8192x8192_0_1 (broadcastInDim S1x8192 ![1] bcast_S8192_S1x8192_1 (dinvT A)) (ix2 r c) = _
  rw [bcast_col_apply, bcast_row_apply, dinvT_apply, dinvT_apply, adjT_apply]

/-! ### The two matrix products -/

theorem propT_apply (x : FVec Ideal S8192x128 .f32) (A : FVec Ideal S4096x4096 .f32) (r : Fin 8192) (k : Fin 128) :
    propT x A (ix2 r k) = Gcn.refPre (fn2 x) (fn2 A) r k := by
  unfold propT
  have e : dot_S8192x8192_S8192x128_S8192x128_1_0_0_1_n_n = DotDims.plain 8192 8192 128 := rfl
  rw [e, StackMember.dotGeneral_plain_apply]
  unfold Gcn.refPre
  exact Finset.sum_congr rfl fun c _ => by rw [normT_apply]

/-- The composed term of the second product's buffer, at (r, j): the specification's propagated features times the weight. -/
theorem preBN_apply (x : FVec Ideal S8192x128 .f32) (A : FVec Ideal S4096x4096 .f32) (W : FVec Ideal S128x128 .f32)
    (r : Fin 8192) (j : Fin 128) :
    preBN x A W (ix2 r j) = Gcn.withWeight (Gcn.refPre (fn2 x) (fn2 A)) (fn2 W) r j := by
  unfold preBN
  have e : dot_S8192x128_S128x128_S8192x128_1_0_0_1_n_n = DotDims.plain 8192 128 128 := rfl
  rw [e, StackMember.dotGeneral_plain_apply]
  unfold Gcn.withWeight
  exact Finset.sum_congr rfl fun k _ => by rw [propT_apply]

end Cert.ReferenceIdeal.RefValue

end
-- ==== Proof.KValue.lean ====
/-
  The kernel program's result, as a function of its launch memory, and its agreement with the reference's.

  The second region leaves in its two result arrays the propagated-and-weighted features of the first and of the second copy
  of the graph; the program stacks them and applies the batch normalisation and the rectifier, a function `kTail` of the
  stacked array and of gamma, beta.  The reference applies the same normalisation to its own propagated-and-weighted
  features.  The two arrays of propagated-and-weighted features agree index by index when every entry of x is a real number
  (the specification's law), so the two results agree.
-/
import proofs.«168352_j85693187490256_1_alg».proof.Proof.KRun
import proofs.«168352_j85693187490256_1_alg».proof.Proof.R1Final
import proofs.«168352_j85693187490256_1_alg».proof.Proof.KEntry
import proofs.«168352_j85693187490256_1_alg».proof.Proof.KBridge
import proofs.«168352_j85693187490256_1_alg».proof.Proof.KTail
import proofs.«168352_j85693187490256_1_alg».proof.Proof.KTailEq
import proofs.«168352_j85693187490256_1_alg».proof.Proof.KConcat
import proofs.«168352_j85693187490256_1_alg».proof.Proof.RefRead
import proofs.«168352_j85693187490256_1_alg».proof.Proof.SpecLaws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx Cert.KernelIdeal.HandV

variable (m : (ℓ : Loc nD τ sig) → Buf (Elt Ideal) ℓ)

/-- The propagated-and-weighted features in the kernel's arrangement, from the launch memory. -/
abbrev hOf (c : Dev nD) : Fin 8192 → Fin 128 → EReal := Gcn.withWeight (Gcn.kerPre (xsOf m c) (asOf m c)) (wsOf m c)

theorem W4_v10_0 (c : Dev nD) : W4 m c (Proc.devRef .tc main_v10_0) = G5 (V3 m) c := (W4_arr m c 5).trans (final5 (V3 m) c)
theorem W4_v10_1 (c : Dev nD) : W4 m c (Proc.devRef .tc main_v10_1) = G6 (V3 m) c := (W4_arr m c 6).trans (final6 (V3 m) c)
theorem W4_arg3 (c : Dev nD) : W4 m c (Proc.devRef .tc main_arg3) = m ((c.tc : Thread nD τ).loc main_arg3) :=
  (W4_of_ne m c main_arg3 (by decide)).trans <| (W3_of m c main_arg3 (by decide)).trans <|
    (W2_of_ne m c main_arg3 (by decide)).trans <| (W1_of m c main_arg3 (by decide)).trans rfl
theorem W4_arg4 (c : Dev nD) : W4 m c (Proc.devRef .tc main_arg4) = m ((c.tc : Thread nD τ).loc main_arg4) :=
  (W4_of_ne m c main_arg4 (by decide)).trans <| (W3_of m c main_arg4 (by decide)).trans <|
    (W2_of_ne m c main_arg4 (by decide)).trans <| (W1_of m c main_arg4 (by decide)).trans rfl

/-- The first result array holds the first copy's rows of the propagated-and-weighted features, -/
theorem G5_bridge (c : Dev nD) (r : Fin 4096) (j : Fin 128) : G5 (V3 m) c (ix2 r j) = hOf m c (Gcn.half 0 r) j :=
  G5f_eq (xsOf m c) (asOf m c) (wsOf m c) _ _ _ _ _
    (fun r q => by rw [V3_arg1]) (fun r j => V3_v7 m c r j) (fun r j => V3_v9 m c r j) (fun r => V3_v5 m c r)
    (fun k j => by rw [V3_arg2]) r j
/-- the second the second copy's. -/
theorem G6_bridge (c : Dev nD) (r : Fin 4096) (j : Fin 128) : G6 (V3 m) c (ix2 r j) = hOf m c (Gcn.half 1 r) j :=
  G6f_eq (xsOf m c) (asOf m c) (wsOf m c) _ _ _ _ _
    (fun r q => by rw [V3_arg1]) (fun r j => V3_v7 m c r j) (fun r j => V3_v9 m c r j) (fun r => V3_v5 m c r)
    (fun k j => by rw [V3_arg2]) r j

/-- The program's result buffer at the end: the normalisation tail of the stacked propagated-and-weighted features. -/
theorem result_kernel (c : Dev nD) :
    W8 m c (Proc.devRef .tc main_v31)
      = kTail (fun i => hOf m c (i 0) (i 1)) (m ((c.tc : Thread nD τ).loc main_arg3)) (m ((c.tc : Thread nD τ).loc main_arg4)) := by
  show StableHlo.after (hostOps2_3 (F := Ideal)) (StableHlo.after (hostOps2_2 (F := Ideal)) (StableHlo.after (hostOps2_1 (F := Ideal))
    (StableHlo.after (hostOps2 (F := Ideal)) (W4 m c)))) (Proc.devRef .tc main_v31) = _
  rw [tail_read, W4_v10_0, W4_v10_1, W4_arg3, W4_arg4, concat0_eq _ _ (hOf m c) (G5_bridge m c) (G6_bridge m c)]

/-- With x finite, the program's result is the reference's result term of the same launch arrays. -/
theorem result_eq (c : Dev nD) (hx : ∀ r j, ∃ v : ℝ, xsOf m c r j = (v : EReal)) :
    W8 m c (Proc.devRef .tc main_v31)
      = Cert.ReferenceIdeal.RefValue.bnTail
          (Cert.ReferenceIdeal.RefValue.preBN (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4)) := by
  rw [result_kernel, kTail_eq_bnTail]
  refine congrArg (fun h => Cert.ReferenceIdeal.RefValue.bnTail h _ _) ?_
  funext i
  obtain ⟨r, j, rfl⟩ : ∃ (r : Fin 8192) (j : Fin 128), i = ix2 r j := ⟨i 0, i 1, eq_ix2 i⟩
  show hOf m c r j = _
  rw [Cert.ReferenceIdeal.RefValue.preBN_apply]
  exact (congrFun (congrFun (Gcn.withWeight_ref_eq_ker (xsOf m c) (asOf m c) (wsOf m c) hx) r) j).symm

end Cert.KernelIdeal.Hand

end
-- ==== Proof.PreFinite.lean ====
/-
  From the precondition to finiteness: when the finite-inputs predicate of the argument arrays is all ones, every entry
  of the feature array x is a real number.

  The predicate is the conjunction, over the five argument arrays, of "every entry has absolute value below +∞".  Its
  first conjunct is about x: the conjunction being 1 gives that conjunct 1; a reduction by "and" over every axis that is 1
  had a 1 at every entry; and an extended real whose absolute value max(a, -a) is below +∞ is neither +∞ nor -∞.
-/
import proofs.«168352_j85693187490256_1_alg».proof.Defs
import proofs.«168352_j85693187490256_1_alg».proof.Proof.Gen.Pre_finite_inputs
import Idealize.ShloMosaic.Lib.ReduceAll
import Idealize.ShloMosaic.Lib.ValueIdx
import Idealize.ShloMosaic.PureOps.Ideal

set_option maxRecDepth 16384

noncomputable section

namespace Cert.KernelIdeal.HandV

open Idealize.ShloMosaic Idealize.ShloMosaic.ValueIdx Idealize.SL.Sem

/-- The rank-0 shape has one index. -/
instance : Subsingleton Cert.Pre_finite_inputs.S_.Idx := ⟨fun a b => funext fun d => d.elim0⟩

/-- The pattern of +∞ denotes +∞. -/
theorem ofBits_inf : Ideal.ofBits .f32 0x7F800000#32 = ⊤ := by
  simp [Ideal.ofBits, Ideal.ieee]

/-- An extended real whose absolute value is below +∞ is a real number. -/
theorem real_of_abs_lt (a : EReal) (h : Ideal.cmp .olt (max a (-a)) (Ideal.ofBits .f32 0x7F800000#32) = 1#1) :
    ∃ v : ℝ, a = (v : EReal) := by
  rw [ofBits_inf] at h
  have hlt : max a (-a) < ⊤ := by
    unfold Ideal.cmp at h
    by_contra hn
    simp [hn] at h
  induction a using EReal.rec with
  | bot => simp at hlt
  | coe v => exact ⟨v, rfl⟩
  | top => simp at hlt

/-- Under the precondition every entry of the feature array is a real number. -/
theorem x_finite (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (r : Fin 8192) (j : Fin 128) :
    ∃ v : ℝ, m ((c.tc : Thread Cert.KernelIdeal.nD Cert.KernelIdeal.τ).loc Cert.KernelIdeal.main_arg0) (ix2 r j) = (v : EReal) := by
  have h0 := congrFun (h c) ix0
  dsimp only [Cert.Pre_finite_inputs.fn, Cert.Pre_finite_inputs.fn_part1] at h0
  have h1 := (IntOp.andi_eq_one.1 h0).1
  have h2 := (IntOp.andi_eq_one.1 h1).1
  have h3 := (IntOp.andi_eq_one.1 h2).1
  have h4 := (IntOp.andi_eq_one.1 h3).1
  have he := Host.reduce_andi_all _ _ _ _ _ h4 (ix2 r j)
  exact real_of_abs_lt _ he

end Cert.KernelIdeal.HandV

end
-- ==== Proof.lean ====
/-
  The certificate of the graph-convolution kernel against its reference (extended reals).

  Frames.  The kernel program (two pallas_call regions among stretches of host operations) runs to the end, faults nowhere
  and leaves its argument arrays unchanged: its run is the chain of its eight items, each region entered from and left at a
  known valuation of the core's buffers; the second region's accumulator is carried from grid point to grid point by the
  region's invariant.  The same holds of the word-level program and of its idealisation (one text at two float instances).
  The reference is a straight line of host operations; its frame is its run with the result dropped.

  Values.  At the extended reals the kernel program's result is the normalisation tail (mean, variance, scale, shift,
  rectifier over the 8192 rows) of the stacked array  h = (D^(-1/2) adj D^(-1/2) x) W  computed in the arrangement that never
  forms the 2n x 2n block adjacency: with d r = rsqrt (rowsum r + 1),
      top rows     d r · (Σ_c bin A r c · (d c · x c j) + d r · x (n + r) j),
      bottom rows  d r · (d r · x r j + Σ_c bin A r c · (d c · x (n + c) j)),
  each followed by the weight; the inner sums are accumulated in four column blocks from zero, which over the extended reals
  is the plain sum.  The reference computes the textbook arrangement Σ_c (dinv r · adj r c · dinv c) · x c j over the block
  adjacency with dinv = deg ^ (-1/2), followed by the same weight and the same tail.  The two arrangements agree when x is
  finite: the degrees are positive reals whatever A holds, deg ^ (-1/2) = rsqrt deg on positive reals, the identity blocks
  of the adjacency pick one term each, and d r factors out of a sum of reals.  Finiteness of x is what the precondition gives.
-/
import proofs.«168352_j85693187490256_1_alg».proof.Defs
import proofs.«168352_j85693187490256_1_alg».proof.Proof.Gen.Kernel
import proofs.«168352_j85693187490256_1_alg».proof.Proof.Gen.KernelIdeal
import proofs.«168352_j85693187490256_1_alg».proof.Proof.Gen.ReferenceIdeal
import proofs.«168352_j85693187490256_1_alg».proof.Proof.Gen.Pre_finite_inputs
import proofs.«168352_j85693187490256_1_alg».proof.Proof.KRunW
import proofs.«168352_j85693187490256_1_alg».proof.Proof.KValue
import proofs.«168352_j85693187490256_1_alg».proof.Proof.RefRun
import proofs.«168352_j85693187490256_1_alg».proof.Proof.PreFinite

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- The ideal pass rewrote nothing. -/
theorem preserves : Cert.preserves_Kernel_KernelIdeal := trivial

/-- Both idealised programs run; the kernel program's result buffer ends at its last valuation's contents, which for finite
    x is the reference's result term of the same arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W8 m c (Proc.devRef .tc Cert.KernelIdeal.main_v31), Cert.KernelIdeal.Hand.run_result m ρ, ?_⟩
  refine (θ_run Cert.ReferenceIdeal.defs _ _).mono (fun _ h c => ⟨(h c).1.trans ?_, (h c).2⟩) (Cert.ReferenceIdeal.RefValue.run m' ρ')
  rw [(hagree c).1, (hagree c).2.1, (hagree c).2.2.1, (hagree c).2.2.2.1, (hagree c).2.2.2.2]
  exact (Cert.KernelIdeal.Hand.result_eq m c (fun r j => Cert.KernelIdeal.HandV.x_finite m hpre c r j)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
